-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S16 : Shape := ⟨1, ![16]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16 : S_.BroadcastsInDim S16 (![] : Fin 0 → Fin S16.rank)
  reducesTo_S16_S_d0 : S16.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S16 .f32) (main_arg2 : FVec F S3072x1024 .f32) (main_arg3 : FVec F S3072 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S2x2048x1024 : Shape := ⟨3, ![2, 2048, 1024]⟩
abbrev S16 : Shape := ⟨1, ![16]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S3072x1 : Shape := ⟨2, ![3072, 1]⟩
abbrev S1 : Shape := ⟨1, ![1]⟩
abbrev S1x1 : Shape := ⟨2, ![1, 1]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S1x512 : Shape := ⟨2, ![1, 512]⟩
abbrev S1024x512 : Shape := ⟨2, ![1024, 512]⟩
abbrev S2x2048x3072 : Shape := ⟨3, ![2, 2048, 3072]⟩
abbrev S16x64 : Shape := ⟨2, ![16, 64]⟩
abbrev S1x1024 : Shape := ⟨2, ![1, 1024]⟩
abbrev S1x512x128 : Shape := ⟨3, ![1, 512, 128]⟩
abbrev S1x2048x128 : Shape := ⟨3, ![1, 2048, 128]⟩
abbrev S1x128 : Shape := ⟨2, ![1, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 64
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S16, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S3072, .i32⟩
  | .hbm, ⟨7, _⟩ => ⟨S_, .i32⟩
  | .hbm, ⟨8, _⟩ => ⟨S3072, .i32⟩
  | .hbm, ⟨9, _⟩ => ⟨S3072, .i1⟩
  | .hbm, ⟨10, _⟩ => ⟨S_, .i32⟩
  | .hbm, ⟨11, _⟩ => ⟨S3072, .i32⟩
  | .hbm, ⟨12, _⟩ => ⟨S3072, .i32⟩
  | .hbm, ⟨13, _⟩ => ⟨S3072, .i32⟩
  | .hbm, ⟨14, _⟩ => ⟨S3072x1, .i32⟩
  | .hbm, ⟨15, _⟩ => ⟨S1, .i32⟩
  | .hbm, ⟨16, _⟩ => ⟨S_, .i32⟩
  | .hbm, ⟨17, _⟩ => ⟨S3072x1, .i32⟩
  | .hbm, ⟨18, _⟩ => ⟨S3072x1, .i1⟩
  | .hbm, ⟨19, _⟩ => ⟨S1x1, .i32⟩
  | .hbm, ⟨20, _⟩ => ⟨S3072x1, .i32⟩
  | .hbm, ⟨21, _⟩ => ⟨S3072x1, .i1⟩
  | .hbm, ⟨22, _⟩ => ⟨S3072x1, .i1⟩
  | .hbm, ⟨23, _⟩ => ⟨S_, .i1⟩
  | .hbm, ⟨24, _⟩ => ⟨S3072, .i1⟩
  | .hbm, ⟨25, _⟩ => ⟨S3072x1024, .f32⟩
  | .hbm, ⟨26, _⟩ => ⟨S3072x1024, .i1⟩
  | .hbm, ⟨27, _⟩ => ⟨S_, .f32⟩
  | .hbm, ⟨28, _⟩ => ⟨S3072x1024, .f32⟩
  | .hbm, ⟨29, _⟩ => ⟨S3072x1024, .f32⟩
  | .hbm, ⟨30, _⟩ => ⟨S_, .i32⟩
  | .hbm, ⟨31, _⟩ => ⟨S3072, .i32⟩
  | .hbm, ⟨32, _⟩ => ⟨S3072, .i1⟩
  | .hbm, ⟨33, _⟩ => ⟨S_, .i32⟩
  | .hbm, ⟨34, _⟩ => ⟨S3072, .i32⟩
  | .hbm, ⟨35, _⟩ => ⟨S3072, .i32⟩
  | .hbm, ⟨36, _⟩ => ⟨S3072, .i32⟩
  | .hbm, ⟨37, _⟩ => ⟨S3072x1, .i32⟩
  | .hbm, ⟨38, _⟩ => ⟨S1, .i32⟩
  | .hbm, ⟨39, _⟩ => ⟨S_, .i32⟩
  | .hbm, ⟨40, _⟩ => ⟨S3072x1, .i32⟩
  | .hbm, ⟨41, _⟩ => ⟨S3072x1, .i1⟩
  | .hbm, ⟨42, _⟩ => ⟨S1x1, .i32⟩
  | .hbm, ⟨43, _⟩ => ⟨S3072x1, .i32⟩
  | .hbm, ⟨44, _⟩ => ⟨S3072x1, .i1⟩
  | .hbm, ⟨45, _⟩ => ⟨S3072x1, .i1⟩
  | .hbm, ⟨46, _⟩ => ⟨S_, .i1⟩
  | .hbm, ⟨47, _⟩ => ⟨S3072, .i1⟩
  | .hbm, ⟨48, _⟩ => ⟨S3072, .f32⟩
  | .hbm, ⟨49, _⟩ => ⟨S_, .f32⟩
  | .hbm, ⟨50, _⟩ => ⟨S3072, .f32⟩
  | .hbm, ⟨51, _⟩ => ⟨S3072, .f32⟩
  | .hbm, ⟨52, _⟩ => ⟨S4096x1024, .f32⟩
  | .hbm, ⟨53, _⟩ => ⟨S1x3072, .f32⟩
  | .hbm, ⟨54, _⟩ => ⟨S4096x3072, .bf16⟩
  | .hbm, ⟨55, _⟩ => ⟨S2x2048x3072, .bf16⟩
  | .hbm, ⟨56, _⟩ => ⟨S16x64, .f32⟩
  | .hbm, ⟨57, _⟩ => ⟨S1024, .f32⟩
  | .hbm, ⟨58, _⟩ => ⟨S1x1024, .f32⟩
  | .hbm, ⟨59, _⟩ => ⟨S2x2048x1024, .bf16⟩
  | .hbm, ⟨60, _⟩ => ⟨S1x1024, .f32⟩
  | .hbm, ⟨61, _⟩ => ⟨S4096x1024, .bf16⟩
  | .hbm, ⟨62, _⟩ => ⟨S4096x1024, .f32⟩
  | .hbm, ⟨63, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x512x128, .bf16⟩
  | .local _ .vmem, ⟨9, _⟩ => ⟨S1x512x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x128, .f32⟩
  | .local _ .vmem, ⟨15, _⟩ => ⟨S1x128, .f32⟩
  | .local _ .vmem, ⟨16, _⟩ => ⟨S1x512x128, .bf16⟩
  | .local _ .vmem, ⟨17, _⟩ => ⟨S1x512x128, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S1x512, .f32⟩
  | .local _ .vmem, ⟨23, _⟩ => ⟨S1x512, .f32⟩
  | .local _ .vmem, ⟨24, _⟩ => ⟨S1024x512, .f32⟩
  | .local _ .vmem, ⟨25, _⟩ => ⟨S1024x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  bcast_S_S3072x1 : S_.BroadcastsInDim S3072x1 (![] : Fin 0 → Fin S3072x1.rank)
  bcast_S1_S1x1_1 : S1.BroadcastsInDim S1x1 (![1] : Fin 1 → Fin S1x1.rank)
  bcast_S1x1_S3072x1_0_1 : S1x1.BroadcastsInDim S3072x1 (![0, 1] : Fin 2 → Fin S3072x1.rank)
  reducesTo_S3072x1_S3072_d1 : S3072x1.ReducesTo [1] S3072
  h_S_ : 0 < S_.numel
  bcast_S3072_S3072x1024_0 : S3072.BroadcastsInDim S3072x1024 (![0] : Fin 1 → Fin S3072x1024.rank)
  bcast_S_S3072x1024 : S_.BroadcastsInDim S3072x1024 (![] : Fin 0 → Fin S3072x1024.rank)
  shapeCasts_S2x2048x1024_S4096x1024 : S2x2048x1024.ShapeCasts S4096x1024
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S4096x3072_S2x2048x3072 : S4096x3072.ShapeCasts S2x2048x3072
  bcast_S16_S16x64_0 : S16.BroadcastsInDim S16x64 (![0] : Fin 1 → Fin S16x64.rank)
  shapeCasts_S16x64_S1024 : S16x64.ShapeCasts S1024
  shapeCasts_S1024_S1x1024 : S1024.ShapeCasts S1x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  broadcasts_S1x128_S512x128 : S1x128.Broadcasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S1x128_S2048x128 : S1x128.Broadcasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S4096x1024_S2x2048x1024 : S4096x1024.ShapeCasts S2x2048x1024
  gather_S3072x1024_S3072x1_S3072x1024_1_0_n_n_0_1_11024_wf : GatherDims.WF S3072x1024 S3072x1 S3072x1024 [1] [0] [] [0] [] 1 ![1, 1024]
  gather_S3072_S3072x1_S3072_n_0_n_n_0_1_1_wf : GatherDims.WF S3072 S3072x1 S3072 [] [0] [] [0] [] 1 ![1]
  dot_S1024x1024_S512x1024_S1024x512_1_1_0_0_n_n_wf : DotDims.WF S1024x1024 S512x1024 S1024x512 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x1024.size a
  hwx0_1 : ∀ i : grid0.Coords, EltTy.bits .f32 = 32 ∨ (Rect.block (s := S3072x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x3072.size a
  hwx0_2 : ∀ i : grid0.Coords, EltTy.bits .f32 = 32 ∨ (Rect.block (s := S1x3072) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x3072.size a
  hwx0_3 : ∀ i : grid0.Coords, EltTy.bits .bf16 = 32 ∨ (Rect.block (s := S4096x3072) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .bf16 = 32 ∨ (Rect.block (s := S2x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .bf16 = 32 ∨ (Rect.block (s := S2x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .bf16 = 32 ∨ (Rect.block (s := S2x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x1024.size a
  hwx1_3 : ∀ i : grid1.Coords, EltTy.bits .f32 = 32 ∨ (Rect.block (s := S1x1024) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S2x2048x1024.size a
  hwx1_4 : ∀ i : grid1.Coords, EltTy.bits .bf16 = 32 ∨ (Rect.block (s := S2x2048x1024) S1x512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S1024x1024.size a
  hwx2_1 : ∀ i : grid2.Coords, EltTy.bits .f32 = 32 ∨ (Rect.block (s := S1024x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x1024.size a
  hwx2_3 : ∀ i : grid2.Coords, EltTy.bits .f32 = 32 ∨ (Rect.block (s := S4096x1024) S1024x512.size (cc2_transform_3 i) (hinb2_3 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def gather_S3072_S3072x1_S3072_n_0_n_n_0_1_1 : GatherDims S3072 S3072x1 S3072 where
  offsetDims := []
  collapsedSliceDims := [0]
  operandBatchingDims := []
  startIndicesBatchingDims := []
  startIndexMap := [0]
  indexVectorDim := 1
  sliceSizes := ![1]
  wf := gather_S3072_S3072x1_S3072_n_0_n_n_0_1_1_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S16 : Shape := ⟨1, ![16]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x3x64 : Shape := ⟨5, ![2, 2048, 16, 3, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S1x16x1x1 : Shape := ⟨4, ![1, 16, 1, 1]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S2x2048x3072, .f32⟩
  | .hbm, ⟨7, _⟩ => ⟨S1x1x3072, .f32⟩
  | .hbm, ⟨8, _⟩ => ⟨S2x2048x3072, .f32⟩
  | .hbm, ⟨9, _⟩ => ⟨S2x2048x3072, .f32⟩
  | .hbm, ⟨10, _⟩ => ⟨S2x2048x16x3x64, .f32⟩
  | .hbm, ⟨11, _⟩ => ⟨S3x2x16x2048x64, .f32⟩
  | .hbm, ⟨12, _⟩ => ⟨S1x2x16x2048x64, .f32⟩
  | .hbm, ⟨13, _⟩ => ⟨S2x16x2048x64, .f32⟩
  | .hbm, ⟨14, _⟩ => ⟨S1x2x16x2048x64, .f32⟩
  | .hbm, ⟨15, _⟩ => ⟨S2x16x2048x64, .f32⟩
  | .hbm, ⟨16, _⟩ => ⟨S1x2x16x2048x64, .f32⟩
  | .hbm, ⟨17, _⟩ => ⟨S2x16x2048x64, .f32⟩
  | .hbm, ⟨18, _⟩ => ⟨S1x16x1x1, .f32⟩
  | .hbm, ⟨19, _⟩ => ⟨S2x16x2048x64, .f32⟩
  | .hbm, ⟨20, _⟩ => ⟨S2x16x2048x64, .f32⟩
  | .hbm, ⟨21, _⟩ => ⟨S2x16x2048x64, .f32⟩
  | .hbm, ⟨22, _⟩ => ⟨S2x16x2048x64, .f32⟩
  | .hbm, ⟨23, _⟩ => ⟨S2x16x2048x64, .f32⟩
  | .hbm, ⟨24, _⟩ => ⟨S2x16x2048x64, .f32⟩
  | .hbm, ⟨25, _⟩ => ⟨S2x16x2048x2048, .f32⟩
  | .hbm, ⟨26, _⟩ => ⟨S_, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x64, .f32⟩
  | .hbm, ⟨45, _⟩ => ⟨S2x2048x16x64, .f32⟩
  | .hbm, ⟨46, _⟩ => ⟨S2x2048x1024, .f32⟩
  | .hbm, ⟨47, _⟩ => ⟨S2x2048x1024, .f32⟩
  | .hbm, ⟨48, _⟩ => ⟨S1x1x1024, .f32⟩
  | .hbm, ⟨49, _⟩ => ⟨S2x2048x1024, .f32⟩
  | .hbm, ⟨50, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x3x64 : S2x2048x3072.ShapeCasts S2x2048x16x3x64
  transposes_S2x2048x16x3x64_S3x2x16x2048x64_3_0_2_1_4 : S2x2048x16x3x64.Transposes [3, 0, 2, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  shapeCasts_S16_S1x16x1x1 : S16.ShapeCasts S1x16x1x1
  bcast_S1x16x1x1_S2x16x2048x64_0_1_2_3 : S1x16x1x1.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Hand.Region0B.lean ====
/-
  The first call: the joint projection, one 1024 × 512 block of `x · Wᵀ + b` per grid point.
  At a point the body finds a 1024 × 1024 block of the flattened input (window 0), a 512 × 1024 block of the
  row-permuted weights (window 1) and a 1 × 512 block of the bias (window 2); it leaves in the output window's buffer
  (window 3) the one value it stores: the product of the first block with the transpose of the second plus the bias
  row. Below: the blocks as read off the arrays the call is entered with, what the body leaves, the body's triple, the
  proof data of the pipeline and the body obligation at every point.
-/
import proofs.«144100_j59261958750606_2_alg».proof.Proof.Gen.Kernel.Launch
import proofs.«144100_j59261958750606_2_alg».proof.Proof.Gen.Kernel.Skeleton
import proofs.«144100_j59261958750606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (when it is not fetched the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S1024x1024 := Rect.unit (s := S1024x1024) ![0, 0] S1024x1024.size inb_S1024x1024_S1024x1024_0_0
abbrev r0_w : Rect S512x1024 := Rect.unit (s := S512x1024) ![0, 0] S512x1024.size inb_S512x1024_S512x1024_0_0
abbrev r0_b : Rect S1x512 := Rect.unit (s := S1x512) ![0, 0] S1x512.size inb_S1x512_S1x512_0_0
abbrev r0_o : Rect S1024x512 := Rect.unit (s := S1024x512) ![0, 0] S1024x512.size inb_S1024x512_S1024x512_0_0

/-- The output window's buffer after the body, from the three input blocks: its one store. -/
def out0_3 (x0 : Vec F S1024x1024 .f32) (x1 : Vec F S512x1024 .f32) (x2 : Vec F S1x512 .f32) : Vec F S1024x512 .bf16 :=
  View.canon [⟨r0_o, k0_pay1 (View.ld x0 r0_x) (View.ld x1 r0_w) (View.ld x2 r0_b)⟩]

/-- The one store covers the buffer. -/
theorem cover0_3 (p0 : Vec F S1024x512 .bf16) (y : S1024x512.Idx) :
    ∃ pc ∈ ([⟨r0_o, p0⟩] : List (View.Piece (Elt F) S1024x512 .bf16)), y ∈ pc.1.set :=
  View.cover_of_tiled [⟨r0_o, p0⟩] S1024x512.size (by rfl) y

set_option maxHeartbeats 1000000 in
/-- The body on whole buffers, the inputs' at contents `x0 x1 x2` and the output's at anything, runs to the continuation
    holding the inputs' as they were and the output's at `out0_3` of them. -/
theorem sound_kernel0 (c : Dev nD) (E : Set ℕ) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .bf16) (harg5 : arg5.IsWhole)
    (x0 : Vec F S1024x1024 .f32) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the call finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Hand.Region1B.lean ====
/-
  The second call: attention for one batch entry, one pair of heads and one tile of 512 query positions per grid point.
  At a point the body finds a 512 × 128 block of queries (window 0), the 2048 × 128 blocks of keys and of values of
  the same pair of heads (windows 1 and 2; the three are blocks of ONE array, the joint projection) and the 1 × 128
  block of the head mask repeated along the channels (window 3); it leaves in the output window's buffer (window 4)
  the one value it stores: for each of the two heads, the softmax of the scaled scores of the masked queries against
  the masked keys, applied to the masked values, the two heads side by side. The shares `qs` at which the input
  arrays are held are a parameter: the three windows on one array hold it at complementary fractions.
-/
import proofs.«144100_j59261958750606_2_alg».proof.Proof.Gen.Kernel.Launch
import proofs.«144100_j59261958750606_2_alg».proof.Proof.Gen.Kernel.Skeleton
import proofs.«144100_j59261958750606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (when it is not fetched the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_m : Rect S1x128 := Rect.unit (s := S1x128) ![0, 0] S1x128.size inb_S1x128_S1x128_0_0

/-- The output window's buffer after the body, from the four input blocks (queries, keys, values, mask): its one store. -/
def out1_4 (x0 : Vec F S1x512x128 .bf16) (x1 : Vec F S1x2048x128 .bf16) (x2 : Vec F S1x2048x128 .bf16) (x3 : Vec F S1x128 .f32) : Vec F S1x512x128 .bf16 :=
  View.canon [⟨r1_q, k1_pay1 (k1_pay6 (View.ld x3 r1_m) (View.ld x0 r1_q) (View.ld x1 r1_k) (View.ld x2 r1_k)) (k1_pay7 (View.ld x3 r1_m) (View.ld x0 r1_q))
    (k1_pay8 (View.ld x3 r1_m) (View.ld x1 r1_k)) (k1_pay9 (View.ld x3 r1_m) (View.ld x2 r1_k)) (constant S512x2048 .f32 0x00000000#32)⟩]

/-- The one store covers the buffer. -/
theorem cover1_4 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

set_option maxHeartbeats 1000000 in
/-- The body on whole buffers, the inputs' at contents `x0 x1 x2 x3` and the output's at anything, runs to the
    continuation holding the inputs' as they were and the output's at `out1_4` of them. -/
theorem sound_kernel1 (c : Dev nD) (E : Set ℕ) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128 .f32) (harg6 : arg6.IsWhole) (arg7 : Memref sig .tc .vmem S1x512x128 .bf16) (harg7 : arg7.IsWhole)
    (x0 : Vec F S1x512x128 .bf16) (x1 : Vec F S1x2048x128 .bf16) (x2 : Vec F S1x2048x128 .bf16) (x3 : Vec F S1x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_4 x0 x1 x2 x3)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the pipeline on core `c`: the arrays as the call finds them; after the body at point `t` each
    input's buffer at its block and the output's at `out1_4` of the input blocks; nothing owed; the input arrays held
    at the shares `qs`. -/
def dat1 (qs : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q := qs
  owed _ := 0

variable (qs : Fin cfg1.W → PosShare TreeShare)

theorem A_eq1 (c : Dev nD) (w : Fin cfg1.W) : (dat1 V qs c).A w = V c (Pipeline.arrRef spec1 w) := by
  dsimp only [dat1]

theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = iblk1 V c 3 t := by dsimp only [dat1]
theorem after1_4 (c : Dev nD) (t : Fin cfg1.N) : (dat1 V qs c).after 4 t = out1_4 (iblk1 V c 0 t) (iblk1 V c 1 t) (iblk1 V c 2 t) (iblk1 V c 3 t) := by dsimp only [dat1]

theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d
theorem before1_3 (c : Dev nD) (t : Fin cfg1.N) (d) : (dat1 V qs c).before 3 t d = iblk1 V c 3 t :=
  before1_3_of V (dat1 V qs c) (A_eq1 V qs c 3) (after1_3 V qs c) t d

/-- What the body is called with at point `t`, the windows one by one, -/
def bodyPre1 (c : Dev nD) (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d))
    ∗ (∃ d, owns (c : Thread nD τ) (st1_4 t) fullShare ((dat1 V qs c).before 4 t d)))

/-- and what it returns. -/
def bodyPost1 (c : Dev nD) (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ owns (c : Thread nD τ) (st1_3 t) fullShare ((dat1 V qs c).after 3 t)
    ∗ owns (c : Thread nD τ) (st1_4 t) fullShare ((dat1 V qs c).after 4 t))

/-- The body at any point: the inputs' buffers hold their blocks, so `sound_kernel1` applies. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2, before1_3]
  rw [show (dat1 V qs c).Φ t.succ = (dat1 V qs c).Φ t.castSucc from rfl,
    show (dat1 V qs c).owesAt () t.succ = (dat1 V qs c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V qs c) (defs₀ (F := F)) Variants.none () Set.univ := fun t => by
  rw [bigSep_W1, bigSep_W1]
  exact sound_body1 V qs c t

end Cert.Kernel.Hand

end
-- ==== Proof.Hand.Region2B.lean ====
/-
  The third call: the output projection, one 1024 × 512 block of `a · Wfᵀ + bf` per grid point, `a` the merged heads.
  At a point the body finds a 1024 × 1024 block of the flattened attention output (window 0), a 512 × 1024 block of
  the output weights (window 1) and a 1 × 512 block of the output bias (window 2); it leaves in the output window's
  buffer (window 3) the one value it stores: the product of the first block with the transpose of the second plus the
  bias row. Below: the blocks as read off the arrays the call is entered with, what the body leaves, the body's triple,
  the proof data of the pipeline and the body obligation at every point.
-/
import proofs.«144100_j59261958750606_2_alg».proof.Proof.Gen.Kernel.Launch
import proofs.«144100_j59261958750606_2_alg».proof.Proof.Gen.Kernel.Skeleton
import proofs.«144100_j59261958750606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (when it is not fetched the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S1024x1024 := Rect.unit (s := S1024x1024) ![0, 0] S1024x1024.size inb_S1024x1024_S1024x1024_0_0
abbrev r2_w : Rect S512x1024 := Rect.unit (s := S512x1024) ![0, 0] S512x1024.size inb_S512x1024_S512x1024_0_0
abbrev r2_b : Rect S1x512 := Rect.unit (s := S1x512) ![0, 0] S1x512.size inb_S1x512_S1x512_0_0
abbrev r2_o : Rect S1024x512 := Rect.unit (s := S1024x512) ![0, 0] S1024x512.size inb_S1024x512_S1024x512_0_0

/-- The output window's buffer after the body, from the three input blocks: its one store. -/
def out2_3 (x0 : Vec F S1024x1024 .bf16) (x1 : Vec F S512x1024 .f32) (x2 : Vec F S1x512 .f32) : Vec F S1024x512 .f32 :=
  View.canon [⟨r2_o, k2_pay1 (View.ld x0 r2_x) (View.ld x1 r2_w) (View.ld x2 r2_b)⟩]

/-- The one store covers the buffer. -/
theorem cover2_3 (p0 : Vec F S1024x512 .f32) (y : S1024x512.Idx) :
    ∃ pc ∈ ([⟨r2_o, p0⟩] : List (View.Piece (Elt F) S1024x512 .f32)), y ∈ pc.1.set :=
  View.cover_of_tiled [⟨r2_o, p0⟩] S1024x512.size (by rfl) y

set_option maxHeartbeats 1000000 in
/-- The body on whole buffers, the inputs' at contents `x0 x1 x2` and the output's at anything, runs to the continuation
    holding the inputs' as they were and the output's at `out2_3` of them. -/
theorem sound_kernel2 (c : Dev nD) (E : Set ℕ) (i : grid2.Coords) (arg2 : Memref sig .tc .vmem S1024x1024 .bf16) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .f32) (harg5 : arg5.IsWhole)
    (x0 : Vec F S1024x1024 .bf16) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the pipeline on core `c`: the arrays as the call finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Hand.Shared1B.lean ====
import proofs.«144100_j59261958750606_2_alg».proof.Proof.Gen.Kernel.Launch
import Idealize.ShloMosaic.Lib.Pipeline.Regions
import Idealize.ShloMosaic.Lib.Pipeline.RegionsLoop
import Idealize.ShloMosaic.Lib.Pipeline.Frame
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Seg HostSeg RegionSeg)
open Cert.Kernel.Gen

variable {F : FTy → Type} [FloatOps F]

/-! # One array behind three input windows: the attention region's entry and exit

The attention call reads ONE array, `main_v5` (the joint projection, queries, keys and values side by side), through
three input windows at different blocks; window 3 reads the head mask `main_v8` and window 4 writes `main_v9`.
A points-to of a buffer at the full share is the separating conjunction of points-tos of the same buffer, at the same
contents, at shares that compose to the full share. Here the full share is halved and its right half halved again:
window 0 holds the left half, window 1 the left quarter of the right half, window 2 the right quarter. At the region's
entry the core's whole `main_v5` is dealt to the three windows along these shares; at its exit the three holders, which
agree on the contents, rejoin to the full share. The other two arrays are distinct buffers held whole. -/

/-- The share of window 0: the left half of the full share. -/
def qA : PosShare TreeShare := fullShare.left
/-- The share of window 1: the left half of the right half. -/
def qB : PosShare TreeShare := fullShare.right.left
/-- The share of window 2: the right half of the right half. -/
def qC : PosShare TreeShare := fullShare.right.right

/-- The two quarters compose to the right half, -/
theorem qB_op_qC : fullShare.right ∈ qB ·? qC := PosShare.mem_left_op_right fullShare.right
/-- and the left half with the right half to the full share. -/
theorem qA_op_right : fullShare ∈ qA ·? fullShare.right := PosShare.mem_left_op_right fullShare

section

variable {Ix : Type} [DecidableEq Ix] {U : Type} [URA U] {Lvl : Type}
local notation "𝕄" => MT nD τ sig Ix (Elt F) ℕ U Lvl

/-- A points-to at the full share is three points-tos of the same elements at the same contents, at the half and the
    two quarters: split along the halves, then the right half along its halves. -/
theorem pointsTo_three {ℓ : Loc nD τ sig} {I : Finset (Idx ℓ)} (f : Buf (Elt F) ℓ) :
    (ℓ ↦[I]{fullShare} f : sProp 𝕄) ⊣⊢ iprop((ℓ ↦[I]{qA} f) ∗ (ℓ ↦[I]{qB} f) ∗ (ℓ ↦[I]{qC} f)) :=
  (pointsTo_share qA_op_right).trans (sep_congr .rfl (pointsTo_share qB_op_qC))

/-- The buffers behind the five windows are three: the one windows 0, 1 and 2 share, window 3's and window 4's. -/
theorem image_arrRef1 : Finset.univ.image (Pipeline.arrRef spec1)
    = [Pipeline.arrRef spec1 0, Pipeline.arrRef spec1 3, Pipeline.arrRef spec1 4].toFinset := by decide

/-- Windows 1 and 2 read window 0's array. -/
theorem arrRef1_1 : Pipeline.arrRef spec1 1 = Pipeline.arrRef spec1 0 := by decide
theorem arrRef1_2 : Pipeline.arrRef spec1 2 = Pipeline.arrRef spec1 0 := by decide

/-- The windows' arrays are unscoped. -/
theorem image_arrRef1_sub : Finset.univ.image (Pipeline.arrRef spec1) ⊆ Finset.univ.filter fun b : Ref sig .tc => ¬ b.isScoped := by decide

/-- The windows' arrays by name: the shared array, the head mask's, the output's. -/
theorem arrRef1_0_eq : Pipeline.arrRef spec1 0 = main_v5 := rfl
theorem arrRef1_1_eq : Pipeline.arrRef spec1 1 = main_v5 := rfl
theorem arrRef1_2_eq : Pipeline.arrRef spec1 2 = main_v5 := rfl
theorem arrRef1_3_eq : Pipeline.arrRef spec1 3 = main_v8 := rfl
theorem arrRef1_4_eq : Pipeline.arrRef spec1 4 = main_v9 := rfl

/-- A reference behind no window is none of the three. -/
theorem ne_of_not_mem_image_arrRef1 {b : Ref sig .tc} (h : b ∉ Finset.univ.image (Pipeline.arrRef spec1)) :
    b ≠ main_v5 ∧ b ≠ main_v8 ∧ b ≠ main_v9 := by
  refine ⟨?_, ?_, ?_⟩ <;> rintro rfl <;> exact h (by decide)

/-- A points-to of a reference's buffer at a valuation's contents, restated over an equal reference. -/
theorem pointsTo_ref_congr (c : Dev nD) (V : (b : Ref sig .tc) → Buf (Elt F) ((c.tc : Thread nD τ).loc b)) (q : PosShare TreeShare)
    {b b' : Ref sig .tc} (h : b = b') :
    (((c.tc : Thread nD τ).loc b) ↦{q} V b : sProp 𝕄) = (((c.tc : Thread nD τ).loc b') ↦{q} V b') := by
  subst h; rfl

/-- The core's unscoped buffers are the three buffers behind the windows and the rest. -/
theorem unscopedBufs_split1 (c : Dev nD) (V : (b : Ref sig .tc) → Buf (Elt F) ((c.tc : Thread nD τ).loc b)) :
    (unscopedBufs c V : sProp 𝕄) = iprop(Pipeline.arrBufs spec1 c V ∗ Pipeline.unscopedRest spec1 c V) := by
  unfold unscopedBufs Pipeline.unscopedRest Pipeline.arrBufs
  exact bigSep_sdiff_split image_arrRef1_sub

/-- The three buffers behind the windows, one by one. -/
theorem arrBufs1_eq (c : Dev nD) (V : (b : Ref sig .tc) → Buf (Elt F) ((c.tc : Thread nD τ).loc b)) :
    (Pipeline.arrBufs spec1 c V : sProp 𝕄)
      = iprop((((c.tc : Thread nD τ).loc (Pipeline.arrRef spec1 0)) ↦{fullShare} V (Pipeline.arrRef spec1 0))
          ∗ (((c.tc : Thread nD τ).loc (Pipeline.arrRef spec1 3)) ↦{fullShare} V (Pipeline.arrRef spec1 3))
          ∗ (((c.tc : Thread nD τ).loc (Pipeline.arrRef spec1 4)) ↦{fullShare} V (Pipeline.arrRef spec1 4))) := by
  unfold Pipeline.arrBufs
  exact bigSep_eq_bigSepL_of_eq _ image_arrRef1 (by decide) _

/-- The five windows' arrays at a valuation's contents, one by one, each at its share: the inputs' as the proof data
    names them, the output's full. -/
theorem arrays1_eq (c : Dev nD) (dat : Dat τ (Elt F) Ix ℕ U Lvl cfg1 c)
    (hq : dat.q 0 = qA ∧ dat.q 1 = qB ∧ dat.q 2 = qC ∧ dat.q 3 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (dat.arrays A : sProp 𝕄)
      = iprop((((c.tc : Thread nD τ).loc (Pipeline.arrRef spec1 0)) ↦{qA} V (Pipeline.arrRef spec1 0))
          ∗ (((c.tc : Thread nD τ).loc (Pipeline.arrRef spec1 0)) ↦{qB} V (Pipeline.arrRef spec1 0))
          ∗ (((c.tc : Thread nD τ).loc (Pipeline.arrRef spec1 0)) ↦{qC} V (Pipeline.arrRef spec1 0))
          ∗ (((c.tc : Thread nD τ).loc (Pipeline.arrRef spec1 3)) ↦{fullShare} V (Pipeline.arrRef spec1 3))
          ∗ (((c.tc : Thread nD τ).loc (Pipeline.arrRef spec1 4)) ↦{fullShare} V (Pipeline.arrRef spec1 4))) := by
  have h0 : dat.share 0 = qA := by unfold Dat.share; exact (if_neg (by decide)).trans hq.1
  have h1 : dat.share 1 = qB := by unfold Dat.share; exact (if_neg (by decide)).trans hq.2.1
  have h2 : dat.share 2 = qC := by unfold Dat.share; exact (if_neg (by decide)).trans hq.2.2.1
  have h3 : dat.share 3 = fullShare := by unfold Dat.share; exact (if_neg (by decide)).trans hq.2.2.2
  have h4 : dat.share 4 = fullShare := by unfold Dat.share; exact if_pos (by decide)
  have hall : (dat.arrays A : sProp 𝕄)
      = bigSep Finset.univ fun w : Fin 5 => (((c.tc : Thread nD τ).loc (Pipeline.arrRef spec1 w)) ↦{dat.share w} V (Pipeline.arrRef spec1 w) : sProp 𝕄) := by
    unfold Dat.arrays
    exact bigSep_congr fun w _ => by rw [(arr_whole1 w).set_eq_univ, hA]
  rw [hall, bigSep_W1, h0, h1, h2, h3, h4,
    pointsTo_ref_congr c V qB arrRef1_1, pointsTo_ref_congr c V qC arrRef1_2]

/-- ENTRY, the arrays' part: a core's unscoped buffers at contents `V` are the attention call's arrays at the entry
    contents `A` — those being read off `V` (`hA`), the shared array dealt to windows 0, 1, 2 at the half and the two
    quarters, the other two held whole — and the unscoped rest. -/
theorem arrays1_of_unscopedBufs (c : Dev nD) (dat : Dat τ (Elt F) Ix ℕ U Lvl cfg1 c)
    (hq : dat.q 0 = qA ∧ dat.q 1 = qB ∧ dat.q 2 = qC ∧ dat.q 3 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (unscopedBufs c V : sProp 𝕄) ⊢ iprop(dat.arrays A ∗ Pipeline.unscopedRest spec1 c V) := by
  rw [unscopedBufs_split1, arrBufs1_eq, arrays1_eq c dat hq V A hA]
  refine sep_mono ?_ .rfl
  iintro ⟨H0, H3, H4⟩
  ihave H := (pointsTo_three _).1 $$ H0
  icases H with ⟨Ha, Hb, Hc⟩
  isplitl [Ha]; · iexact Ha
  isplitl [Hb]; · iexact Hb
  isplitl [Hc]; · iexact Hc
  isplitl [H3] <;> iassumption

/-- EXIT, the arrays' part: the attention call's arrays at contents `F` and the unscoped rest at `V` are the core's
    unscoped buffers at any valuation `V'` that has the arrays at `F` and agrees with `V` off them: the three holders
    of the shared array, at the half and the two quarters and at the same contents, rejoin to the full share. -/
theorem unscopedBufs_of_arrays1 (c : Dev nD) (dat : Dat τ (Elt F) Ix ℕ U Lvl cfg1 c)
    (hq : dat.q 0 = qA ∧ dat.q 1 = qB ∧ dat.q 2 = qC ∧ dat.q 3 = fullShare)
    (V V' : (b : Ref sig .tc) → Buf (Elt F) ((c.tc : Thread nD τ).loc b))
    (G : (w : Fin cfg1.W) → Buf (Elt F) ((cfg1.win w).arr.view.loc (c.tc : Thread nD τ)))
    (hF : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  rw [unscopedBufs_split1, arrBufs1_eq, arrays1_eq c dat hq V' G hF]
  refine sep_mono ?_ (Entails.of_eq ?_)
  · iintro ⟨Ha, Hb, Hc, H3, H4⟩
    isplitl [Ha Hb Hc]
    · iapply (pointsTo_three _).2
      isplitl [Ha]; · iexact Ha
      isplitl [Hb] <;> iassumption
    isplitl [H3] <;> iassumption
  · unfold Pipeline.unscopedRest
    exact bigSep_congr fun b hb => by rw [hrest b (Finset.mem_sdiff.mp hb).2]

end

end Cert.Kernel.Hand

end
-- ==== Proof.Hand.RunB.lean ====
/-
  The whole run of @main: host stretches and the three calls in order. Between two items a core holds every unscoped
  buffer whole at the contents the items so far have left (the launch contents, then each host stretch's operations,
  then at each call's output array what the call's write-backs leave) beside its generator register and the fact that
  it owes nothing. Each call is entered by splitting its arrays out of those buffers and left by putting them back at
  what the pipeline leaves; the attention call's three input windows share one array, each holding it at a fraction.
  At the end every unscoped buffer is read off the last contents.
-/
import proofs.«144100_j59261958750606_2_alg».proof.Proof.Hand.Region0B
import proofs.«144100_j59261958750606_2_alg».proof.Proof.Hand.Region1B
import proofs.«144100_j59261958750606_2_alg».proof.Proof.Hand.Region2B
import proofs.«144100_j59261958750606_2_alg».proof.Proof.Hand.Shared1B
import proofs.«144100_j59261958750606_2_alg».proof.Proof.Gen.Kernel.Regions
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares at which the attention call's input arrays are held: the three windows on the joint projection's array
    hold complementary fractions of it, the mask's window the whole of its array. -/
def qs1 : Fin cfg1.W → PosShare TreeShare
  | ⟨0, _⟩ => qA
  | ⟨1, _⟩ => qB
  | ⟨2, _⟩ => qC
  | _ => fullShare
theorem hq1 : qs1 0 = qA ∧ qs1 1 = qB ∧ qs1 2 = qC ∧ qs1 3 = fullShare := ⟨rfl, rfl, rfl, rfl⟩

/-! ## The contents the calls leave -/

/-- The buffers as the first call finds them, read at the TensorCore's references. -/
abbrev Vr4 : (c : Dev nD) → (b : Ref sig .tc) → Buf (Elt F) ((c : Thread nD τ).loc b) := fun c b => Gen.V4 m c b

/-- After the first call: its arrays at what the pipeline leaves, every other buffer as entered. -/
def o5 (c : Dev nD) : Valuation τ sig (Elt F) :=
  Function.update (Gen.V4 m c) main_v4 ((dat0 (Vr4 m) c).arrAt 3 cfg0.N)
def outsA : Gen.Outs (F := F) := fun _ r c => o5 m c r

abbrev Vr6 : (c : Dev nD) → (b : Ref sig .tc) → Buf (Elt F) ((c : Thread nD τ).loc b) := fun c b => Gen.V6 m (outsA m) c b

/-- After the attention call: its output array at what the pipeline leaves (its four input windows' arrays are
    unchanged), every other buffer as entered. -/
def o7 (c : Dev nD) : Valuation τ sig (Elt F) :=
  Function.update (Gen.V6 m (outsA m) c) main_v9 ((dat1 (Vr6 m) qs1 c).arrAt 4 cfg1.N)
def outsB : Gen.Outs (F := F) := fun j r c => if j = 5 then o5 m c r else o7 m c r

abbrev Vr8 : (c : Dev nD) → (b : Ref sig .tc) → Buf (Elt F) ((c : Thread nD τ).loc b) := fun c b => Gen.V8 m (outsB m) c b

/-- After the last call. -/
def o9 (c : Dev nD) : Valuation τ sig (Elt F) :=
  Function.update (Gen.V8 m (outsB m) c) main_v12 ((dat2 (Vr8 m) c).arrAt 3 cfg2.N)
/-- What each call leaves, at the three points the contents between items read it. -/
def outs : Gen.Outs (F := F) := fun j r c => if j = 5 then o5 m c r else if j = 7 then o7 m c r else o9 m c r

theorem outs_5 (r : Ref sig .tc) (c : Dev nD) : outs m 5 r c = o5 m c r := if_pos rfl
theorem outs_7 (r : Ref sig .tc) (c : Dev nD) : outs m 7 r c = o7 m c r := (if_neg (by decide)).trans (if_pos rfl)
theorem outs_9 (r : Ref sig .tc) (c : Dev nD) : outs m 9 r c = o9 m c r := (if_neg (by decide)).trans (if_neg (by decide))
theorem V6_outs (c : Dev nD) : Gen.V6 m (outs m) c = Gen.V6 m (outsA m) c := rfl
theorem V8_outs (c : Dev nD) : Gen.V8 m (outs m) c = Gen.V8 m (outsB m) c := rfl

/-! ## The proof data family and what rides along -/

/-- Every pipeline's proof data, each at its call's entry contents. -/
def pdats : (p : Fin 3) → (c : Dev nD) → Dat τ (Elt F) Unit ℕ (UR sig nD τ) ℕ (cfgs p) c
  | ⟨0, _⟩ => fun c => dat0 (Vr4 m) c
  | ⟨1, _⟩ => fun c => dat1 (Vr6 m) qs1 c
  | ⟨2, _⟩ => fun c => dat2 (Vr8 m) c

abbrev 𝒱₀ : Variants := Variants.none
abbrev L : GSem nD τ sig → Finset Unit := fun _ => ∅
abbrev lv : GSem nD τ sig → Unit → ℕ := fun _ _ => 0
/-- Beside the buffers a core holds its generator register at some state and owes nothing. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## What each call leaves, read at its arrays -/

theorem o5_out (c : Dev nD) : Gen.V5 m (outs m) c main_v4 = (dat0 (Vr4 m) c).arrAt 3 cfg0.N := by
  show Function.update (Gen.V4 m c) main_v4 (outs m 5 main_v4 c) main_v4 = _
  rw [Function.update_self, outs_5]; exact Function.update_self ..
theorem o7_out (c : Dev nD) : Gen.V7 m (outs m) c main_v9 = (dat1 (Vr6 m) qs1 c).arrAt 4 cfg1.N := by
  show Function.update (Gen.V6 m (outs m) c) main_v9 (outs m 7 main_v9 c) main_v9 = _
  rw [Function.update_self, outs_7]; exact Function.update_self ..
theorem o9_out (c : Dev nD) : Gen.V9 m (outs m) c main_v12 = (dat2 (Vr8 m) c).arrAt 3 cfg2.N := by
  show Function.update (Gen.V8 m (outs m) c) main_v12 (outs m 9 main_v12 c) main_v12 = _
  rw [Function.update_self, outs_9]; exact Function.update_self ..

theorem hF0 (c : Dev nD) (w : Fin cfg0.W) : (dat0 (Vr4 m) c).arrAt w cfg0.N = Gen.V5 m (outs m) c (Pipeline.arrRef spec0 w) := by
  match w with
  | ⟨0, _⟩ =>
    show (dat0 (Vr4 m) c).arrAt 0 cfg0.N = Gen.V5 m (outs m) c main_v2
    rw [Gen.V5_of m (outs m) c main_v2 (by decide)]
    exact ((dat0 (Vr4 m) c).arrAt_in 0 rfl _).trans (A_eq0 (Vr4 m) c 0)
  | ⟨1, _⟩ =>
    show (dat0 (Vr4 m) c).arrAt 1 cfg0.N = Gen.V5 m (outs m) c main_v0
    rw [Gen.V5_of m (outs m) c main_v0 (by decide)]
    exact ((dat0 (Vr4 m) c).arrAt_in 1 rfl _).trans (A_eq0 (Vr4 m) c 1)
  | ⟨2, _⟩ =>
    show (dat0 (Vr4 m) c).arrAt 2 cfg0.N = Gen.V5 m (outs m) c main_v3
    rw [Gen.V5_of m (outs m) c main_v3 (by decide)]
    exact ((dat0 (Vr4 m) c).arrAt_in 2 rfl _).trans (A_eq0 (Vr4 m) c 2)
  | ⟨3, _⟩ => exact (o5_out m c).symm
theorem hrest0 (c : Dev nD) : ∀ b : Ref sig .tc, b ∉ Finset.univ.image (Pipeline.arrRef spec0) → Gen.V5 m (outs m) c b = Gen.V4 m c b :=
  fun b hb => Gen.V5_of m (outs m) c b (fun h => hb (Finset.mem_image.mpr ⟨3, Finset.mem_univ _, (List.mem_singleton.mp h).symm⟩))

theorem hF2 (c : Dev nD) (w : Fin cfg2.W) : (dat2 (Vr8 m) c).arrAt w cfg2.N = Gen.V9 m (outs m) c (Pipeline.arrRef spec2 w) := by
  match w with
  | ⟨0, _⟩ =>
    show (dat2 (Vr8 m) c).arrAt 0 cfg2.N = Gen.V9 m (outs m) c main_v11
    rw [Gen.V9_of m (outs m) c main_v11 (by decide)]
    exact ((dat2 (Vr8 m) c).arrAt_in 0 rfl _).trans ((A_eq2 (Vr8 m) c 0).trans (congrFun (V8_outs m c) _).symm)
  | ⟨1, _⟩ =>
    show (dat2 (Vr8 m) c).arrAt 1 cfg2.N = Gen.V9 m (outs m) c main_arg4
    rw [Gen.V9_of m (outs m) c main_arg4 (by decide)]
    exact ((dat2 (Vr8 m) c).arrAt_in 1 rfl _).trans ((A_eq2 (Vr8 m) c 1).trans (congrFun (V8_outs m c) _).symm)
  | ⟨2, _⟩ =>
    show (dat2 (Vr8 m) c).arrAt 2 cfg2.N = Gen.V9 m (outs m) c main_v10
    rw [Gen.V9_of m (outs m) c main_v10 (by decide)]
    exact ((dat2 (Vr8 m) c).arrAt_in 2 rfl _).trans ((A_eq2 (Vr8 m) c 2).trans (congrFun (V8_outs m c) _).symm)
  | ⟨3, _⟩ => exact (o9_out m c).symm
theorem hrest2 (c : Dev nD) : ∀ b : Ref sig .tc, b ∉ Finset.univ.image (Pipeline.arrRef spec2) → Gen.V9 m (outs m) c b = Vr8 m c b :=
  fun b hb => (Gen.V9_of m (outs m) c b (fun h => hb (Finset.mem_image.mpr ⟨3, Finset.mem_univ _, (List.mem_singleton.mp h).symm⟩))).trans (congrFun (V8_outs m c) _)

theorem hF1 (c : Dev nD) (w : Fin cfg1.W) : (dat1 (Vr6 m) qs1 c).arrAt w cfg1.N = Gen.V7 m (outs m) c (Pipeline.arrRef spec1 w) := by
  match w with
  | ⟨0, _⟩ =>
    show (dat1 (Vr6 m) qs1 c).arrAt 0 cfg1.N = Gen.V7 m (outs m) c main_v5
    rw [Gen.V7_of m (outs m) c main_v5 (by decide)]
    exact ((dat1 (Vr6 m) qs1 c).arrAt_in 0 rfl _).trans ((A_eq1 (Vr6 m) qs1 c 0).trans (congrFun (V6_outs m c) _).symm)
  | ⟨1, _⟩ =>
    show (dat1 (Vr6 m) qs1 c).arrAt 1 cfg1.N = Gen.V7 m (outs m) c main_v5
    rw [Gen.V7_of m (outs m) c main_v5 (by decide)]
    exact ((dat1 (Vr6 m) qs1 c).arrAt_in 1 rfl _).trans ((A_eq1 (Vr6 m) qs1 c 1).trans (congrFun (V6_outs m c) _).symm)
  | ⟨2, _⟩ =>
    show (dat1 (Vr6 m) qs1 c).arrAt 2 cfg1.N = Gen.V7 m (outs m) c main_v5
    rw [Gen.V7_of m (outs m) c main_v5 (by decide)]
    exact ((dat1 (Vr6 m) qs1 c).arrAt_in 2 rfl _).trans ((A_eq1 (Vr6 m) qs1 c 2).trans (congrFun (V6_outs m c) _).symm)
  | ⟨3, _⟩ =>
    show (dat1 (Vr6 m) qs1 c).arrAt 3 cfg1.N = Gen.V7 m (outs m) c main_v8
    rw [Gen.V7_of m (outs m) c main_v8 (by decide)]
    exact ((dat1 (Vr6 m) qs1 c).arrAt_in 3 rfl _).trans ((A_eq1 (Vr6 m) qs1 c 3).trans (congrFun (V6_outs m c) _).symm)
  | ⟨4, _⟩ => exact (o7_out m c).symm
theorem hrest1 (c : Dev nD) : ∀ b : Ref sig .tc, b ∉ Finset.univ.image (Pipeline.arrRef spec1) → Gen.V7 m (outs m) c b = Vr6 m c b :=
  fun b hb => (Gen.V7_of m (outs m) c b (fun h => hb (Finset.mem_image.mpr ⟨4, Finset.mem_univ _, (List.mem_singleton.mp h).symm⟩))).trans (congrFun (V6_outs m c) _)

/-! ## The calls as segments -/

set_option backward.isDefEq.respectTransparency.types false in
/-- The first call: entered from every unscoped buffer at the contents before it, left at those contents updated at
    its output array. Its arrays are split out of the unscoped buffers and put back at what the pipeline leaves. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr4 m) c).loose
  hwaits := Pipeline.hwaits_of_owed_zero _ _ _ _ L lv 0 fun _ _ => rfl
  pre c := iprop(StableHlo.held (c : Thread nD τ) (Pipeline.ucRefs τ sig) (Gen.V4 m c) ∗ E 0 c)
  post c := iprop(StableHlo.held (c : Thread nD τ) (Pipeline.ucRefs τ sig) (Gen.V5 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vr4 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr4 m c) (fun b => Gen.V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at the contents before it, left at those contents updated
    at its output array. The joint projection's array is split among the three windows that read it, each at its
    fraction, and rejoined at the exit (no window writes it). -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr6 m) qs1 c).loose
  hwaits := Pipeline.hwaits_of_owed_zero _ _ _ _ L lv 1 fun _ _ => rfl
  pre c := iprop(StableHlo.held (c : Thread nD τ) (Pipeline.ucRefs τ sig) (Gen.V6 m (outsA m) c) ∗ E 1 c)
  post c := iprop(StableHlo.held (c : Thread nD τ) (Pipeline.ucRefs τ sig) (Gen.V7 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := arrays1_of_unscopedBufs (Ix := Unit) (U := UR sig nD τ) (Lvl := ℕ) c (pdats m 1 c) hq1 (Vr6 m c) (pdats m 1 c).A (A_eq1 (Vr6 m) qs1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (Ix := Unit) (U := UR sig nD τ) (Lvl := ℕ) c (pdats m 1 c) hq1 (Vr6 m c) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last call: entered from every unscoped buffer at the contents before it, left at those contents updated at
    its output array. Its arrays are split out of the unscoped buffers and put back at what the pipeline leaves. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr8 m) c).loose
  hwaits := Pipeline.hwaits_of_owed_zero _ _ _ _ L lv 2 fun _ _ => rfl
  pre c := iprop(StableHlo.held (c : Thread nD τ) (Pipeline.ucRefs τ sig) (Gen.V8 m (outsB m) c) ∗ E 2 c)
  post c := iprop(StableHlo.held (c : Thread nD τ) (Pipeline.ucRefs τ sig) (Gen.V9 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (Vr8 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vr8 m c) (fun b => Gen.V9 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the whole run -/

/-- The launch's ghost element is the pipeline library's; no core holds a resource of the certificate's own. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core has its generator register and owes nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  iintro ⟨-, H⟩; iexact H

theorem hpre1 (c : Dev nD) : iprop(StableHlo.held (c : Thread nD τ) (Pipeline.ucRefs τ sig) (Gen.V6 m (outs m) c) ∗ E 1 c) ⊢ (reg1 m).pre c := by
  rw [V6_outs]; exact .rfl
theorem hpre2 (c : Dev nD) : iprop(StableHlo.held (c : Thread nD τ) (Pipeline.ucRefs τ sig) (Gen.V8 m (outs m) c) ∗ E 2 c) ⊢ (reg2 m).pre c := by
  rw [V8_outs]; exact .rfl

/-- The frame: every weakly fair execution of @main terminates and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE3
    (reg0 m) (fun _ => .rfl) (fun _ => .rfl) (reg1 m) (hpre1 m) (fun _ => .rfl) (reg2 m) (hpre2 m) (fun _ => .rfl)

end Cert.Kernel.Hand

end
-- ==== Proof.Hand.Region0.lean ====
/-
  The first call: the joint projection, one 1024 × 512 block of `x · Wᵀ + b` per grid point.
  At a point the body finds a 1024 × 1024 block of the flattened input (window 0), a 512 × 1024 block of the
  row-permuted weights (window 1) and a 1 × 512 block of the bias (window 2); it leaves in the output window's buffer
  (window 3) the one value it stores: the product of the first block with the transpose of the second plus the bias
  row. Below: the blocks as read off the arrays the call is entered with, what the body leaves, the body's triple, the
  proof data of the pipeline and the body obligation at every point.
-/
import proofs.«144100_j59261958750606_2_alg».proof.Proof.Gen.KernelIdeal.Launch
import proofs.«144100_j59261958750606_2_alg».proof.Proof.Gen.KernelIdeal.Skeleton
import proofs.«144100_j59261958750606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (when it is not fetched the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S1024x1024 := Rect.unit (s := S1024x1024) ![0, 0] S1024x1024.size inb_S1024x1024_S1024x1024_0_0
abbrev r0_w : Rect S512x1024 := Rect.unit (s := S512x1024) ![0, 0] S512x1024.size inb_S512x1024_S512x1024_0_0
abbrev r0_b : Rect S1x512 := Rect.unit (s := S1x512) ![0, 0] S1x512.size inb_S1x512_S1x512_0_0
abbrev r0_o : Rect S1024x512 := Rect.unit (s := S1024x512) ![0, 0] S1024x512.size inb_S1024x512_S1024x512_0_0

/-- The output window's buffer after the body, from the three input blocks: its one store. -/
def out0_3 (x0 : Vec F S1024x1024 .f32) (x1 : Vec F S512x1024 .f32) (x2 : Vec F S1x512 .f32) : Vec F S1024x512 .bf16 :=
  View.canon [⟨r0_o, k0_pay1 (View.ld x0 r0_x) (View.ld x1 r0_w) (View.ld x2 r0_b)⟩]

/-- The one store covers the buffer. -/
theorem cover0_3 (p0 : Vec F S1024x512 .bf16) (y : S1024x512.Idx) :
    ∃ pc ∈ ([⟨r0_o, p0⟩] : List (View.Piece (Elt F) S1024x512 .bf16)), y ∈ pc.1.set :=
  View.cover_of_tiled [⟨r0_o, p0⟩] S1024x512.size (by rfl) y

set_option maxHeartbeats 1000000 in
/-- The body on whole buffers, the inputs' at contents `x0 x1 x2` and the output's at anything, runs to the continuation
    holding the inputs' as they were and the output's at `out0_3` of them. -/
theorem sound_kernel0 (c : Dev nD) (E : Set ℕ) (i : grid0.Coords) (arg2 : Memref sig .tc .vmem S1024x1024 .f32) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .bf16) (harg5 : arg5.IsWhole)
    (x0 : Vec F S1024x1024 .f32) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core `c`: the arrays as the call finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Hand.Region1.lean ====
/-
  The second call: attention for one batch entry, one pair of heads and one tile of 512 query positions per grid point.
  At a point the body finds a 512 × 128 block of queries (window 0), the 2048 × 128 blocks of keys and of values of
  the same pair of heads (windows 1 and 2; the three are blocks of ONE array, the joint projection) and the 1 × 128
  block of the head mask repeated along the channels (window 3); it leaves in the output window's buffer (window 4)
  the one value it stores: for each of the two heads, the softmax of the scaled scores of the masked queries against
  the masked keys, applied to the masked values, the two heads side by side. The shares `qs` at which the input
  arrays are held are a parameter: the three windows on one array hold it at complementary fractions.
-/
import proofs.«144100_j59261958750606_2_alg».proof.Proof.Gen.KernelIdeal.Launch
import proofs.«144100_j59261958750606_2_alg».proof.Proof.Gen.KernelIdeal.Skeleton
import proofs.«144100_j59261958750606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (when it is not fetched the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_q : Rect S1x512x128 := Rect.unit (s := S1x512x128) ![0, 0, 0] S1x512x128.size inb_S1x512x128_S1x512x128_0_0_0
abbrev r1_k : Rect S1x2048x128 := Rect.unit (s := S1x2048x128) ![0, 0, 0] S1x2048x128.size inb_S1x2048x128_S1x2048x128_0_0_0
abbrev r1_m : Rect S1x128 := Rect.unit (s := S1x128) ![0, 0] S1x128.size inb_S1x128_S1x128_0_0

/-- The output window's buffer after the body, from the four input blocks (queries, keys, values, mask): its one store. -/
def out1_4 (x0 : Vec F S1x512x128 .bf16) (x1 : Vec F S1x2048x128 .bf16) (x2 : Vec F S1x2048x128 .bf16) (x3 : Vec F S1x128 .f32) : Vec F S1x512x128 .bf16 :=
  View.canon [⟨r1_q, k1_pay1 (k1_pay6 (View.ld x3 r1_m) (View.ld x0 r1_q) (View.ld x1 r1_k) (View.ld x2 r1_k)) (k1_pay7 (View.ld x3 r1_m) (View.ld x0 r1_q))
    (k1_pay8 (View.ld x3 r1_m) (View.ld x1 r1_k)) (k1_pay9 (View.ld x3 r1_m) (View.ld x2 r1_k)) (constant S512x2048 .f32 0x00000000#32)⟩]

/-- The one store covers the buffer. -/
theorem cover1_4 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

set_option maxHeartbeats 1000000 in
/-- The body on whole buffers, the inputs' at contents `x0 x1 x2 x3` and the output's at anything, runs to the
    continuation holding the inputs' as they were and the output's at `out1_4` of them. -/
theorem sound_kernel1 (c : Dev nD) (E : Set ℕ) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128 .f32) (harg6 : arg6.IsWhole) (arg7 : Memref sig .tc .vmem S1x512x128 .bf16) (harg7 : arg7.IsWhole)
    (x0 : Vec F S1x512x128 .bf16) (x1 : Vec F S1x2048x128 .bf16) (x2 : Vec F S1x2048x128 .bf16) (x3 : Vec F S1x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_4 x0 x1 x2 x3)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the pipeline on core `c`: the arrays as the call finds them; after the body at point `t` each
    input's buffer at its block and the output's at `out1_4` of the input blocks; nothing owed; the input arrays held
    at the shares `qs`. -/
def dat1 (qs : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q := qs
  owed _ := 0

variable (qs : Fin cfg1.W → PosShare TreeShare)

theorem A_eq1 (c : Dev nD) (w : Fin cfg1.W) : (dat1 V qs c).A w = V c (Pipeline.arrRef spec1 w) := by
  dsimp only [dat1]

theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = iblk1 V c 3 t := by dsimp only [dat1]
theorem after1_4 (c : Dev nD) (t : Fin cfg1.N) : (dat1 V qs c).after 4 t = out1_4 (iblk1 V c 0 t) (iblk1 V c 1 t) (iblk1 V c 2 t) (iblk1 V c 3 t) := by dsimp only [dat1]

theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d
theorem before1_3 (c : Dev nD) (t : Fin cfg1.N) (d) : (dat1 V qs c).before 3 t d = iblk1 V c 3 t :=
  before1_3_of V (dat1 V qs c) (A_eq1 V qs c 3) (after1_3 V qs c) t d

/-- What the body is called with at point `t`, the windows one by one, -/
def bodyPre1 (c : Dev nD) (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d))
    ∗ (∃ d, owns (c : Thread nD τ) (st1_4 t) fullShare ((dat1 V qs c).before 4 t d)))

/-- and what it returns. -/
def bodyPost1 (c : Dev nD) (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ owns (c : Thread nD τ) (st1_3 t) fullShare ((dat1 V qs c).after 3 t)
    ∗ owns (c : Thread nD τ) (st1_4 t) fullShare ((dat1 V qs c).after 4 t))

/-- The body at any point: the inputs' buffers hold their blocks, so `sound_kernel1` applies. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2, before1_3]
  rw [show (dat1 V qs c).Φ t.succ = (dat1 V qs c).Φ t.castSucc from rfl,
    show (dat1 V qs c).owesAt () t.succ = (dat1 V qs c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V qs c) (defs₀ (F := F)) Variants.none () Set.univ := fun t => by
  rw [bigSep_W1, bigSep_W1]
  exact sound_body1 V qs c t

end Cert.KernelIdeal.Hand

end
-- ==== Proof.Hand.Region2.lean ====
/-
  The third call: the output projection, one 1024 × 512 block of `a · Wfᵀ + bf` per grid point, `a` the merged heads.
  At a point the body finds a 1024 × 1024 block of the flattened attention output (window 0), a 512 × 1024 block of
  the output weights (window 1) and a 1 × 512 block of the output bias (window 2); it leaves in the output window's
  buffer (window 3) the one value it stores: the product of the first block with the transpose of the second plus the
  bias row. Below: the blocks as read off the arrays the call is entered with, what the body leaves, the body's triple,
  the proof data of the pipeline and the body obligation at every point.
-/
import proofs.«144100_j59261958750606_2_alg».proof.Proof.Gen.KernelIdeal.Launch
import proofs.«144100_j59261958750606_2_alg».proof.Proof.Gen.KernelIdeal.Skeleton
import proofs.«144100_j59261958750606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (when it is not fetched the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S1024x1024 := Rect.unit (s := S1024x1024) ![0, 0] S1024x1024.size inb_S1024x1024_S1024x1024_0_0
abbrev r2_w : Rect S512x1024 := Rect.unit (s := S512x1024) ![0, 0] S512x1024.size inb_S512x1024_S512x1024_0_0
abbrev r2_b : Rect S1x512 := Rect.unit (s := S1x512) ![0, 0] S1x512.size inb_S1x512_S1x512_0_0
abbrev r2_o : Rect S1024x512 := Rect.unit (s := S1024x512) ![0, 0] S1024x512.size inb_S1024x512_S1024x512_0_0

/-- The output window's buffer after the body, from the three input blocks: its one store. -/
def out2_3 (x0 : Vec F S1024x1024 .bf16) (x1 : Vec F S512x1024 .f32) (x2 : Vec F S1x512 .f32) : Vec F S1024x512 .f32 :=
  View.canon [⟨r2_o, k2_pay1 (View.ld x0 r2_x) (View.ld x1 r2_w) (View.ld x2 r2_b)⟩]

/-- The one store covers the buffer. -/
theorem cover2_3 (p0 : Vec F S1024x512 .f32) (y : S1024x512.Idx) :
    ∃ pc ∈ ([⟨r2_o, p0⟩] : List (View.Piece (Elt F) S1024x512 .f32)), y ∈ pc.1.set :=
  View.cover_of_tiled [⟨r2_o, p0⟩] S1024x512.size (by rfl) y

set_option maxHeartbeats 1000000 in
/-- The body on whole buffers, the inputs' at contents `x0 x1 x2` and the output's at anything, runs to the continuation
    holding the inputs' as they were and the output's at `out2_3` of them. -/
theorem sound_kernel2 (c : Dev nD) (E : Set ℕ) (i : grid2.Coords) (arg2 : Memref sig .tc .vmem S1024x1024 .bf16) (harg2 : arg2.IsWhole) (arg3 : Memref sig .tc .vmem S512x1024 .f32) (harg3 : arg3.IsWhole) (arg4 : Memref sig .tc .vmem S1x512 .f32) (harg4 : arg4.IsWhole) (arg5 : Memref sig .tc .vmem S1024x512 .f32) (harg5 : arg5.IsWhole)
    (x0 : Vec F S1024x1024 .bf16) (x1 : Vec F S512x1024 .f32) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the pipeline on core `c`: the arrays as the call finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Hand.Shared1.lean ====
import proofs.«144100_j59261958750606_2_alg».proof.Proof.Gen.KernelIdeal.Launch
import Idealize.ShloMosaic.Lib.Pipeline.Regions
import Idealize.ShloMosaic.Lib.Pipeline.RegionsLoop
import Idealize.ShloMosaic.Lib.Pipeline.Frame
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Seg HostSeg RegionSeg)
open Cert.KernelIdeal.Gen

variable {F : FTy → Type} [FloatOps F]

/-! # One array behind three input windows: the attention region's entry and exit

The attention call reads ONE array, `main_v5` (the joint projection, queries, keys and values side by side), through
three input windows at different blocks; window 3 reads the head mask `main_v8` and window 4 writes `main_v9`.
A points-to of a buffer at the full share is the separating conjunction of points-tos of the same buffer, at the same
contents, at shares that compose to the full share. Here the full share is halved and its right half halved again:
window 0 holds the left half, window 1 the left quarter of the right half, window 2 the right quarter. At the region's
entry the core's whole `main_v5` is dealt to the three windows along these shares; at its exit the three holders, which
agree on the contents, rejoin to the full share. The other two arrays are distinct buffers held whole. -/

/-- The share of window 0: the left half of the full share. -/
def qA : PosShare TreeShare := fullShare.left
/-- The share of window 1: the left half of the right half. -/
def qB : PosShare TreeShare := fullShare.right.left
/-- The share of window 2: the right half of the right half. -/
def qC : PosShare TreeShare := fullShare.right.right

/-- The two quarters compose to the right half, -/
theorem qB_op_qC : fullShare.right ∈ qB ·? qC := PosShare.mem_left_op_right fullShare.right
/-- and the left half with the right half to the full share. -/
theorem qA_op_right : fullShare ∈ qA ·? fullShare.right := PosShare.mem_left_op_right fullShare

section

variable {Ix : Type} [DecidableEq Ix] {U : Type} [URA U] {Lvl : Type}
local notation "𝕄" => MT nD τ sig Ix (Elt F) ℕ U Lvl

/-- A points-to at the full share is three points-tos of the same elements at the same contents, at the half and the
    two quarters: split along the halves, then the right half along its halves. -/
theorem pointsTo_three {ℓ : Loc nD τ sig} {I : Finset (Idx ℓ)} (f : Buf (Elt F) ℓ) :
    (ℓ ↦[I]{fullShare} f : sProp 𝕄) ⊣⊢ iprop((ℓ ↦[I]{qA} f) ∗ (ℓ ↦[I]{qB} f) ∗ (ℓ ↦[I]{qC} f)) :=
  (pointsTo_share qA_op_right).trans (sep_congr .rfl (pointsTo_share qB_op_qC))

/-- The buffers behind the five windows are three: the one windows 0, 1 and 2 share, window 3's and window 4's. -/
theorem image_arrRef1 : Finset.univ.image (Pipeline.arrRef spec1)
    = [Pipeline.arrRef spec1 0, Pipeline.arrRef spec1 3, Pipeline.arrRef spec1 4].toFinset := by decide

/-- Windows 1 and 2 read window 0's array. -/
theorem arrRef1_1 : Pipeline.arrRef spec1 1 = Pipeline.arrRef spec1 0 := by decide
theorem arrRef1_2 : Pipeline.arrRef spec1 2 = Pipeline.arrRef spec1 0 := by decide

/-- The windows' arrays are unscoped. -/
theorem image_arrRef1_sub : Finset.univ.image (Pipeline.arrRef spec1) ⊆ Finset.univ.filter fun b : Ref sig .tc => ¬ b.isScoped := by decide

/-- The windows' arrays by name: the shared array, the head mask's, the output's. -/
theorem arrRef1_0_eq : Pipeline.arrRef spec1 0 = main_v5 := rfl
theorem arrRef1_1_eq : Pipeline.arrRef spec1 1 = main_v5 := rfl
theorem arrRef1_2_eq : Pipeline.arrRef spec1 2 = main_v5 := rfl
theorem arrRef1_3_eq : Pipeline.arrRef spec1 3 = main_v8 := rfl
theorem arrRef1_4_eq : Pipeline.arrRef spec1 4 = main_v9 := rfl

/-- A reference behind no window is none of the three. -/
theorem ne_of_not_mem_image_arrRef1 {b : Ref sig .tc} (h : b ∉ Finset.univ.image (Pipeline.arrRef spec1)) :
    b ≠ main_v5 ∧ b ≠ main_v8 ∧ b ≠ main_v9 := by
  refine ⟨?_, ?_, ?_⟩ <;> rintro rfl <;> exact h (by decide)

/-- A points-to of a reference's buffer at a valuation's contents, restated over an equal reference. -/
theorem pointsTo_ref_congr (c : Dev nD) (V : (b : Ref sig .tc) → Buf (Elt F) ((c.tc : Thread nD τ).loc b)) (q : PosShare TreeShare)
    {b b' : Ref sig .tc} (h : b = b') :
    (((c.tc : Thread nD τ).loc b) ↦{q} V b : sProp 𝕄) = (((c.tc : Thread nD τ).loc b') ↦{q} V b') := by
  subst h; rfl

/-- The core's unscoped buffers are the three buffers behind the windows and the rest. -/
theorem unscopedBufs_split1 (c : Dev nD) (V : (b : Ref sig .tc) → Buf (Elt F) ((c.tc : Thread nD τ).loc b)) :
    (unscopedBufs c V : sProp 𝕄) = iprop(Pipeline.arrBufs spec1 c V ∗ Pipeline.unscopedRest spec1 c V) := by
  unfold unscopedBufs Pipeline.unscopedRest Pipeline.arrBufs
  exact bigSep_sdiff_split image_arrRef1_sub

/-- The three buffers behind the windows, one by one. -/
theorem arrBufs1_eq (c : Dev nD) (V : (b : Ref sig .tc) → Buf (Elt F) ((c.tc : Thread nD τ).loc b)) :
    (Pipeline.arrBufs spec1 c V : sProp 𝕄)
      = iprop((((c.tc : Thread nD τ).loc (Pipeline.arrRef spec1 0)) ↦{fullShare} V (Pipeline.arrRef spec1 0))
          ∗ (((c.tc : Thread nD τ).loc (Pipeline.arrRef spec1 3)) ↦{fullShare} V (Pipeline.arrRef spec1 3))
          ∗ (((c.tc : Thread nD τ).loc (Pipeline.arrRef spec1 4)) ↦{fullShare} V (Pipeline.arrRef spec1 4))) := by
  unfold Pipeline.arrBufs
  exact bigSep_eq_bigSepL_of_eq _ image_arrRef1 (by decide) _

/-- The five windows' arrays at a valuation's contents, one by one, each at its share: the inputs' as the proof data
    names them, the output's full. -/
theorem arrays1_eq (c : Dev nD) (dat : Dat τ (Elt F) Ix ℕ U Lvl cfg1 c)
    (hq : dat.q 0 = qA ∧ dat.q 1 = qB ∧ dat.q 2 = qC ∧ dat.q 3 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (dat.arrays A : sProp 𝕄)
      = iprop((((c.tc : Thread nD τ).loc (Pipeline.arrRef spec1 0)) ↦{qA} V (Pipeline.arrRef spec1 0))
          ∗ (((c.tc : Thread nD τ).loc (Pipeline.arrRef spec1 0)) ↦{qB} V (Pipeline.arrRef spec1 0))
          ∗ (((c.tc : Thread nD τ).loc (Pipeline.arrRef spec1 0)) ↦{qC} V (Pipeline.arrRef spec1 0))
          ∗ (((c.tc : Thread nD τ).loc (Pipeline.arrRef spec1 3)) ↦{fullShare} V (Pipeline.arrRef spec1 3))
          ∗ (((c.tc : Thread nD τ).loc (Pipeline.arrRef spec1 4)) ↦{fullShare} V (Pipeline.arrRef spec1 4))) := by
  have h0 : dat.share 0 = qA := by unfold Dat.share; exact (if_neg (by decide)).trans hq.1
  have h1 : dat.share 1 = qB := by unfold Dat.share; exact (if_neg (by decide)).trans hq.2.1
  have h2 : dat.share 2 = qC := by unfold Dat.share; exact (if_neg (by decide)).trans hq.2.2.1
  have h3 : dat.share 3 = fullShare := by unfold Dat.share; exact (if_neg (by decide)).trans hq.2.2.2
  have h4 : dat.share 4 = fullShare := by unfold Dat.share; exact if_pos (by decide)
  have hall : (dat.arrays A : sProp 𝕄)
      = bigSep Finset.univ fun w : Fin 5 => (((c.tc : Thread nD τ).loc (Pipeline.arrRef spec1 w)) ↦{dat.share w} V (Pipeline.arrRef spec1 w) : sProp 𝕄) := by
    unfold Dat.arrays
    exact bigSep_congr fun w _ => by rw [(arr_whole1 w).set_eq_univ, hA]
  rw [hall, bigSep_W1, h0, h1, h2, h3, h4,
    pointsTo_ref_congr c V qB arrRef1_1, pointsTo_ref_congr c V qC arrRef1_2]

/-- ENTRY, the arrays' part: a core's unscoped buffers at contents `V` are the attention call's arrays at the entry
    contents `A` — those being read off `V` (`hA`), the shared array dealt to windows 0, 1, 2 at the half and the two
    quarters, the other two held whole — and the unscoped rest. -/
theorem arrays1_of_unscopedBufs (c : Dev nD) (dat : Dat τ (Elt F) Ix ℕ U Lvl cfg1 c)
    (hq : dat.q 0 = qA ∧ dat.q 1 = qB ∧ dat.q 2 = qC ∧ dat.q 3 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (unscopedBufs c V : sProp 𝕄) ⊢ iprop(dat.arrays A ∗ Pipeline.unscopedRest spec1 c V) := by
  rw [unscopedBufs_split1, arrBufs1_eq, arrays1_eq c dat hq V A hA]
  refine sep_mono ?_ .rfl
  iintro ⟨H0, H3, H4⟩
  ihave H := (pointsTo_three _).1 $$ H0
  icases H with ⟨Ha, Hb, Hc⟩
  isplitl [Ha]; · iexact Ha
  isplitl [Hb]; · iexact Hb
  isplitl [Hc]; · iexact Hc
  isplitl [H3] <;> iassumption

/-- EXIT, the arrays' part: the attention call's arrays at contents `F` and the unscoped rest at `V` are the core's
    unscoped buffers at any valuation `V'` that has the arrays at `F` and agrees with `V` off them: the three holders
    of the shared array, at the half and the two quarters and at the same contents, rejoin to the full share. -/
theorem unscopedBufs_of_arrays1 (c : Dev nD) (dat : Dat τ (Elt F) Ix ℕ U Lvl cfg1 c)
    (hq : dat.q 0 = qA ∧ dat.q 1 = qB ∧ dat.q 2 = qC ∧ dat.q 3 = fullShare)
    (V V' : (b : Ref sig .tc) → Buf (Elt F) ((c.tc : Thread nD τ).loc b))
    (G : (w : Fin cfg1.W) → Buf (Elt F) ((cfg1.win w).arr.view.loc (c.tc : Thread nD τ)))
    (hF : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  rw [unscopedBufs_split1, arrBufs1_eq, arrays1_eq c dat hq V' G hF]
  refine sep_mono ?_ (Entails.of_eq ?_)
  · iintro ⟨Ha, Hb, Hc, H3, H4⟩
    isplitl [Ha Hb Hc]
    · iapply (pointsTo_three _).2
      isplitl [Ha]; · iexact Ha
      isplitl [Hb] <;> iassumption
    isplitl [H3] <;> iassumption
  · unfold Pipeline.unscopedRest
    exact bigSep_congr fun b hb => by rw [hrest b (Finset.mem_sdiff.mp hb).2]

end

end Cert.KernelIdeal.Hand

end
-- ==== Proof.Hand.Run.lean ====
/-
  The whole run of @main: host stretches and the three calls in order. Between two items a core holds every unscoped
  buffer whole at the contents the items so far have left (the launch contents, then each host stretch's operations,
  then at each call's output array what the call's write-backs leave) beside its generator register and the fact that
  it owes nothing. Each call is entered by splitting its arrays out of those buffers and left by putting them back at
  what the pipeline leaves; the attention call's three input windows share one array, each holding it at a fraction.
  At the end every unscoped buffer is read off the last contents.
-/
import proofs.«144100_j59261958750606_2_alg».proof.Proof.Hand.Region0
import proofs.«144100_j59261958750606_2_alg».proof.Proof.Hand.Region1
import proofs.«144100_j59261958750606_2_alg».proof.Proof.Hand.Region2
import proofs.«144100_j59261958750606_2_alg».proof.Proof.Hand.Shared1
import proofs.«144100_j59261958750606_2_alg».proof.Proof.Gen.KernelIdeal.Regions
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares at which the attention call's input arrays are held: the three windows on the joint projection's array
    hold complementary fractions of it, the mask's window the whole of its array. -/
def qs1 : Fin cfg1.W → PosShare TreeShare
  | ⟨0, _⟩ => qA
  | ⟨1, _⟩ => qB
  | ⟨2, _⟩ => qC
  | _ => fullShare
theorem hq1 : qs1 0 = qA ∧ qs1 1 = qB ∧ qs1 2 = qC ∧ qs1 3 = fullShare := ⟨rfl, rfl, rfl, rfl⟩

/-! ## The contents the calls leave -/

/-- The buffers as the first call finds them, read at the TensorCore's references. -/
abbrev Vr4 : (c : Dev nD) → (b : Ref sig .tc) → Buf (Elt F) ((c : Thread nD τ).loc b) := fun c b => Gen.V4 m c b

/-- After the first call: its arrays at what the pipeline leaves, every other buffer as entered. -/
def o5 (c : Dev nD) : Valuation τ sig (Elt F) :=
  Function.update (Gen.V4 m c) main_v4 ((dat0 (Vr4 m) c).arrAt 3 cfg0.N)
def outsA : Gen.Outs (F := F) := fun _ r c => o5 m c r

abbrev Vr6 : (c : Dev nD) → (b : Ref sig .tc) → Buf (Elt F) ((c : Thread nD τ).loc b) := fun c b => Gen.V6 m (outsA m) c b

/-- After the attention call: its output array at what the pipeline leaves (its four input windows' arrays are
    unchanged), every other buffer as entered. -/
def o7 (c : Dev nD) : Valuation τ sig (Elt F) :=
  Function.update (Gen.V6 m (outsA m) c) main_v9 ((dat1 (Vr6 m) qs1 c).arrAt 4 cfg1.N)
def outsB : Gen.Outs (F := F) := fun j r c => if j = 5 then o5 m c r else o7 m c r

abbrev Vr8 : (c : Dev nD) → (b : Ref sig .tc) → Buf (Elt F) ((c : Thread nD τ).loc b) := fun c b => Gen.V8 m (outsB m) c b

/-- After the last call. -/
def o9 (c : Dev nD) : Valuation τ sig (Elt F) :=
  Function.update (Gen.V8 m (outsB m) c) main_v12 ((dat2 (Vr8 m) c).arrAt 3 cfg2.N)
/-- What each call leaves, at the three points the contents between items read it. -/
def outs : Gen.Outs (F := F) := fun j r c => if j = 5 then o5 m c r else if j = 7 then o7 m c r else o9 m c r

theorem outs_5 (r : Ref sig .tc) (c : Dev nD) : outs m 5 r c = o5 m c r := if_pos rfl
theorem outs_7 (r : Ref sig .tc) (c : Dev nD) : outs m 7 r c = o7 m c r := (if_neg (by decide)).trans (if_pos rfl)
theorem outs_9 (r : Ref sig .tc) (c : Dev nD) : outs m 9 r c = o9 m c r := (if_neg (by decide)).trans (if_neg (by decide))
theorem V6_outs (c : Dev nD) : Gen.V6 m (outs m) c = Gen.V6 m (outsA m) c := rfl
theorem V8_outs (c : Dev nD) : Gen.V8 m (outs m) c = Gen.V8 m (outsB m) c := rfl

/-! ## The proof data family and what rides along -/

/-- Every pipeline's proof data, each at its call's entry contents. -/
def pdats : (p : Fin 3) → (c : Dev nD) → Dat τ (Elt F) Unit ℕ (UR sig nD τ) ℕ (cfgs p) c
  | ⟨0, _⟩ => fun c => dat0 (Vr4 m) c
  | ⟨1, _⟩ => fun c => dat1 (Vr6 m) qs1 c
  | ⟨2, _⟩ => fun c => dat2 (Vr8 m) c

abbrev 𝒱₀ : Variants := Variants.none
abbrev L : GSem nD τ sig → Finset Unit := fun _ => ∅
abbrev lv : GSem nD τ sig → Unit → ℕ := fun _ _ => 0
/-- Beside the buffers a core holds its generator register at some state and owes nothing. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## What each call leaves, read at its arrays -/

theorem o5_out (c : Dev nD) : Gen.V5 m (outs m) c main_v4 = (dat0 (Vr4 m) c).arrAt 3 cfg0.N := by
  show Function.update (Gen.V4 m c) main_v4 (outs m 5 main_v4 c) main_v4 = _
  rw [Function.update_self, outs_5]; exact Function.update_self ..
theorem o7_out (c : Dev nD) : Gen.V7 m (outs m) c main_v9 = (dat1 (Vr6 m) qs1 c).arrAt 4 cfg1.N := by
  show Function.update (Gen.V6 m (outs m) c) main_v9 (outs m 7 main_v9 c) main_v9 = _
  rw [Function.update_self, outs_7]; exact Function.update_self ..
theorem o9_out (c : Dev nD) : Gen.V9 m (outs m) c main_v12 = (dat2 (Vr8 m) c).arrAt 3 cfg2.N := by
  show Function.update (Gen.V8 m (outs m) c) main_v12 (outs m 9 main_v12 c) main_v12 = _
  rw [Function.update_self, outs_9]; exact Function.update_self ..

theorem hF0 (c : Dev nD) (w : Fin cfg0.W) : (dat0 (Vr4 m) c).arrAt w cfg0.N = Gen.V5 m (outs m) c (Pipeline.arrRef spec0 w) := by
  match w with
  | ⟨0, _⟩ =>
    show (dat0 (Vr4 m) c).arrAt 0 cfg0.N = Gen.V5 m (outs m) c main_v2
    rw [Gen.V5_of m (outs m) c main_v2 (by decide)]
    exact ((dat0 (Vr4 m) c).arrAt_in 0 rfl _).trans (A_eq0 (Vr4 m) c 0)
  | ⟨1, _⟩ =>
    show (dat0 (Vr4 m) c).arrAt 1 cfg0.N = Gen.V5 m (outs m) c main_v0
    rw [Gen.V5_of m (outs m) c main_v0 (by decide)]
    exact ((dat0 (Vr4 m) c).arrAt_in 1 rfl _).trans (A_eq0 (Vr4 m) c 1)
  | ⟨2, _⟩ =>
    show (dat0 (Vr4 m) c).arrAt 2 cfg0.N = Gen.V5 m (outs m) c main_v3
    rw [Gen.V5_of m (outs m) c main_v3 (by decide)]
    exact ((dat0 (Vr4 m) c).arrAt_in 2 rfl _).trans (A_eq0 (Vr4 m) c 2)
  | ⟨3, _⟩ => exact (o5_out m c).symm
theorem hrest0 (c : Dev nD) : ∀ b : Ref sig .tc, b ∉ Finset.univ.image (Pipeline.arrRef spec0) → Gen.V5 m (outs m) c b = Gen.V4 m c b :=
  fun b hb => Gen.V5_of m (outs m) c b (fun h => hb (Finset.mem_image.mpr ⟨3, Finset.mem_univ _, (List.mem_singleton.mp h).symm⟩))

theorem hF2 (c : Dev nD) (w : Fin cfg2.W) : (dat2 (Vr8 m) c).arrAt w cfg2.N = Gen.V9 m (outs m) c (Pipeline.arrRef spec2 w) := by
  match w with
  | ⟨0, _⟩ =>
    show (dat2 (Vr8 m) c).arrAt 0 cfg2.N = Gen.V9 m (outs m) c main_v11
    rw [Gen.V9_of m (outs m) c main_v11 (by decide)]
    exact ((dat2 (Vr8 m) c).arrAt_in 0 rfl _).trans ((A_eq2 (Vr8 m) c 0).trans (congrFun (V8_outs m c) _).symm)
  | ⟨1, _⟩ =>
    show (dat2 (Vr8 m) c).arrAt 1 cfg2.N = Gen.V9 m (outs m) c main_arg4
    rw [Gen.V9_of m (outs m) c main_arg4 (by decide)]
    exact ((dat2 (Vr8 m) c).arrAt_in 1 rfl _).trans ((A_eq2 (Vr8 m) c 1).trans (congrFun (V8_outs m c) _).symm)
  | ⟨2, _⟩ =>
    show (dat2 (Vr8 m) c).arrAt 2 cfg2.N = Gen.V9 m (outs m) c main_v10
    rw [Gen.V9_of m (outs m) c main_v10 (by decide)]
    exact ((dat2 (Vr8 m) c).arrAt_in 2 rfl _).trans ((A_eq2 (Vr8 m) c 2).trans (congrFun (V8_outs m c) _).symm)
  | ⟨3, _⟩ => exact (o9_out m c).symm
theorem hrest2 (c : Dev nD) : ∀ b : Ref sig .tc, b ∉ Finset.univ.image (Pipeline.arrRef spec2) → Gen.V9 m (outs m) c b = Vr8 m c b :=
  fun b hb => (Gen.V9_of m (outs m) c b (fun h => hb (Finset.mem_image.mpr ⟨3, Finset.mem_univ _, (List.mem_singleton.mp h).symm⟩))).trans (congrFun (V8_outs m c) _)

theorem hF1 (c : Dev nD) (w : Fin cfg1.W) : (dat1 (Vr6 m) qs1 c).arrAt w cfg1.N = Gen.V7 m (outs m) c (Pipeline.arrRef spec1 w) := by
  match w with
  | ⟨0, _⟩ =>
    show (dat1 (Vr6 m) qs1 c).arrAt 0 cfg1.N = Gen.V7 m (outs m) c main_v5
    rw [Gen.V7_of m (outs m) c main_v5 (by decide)]
    exact ((dat1 (Vr6 m) qs1 c).arrAt_in 0 rfl _).trans ((A_eq1 (Vr6 m) qs1 c 0).trans (congrFun (V6_outs m c) _).symm)
  | ⟨1, _⟩ =>
    show (dat1 (Vr6 m) qs1 c).arrAt 1 cfg1.N = Gen.V7 m (outs m) c main_v5
    rw [Gen.V7_of m (outs m) c main_v5 (by decide)]
    exact ((dat1 (Vr6 m) qs1 c).arrAt_in 1 rfl _).trans ((A_eq1 (Vr6 m) qs1 c 1).trans (congrFun (V6_outs m c) _).symm)
  | ⟨2, _⟩ =>
    show (dat1 (Vr6 m) qs1 c).arrAt 2 cfg1.N = Gen.V7 m (outs m) c main_v5
    rw [Gen.V7_of m (outs m) c main_v5 (by decide)]
    exact ((dat1 (Vr6 m) qs1 c).arrAt_in 2 rfl _).trans ((A_eq1 (Vr6 m) qs1 c 2).trans (congrFun (V6_outs m c) _).symm)
  | ⟨3, _⟩ =>
    show (dat1 (Vr6 m) qs1 c).arrAt 3 cfg1.N = Gen.V7 m (outs m) c main_v8
    rw [Gen.V7_of m (outs m) c main_v8 (by decide)]
    exact ((dat1 (Vr6 m) qs1 c).arrAt_in 3 rfl _).trans ((A_eq1 (Vr6 m) qs1 c 3).trans (congrFun (V6_outs m c) _).symm)
  | ⟨4, _⟩ => exact (o7_out m c).symm
theorem hrest1 (c : Dev nD) : ∀ b : Ref sig .tc, b ∉ Finset.univ.image (Pipeline.arrRef spec1) → Gen.V7 m (outs m) c b = Vr6 m c b :=
  fun b hb => (Gen.V7_of m (outs m) c b (fun h => hb (Finset.mem_image.mpr ⟨4, Finset.mem_univ _, (List.mem_singleton.mp h).symm⟩))).trans (congrFun (V6_outs m c) _)

/-! ## The calls as segments -/

set_option backward.isDefEq.respectTransparency.types false in
/-- The first call: entered from every unscoped buffer at the contents before it, left at those contents updated at
    its output array. Its arrays are split out of the unscoped buffers and put back at what the pipeline leaves. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr4 m) c).loose
  hwaits := Pipeline.hwaits_of_owed_zero _ _ _ _ L lv 0 fun _ _ => rfl
  pre c := iprop(StableHlo.held (c : Thread nD τ) (Pipeline.ucRefs τ sig) (Gen.V4 m c) ∗ E 0 c)
  post c := iprop(StableHlo.held (c : Thread nD τ) (Pipeline.ucRefs τ sig) (Gen.V5 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vr4 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr4 m c) (fun b => Gen.V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at the contents before it, left at those contents updated
    at its output array. The joint projection's array is split among the three windows that read it, each at its
    fraction, and rejoined at the exit (no window writes it). -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr6 m) qs1 c).loose
  hwaits := Pipeline.hwaits_of_owed_zero _ _ _ _ L lv 1 fun _ _ => rfl
  pre c := iprop(StableHlo.held (c : Thread nD τ) (Pipeline.ucRefs τ sig) (Gen.V6 m (outsA m) c) ∗ E 1 c)
  post c := iprop(StableHlo.held (c : Thread nD τ) (Pipeline.ucRefs τ sig) (Gen.V7 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := arrays1_of_unscopedBufs (Ix := Unit) (U := UR sig nD τ) (Lvl := ℕ) c (pdats m 1 c) hq1 (Vr6 m c) (pdats m 1 c).A (A_eq1 (Vr6 m) qs1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (Ix := Unit) (U := UR sig nD τ) (Lvl := ℕ) c (pdats m 1 c) hq1 (Vr6 m c) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last call: entered from every unscoped buffer at the contents before it, left at those contents updated at
    its output array. Its arrays are split out of the unscoped buffers and put back at what the pipeline leaves. -/
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr8 m) c).loose
  hwaits := Pipeline.hwaits_of_owed_zero _ _ _ _ L lv 2 fun _ _ => rfl
  pre c := iprop(StableHlo.held (c : Thread nD τ) (Pipeline.ucRefs τ sig) (Gen.V8 m (outsB m) c) ∗ E 2 c)
  post c := iprop(StableHlo.held (c : Thread nD τ) (Pipeline.ucRefs τ sig) (Gen.V9 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (Vr8 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vr8 m c) (fun b => Gen.V9 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the whole run -/

/-- The launch's ghost element is the pipeline library's; no core holds a resource of the certificate's own. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core has its generator register and owes nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  iintro ⟨-, H⟩; iexact H

theorem hpre1 (c : Dev nD) : iprop(StableHlo.held (c : Thread nD τ) (Pipeline.ucRefs τ sig) (Gen.V6 m (outs m) c) ∗ E 1 c) ⊢ (reg1 m).pre c := by
  rw [V6_outs]; exact .rfl
theorem hpre2 (c : Dev nD) : iprop(StableHlo.held (c : Thread nD τ) (Pipeline.ucRefs τ sig) (Gen.V8 m (outs m) c) ∗ E 2 c) ⊢ (reg2 m).pre c := by
  rw [V8_outs]; exact .rfl

/-- The frame: every weakly fair execution of @main terminates and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE3
    (reg0 m) (fun _ => .rfl) (fun _ => .rfl) (reg1 m) (hpre1 m) (fun _ => .rfl) (reg2 m) (hpre2 m) (fun _ => .rfl)

set_option backward.isDefEq.respectTransparency.types false in
/-- The whole run, read at every unscoped buffer: every weakly fair execution of @main terminates, and every final
    memory holds each unscoped buffer at the last contents `V10` — the launch contents folded through the host
    stretches and the three calls. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V10 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m))
    (fun c Q => by
      rewrite [main_chain c, Seg.run_eq_chain,
        show (Gen.segs m (outs m) 𝒱₀ L lv E () (pdats m) (reg0 m) (reg1 m) (reg2 m) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V10 m (outs m) c))
    (hch := fun c => ⟨.rfl, .rfl, .rfl, .rfl, .rfl, .rfl, hpre1 m c, .rfl, hpre2 m c, .rfl, sep_mono .rfl (hE3 c)⟩)
    (hinit := ?_) (QY := fun c s => ∀ b ∈ Pipeline.ucRefs τ sig, s.mem ((c : Thread nD τ).1, b) = Gen.V10 m (outs m) c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (E (F := F) 0)]
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (Gen.V10 m (outs m) c) s')
    isplitl [Hh] <;> iassumption

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Hand.Pay0.lean ====
/-
  The first matmul-and-bias body read at an index, over the extended reals.

  The body rounds its two operands to bf16, multiplies the `[1024, 1024]` row block by the transpose of the
  `[512, 1024]` weight block into a zero accumulator, adds the `[1, 512]` bias row to every row, and rounds the
  result to bf16. Over the extended reals every rounding is the identity, a shape cast to the same shape is the
  identity, and the broadcast of the one bias row reads that row at the column: what is left at `(r, c)` is
  `(Σ_d x[r,d] · w[c,d]) + b[0,c]`.
-/
import proofs.«144100_j59261958750606_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section
namespace Cert.Hand.Pay
open Idealize.ShloMosaic Idealize.ShloMosaic.ValueIdx Cert.KernelIdeal

/-! ## The product of a row block with the transpose of a weight block

The dimension numbers contract axis 1 of both operands: output `(r, c)` pairs row `r` of the left operand with
row `c` of the right one. -/

theorem dA_lhs0 (i : S1024x512.Idx) (q : dot_S1024x1024_S512x1024_S1024x512_1_1_0_0_n_n.contr.Idx) : (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem dA_lhs1 (i : S1024x512.Idx) (q : dot_S1024x1024_S512x1024_S1024x512_1_1_0_0_n_n.contr.Idx) : (dot_S1024x1024_S512x1024_S1024x512_1_1_0_0_n_n.lhsIdx i q 1).val = (q ⟨0, by decide⟩).val :=
  dot_S1024x1024_S512x1024_S1024x512_1_1_0_0_n_n.lhsIdx_val_of_single rfl i q
theorem dA_rhs0 (i : S1024x512.Idx) (q : dot_S1024x1024_S512x1024_S1024x512_1_1_0_0_n_n.contr.Idx) : (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem dA_rhs1 (i : S1024x512.Idx) (q : dot_S1024x1024_S512x1024_S1024x512_1_1_0_0_n_n.contr.Idx) : (dot_S1024x1024_S512x1024_S1024x512_1_1_0_0_n_n.rhsIdx i q 1).val = (q ⟨0, by decide⟩).val :=
  dot_S1024x1024_S512x1024_S1024x512_1_1_0_0_n_n.rhsIdx_val_of_single rfl i q

/-- Into a zero accumulator, read at `(r, c)`: the sum over the shared axis of the two rows' products. -/
theorem matmul_nt_1024_apply {φ₁ φ₂ : FTy} (a : FVec Ideal S1024x1024 φ₁) (b : FVec Ideal S512x1024 φ₂) (r : Fin 1024) (c : Fin 512) :
    matmul (F := Ideal) dot_S1024x1024_S512x1024_S1024x512_1_1_0_0_n_n none a b (constant (F := Ideal) S1024x512 .f32 0x00000000#32) (ix2 r c)
      = ∑ d : Fin 1024, a (ix2 r d) * b (ix2 c d) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r c) ((contrEquiv1 dot_S1024x1024_S512x1024_S1024x512_1_1_0_0_n_n 1024 rfl rfl).symm k) = ix2 r k := funext fun ax => Fin.ext (by
    match ax with
    | ⟨0, _⟩ => exact dA_lhs0 _ _
    | ⟨1, _⟩ => exact (dA_lhs1 _ _).trans hk)
  have er : dot_S1024x1024_S512x1024_S1024x512_1_1_0_0_n_n.rhsIdx (ix2 r c) ((contrEquiv1 dot_S1024x1024_S512x1024_S1024x512_1_1_0_0_n_n 1024 rfl rfl).symm k) = ix2 c k := funext fun ax => Fin.ext (by
    match ax with
    | ⟨0, _⟩ => exact dA_rhs0 _ _
    | ⟨1, _⟩ => exact (dA_rhs1 _ _).trans hk)
  rw [el, er]

/-! ## The body -/

/-- The first body's stored value at `(r, c)`: row `r` of the block against row `c` of the weights, plus the bias. -/
theorem pay0_apply (v0 : Vec Ideal S1024x1024 .f32) (v3 : Vec Ideal S512x1024 .f32) (v7 : Vec Ideal S1x512 .f32) (r : Fin 1024) (c : Fin 512) :
    Cert.KernelIdeal.Gen.k0_pay1 (F := Ideal) v0 v3 v7 (ix2 r c) = (∑ d : Fin 1024, v0 (ix2 r d) * v3 (ix2 c d)) + v7 (ix2 0 c) := by
  unfold Cert.KernelIdeal.Gen.k0_pay1
  simp only [shapeCast_self]
  rw [truncf_apply, addf_apply, matmul_nt_1024_apply, broadcastTo_1b_ab_apply]
  rfl

end Cert.Hand.Pay
end
-- ==== Proof.Hand.Final0.lean ====
/-
  The first call, from blocks to the array.

  The call's grid is 4 × 6; at point (a, b) the output window's block is rows 1024·a … 1024·a + 1023 and columns
  512·b … 512·b + 511 of the [4096, 3072] output. The first input's block follows the output's ROW block (rows
  1024·a …, all 1024 columns), the weight block and the bias block follow its COLUMN block (weight rows 512·b …, bias
  columns 512·b …). The body stores, at (r, q) of the block, row r of the input block against row q of the weight block
  plus the bias at q; so the value written at array index (R, Q) is row R of the input against row Q of the weights
  plus the bias at Q, whichever point writes it. The blocks tile the array, so the array ends holding that function.
-/
import proofs.«144100_j59261958750606_2_alg».proof.Proof.Hand.Region0
import proofs.«144100_j59261958750606_2_alg».proof.Proof.Hand.Pay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The whole-buffer rectangles start at the origin. -/
theorem hz0 : (![0, 0] : Fin 2 → Nat) = fun _ => 0 := funext fun a => by fin_cases a <;> rfl

/-- The joint projection as one function of the three arrays: index (R, Q) holds row R of `a` against row Q of `w`,
    plus `b` at Q. -/
def G0 (a : S4096x1024.Idx → EReal) (w : S3072x1024.Idx → EReal) (b : S1x3072.Idx → EReal) : S4096x3072.Idx → EReal :=
  fun i => (∑ d : Fin 1024, a (ix2 (i 0) d) * w (ix2 (i 1) d)) + b (ix2 0 (i 1))

theorem G0_apply (a : S4096x1024.Idx → EReal) (w : S3072x1024.Idx → EReal) (b : S1x3072.Idx → EReal) (i : S4096x3072.Idx) :
    G0 a w b i = (∑ d : Fin 1024, a (ix2 (i 0) d) * w (ix2 (i 1) d)) + b (ix2 0 (i 1)) := rfl

/-- What the body leaves at (r, q) of the output block, from the three input blocks: the one store covers the block,
    and its payload there is the row-by-row product plus the bias. -/
theorem out0_3_apply (x0 : Vec Ideal S1024x1024 .f32) (x1 : Vec Ideal S512x1024 .f32) (x2 : Vec Ideal S1x512 .f32) (r : Fin 1024) (q : Fin 512) :
    out0_3 x0 x1 x2 (ix2 r q) = (∑ d : Fin 1024, x0 (ix2 r d) * x1 (ix2 q d)) + x2 (ix2 0 q) := by
  unfold out0_3
  rw [View.canon_unit_zero hz0]
  simp only [View.ld_unit_zero (S := S1024x1024) hz0, View.ld_unit_zero (S := S512x1024) hz0, View.ld_unit_zero (S := S1x512) hz0]
  exact Cert.Hand.Pay.pay0_apply x0 x1 x2 r q

/-- The printed index maps, decided over the 24 grid points: the first input's block index is the output's row block
    and column block 0; the weight's is the output's column block (as a row block) and 0; the bias's is row 0 and the
    output's column block; the output's block indices stay in 0…3 and 0…5. -/
theorem idx_facts0 : ∀ t : Fin cfg0.N, win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 5 :=
  (by decide +kernel : ∀ t : Fin grid0.N, _)

/-- Every block of the 4 × 6 tiling is some point's. -/
theorem idx_onto0 : ∀ (q0 : Fin 4) (q1 : Fin 6), ∃ t : Fin cfg0.N, win0_3.index t = ![q0.val, q1.val] :=
  (by decide +kernel : ∀ (q0 : Fin 4) (q1 : Fin 6), ∃ t : Fin grid0.N, win0_3.index t = ![q0.val, q1.val])

/-- A block of the first input read at an index of the block: the array at the block's offset plus that index. -/
theorem iblk0_0_apply (c : Dev nD) (t : Fin cfg0.N) (y : S1024x1024.Idx) (k : S4096x1024.Idx)
    (h0 : (k 0).val = win0_0.index t 0 * 1024 + (y 0).val) (h1 : (k 1).val = win0_0.index t 1 * 1024 + (y 1).val) :
    (iblk0 V c 0 t : Vec Ideal S1024x1024 .f32) y = (V c main_v2 : S4096x1024.Idx → EReal) k := by
  unfold iblk0
  rw [View.read_apply]
  show V c main_v2 _ = V c main_v2 _
  congr 1
  funext a; apply Fin.ext
  match a with
  | ⟨0, _⟩ => show win0_0.index t 0 * 1024 + 1 * (y 0).val = (k 0).val; omega
  | ⟨1, _⟩ => show win0_0.index t 1 * 1024 + 1 * (y 1).val = (k 1).val; omega

/-- The same for the weight block, -/
theorem iblk0_1_apply (c : Dev nD) (t : Fin cfg0.N) (y : S512x1024.Idx) (k : S3072x1024.Idx)
    (h0 : (k 0).val = win0_1.index t 0 * 512 + (y 0).val) (h1 : (k 1).val = win0_1.index t 1 * 1024 + (y 1).val) :
    (iblk0 V c 1 t : Vec Ideal S512x1024 .f32) y = (V c main_v0 : S3072x1024.Idx → EReal) k := by
  unfold iblk0
  rw [View.read_apply]
  show V c main_v0 _ = V c main_v0 _
  congr 1
  funext a; apply Fin.ext
  match a with
  | ⟨0, _⟩ => show win0_1.index t 0 * 512 + 1 * (y 0).val = (k 0).val; omega
  | ⟨1, _⟩ => show win0_1.index t 1 * 1024 + 1 * (y 1).val = (k 1).val; omega

/-- and for the bias block. -/
theorem iblk0_2_apply (c : Dev nD) (t : Fin cfg0.N) (y : S1x512.Idx) (k : S1x3072.Idx)
    (h0 : (k 0).val = win0_2.index t 0 * 1 + (y 0).val) (h1 : (k 1).val = win0_2.index t 1 * 512 + (y 1).val) :
    (iblk0 V c 2 t : Vec Ideal S1x512 .f32) y = (V c main_v3 : S1x3072.Idx → EReal) k := by
  unfold iblk0
  rw [View.read_apply]
  show V c main_v3 _ = V c main_v3 _
  congr 1
  funext a; apply Fin.ext
  match a with
  | ⟨0, _⟩ => show win0_2.index t 0 * 1 + 1 * (y 0).val = (k 0).val; omega
  | ⟨1, _⟩ => show win0_2.index t 1 * 512 + 1 * (y 1).val = (k 1).val; omega

/-- What the body leaves at index (r, q) of the output block at point t is the joint projection at the array index
    the block places (r, q) at. -/
theorem flushed0_at (c : Dev nD) (t : Fin cfg0.N) (r : Fin 1024) (q : Fin 512) :
    out0_3 (iblk0 V c 0 t) (iblk0 V c 1 t) (iblk0 V c 2 t) (ix2 r q)
      = G0 (V c main_v2) (V c main_v0) (V c main_v3) (((cfg0.win 3).blk t).view.emb (ix2 r q)) := by
  obtain ⟨e0, e1, e2, e3, e4, e5, e6, e7⟩ := idx_facts0 t
  rw [out0_3_apply]
  unfold G0
  refine congrArg₂ (· + ·) (Finset.sum_congr rfl fun d _ => congrArg₂ (· * ·) ?_ ?_) ?_
  · refine iblk0_0_apply V c t _ _ ?_ ?_
    · show win0_3.index t 0 * 1024 + 1 * r.val = win0_0.index t 0 * 1024 + r.val; omega
    · show d.val = win0_0.index t 1 * 1024 + d.val; omega
  · refine iblk0_1_apply V c t _ _ ?_ ?_
    · show win0_3.index t 1 * 512 + 1 * q.val = win0_1.index t 0 * 512 + q.val; omega
    · show d.val = win0_1.index t 1 * 1024 + d.val; omega
  · refine iblk0_2_apply V c t _ _ ?_ ?_
    · show 0 = win0_2.index t 0 * 1 + 0; omega
    · show win0_3.index t 1 * 512 + 1 * q.val = win0_2.index t 1 * 512 + q.val; omega

/-- What point t writes back is block t of the joint projection of the arrays as the call finds them. -/
theorem flushed0_eq (c : Dev nD) (t : Fin cfg0.N) :
    (dat0 V c).flushed 3 t = ((cfg0.win 3).blk t).view.read (Elt Ideal) (G0 (V c main_v2) (V c main_v0) (V c main_v3)) := by
  show (cfg0.win 3).cut (grid0.coords t) ((dat0 V c).after 3 t) = _
  rw [after0_3]
  funext j
  have hj : j = (ix2 (j 0) (j 1) : S1024x512.Idx) := eq_ix2 (n0 := 1024) (n1 := 512) j
  rw [hj]
  exact flushed0_at V c t (j 0) (j 1)

/-- An index of the array is in point t's block iff each coordinate is in the block's range on its axis. -/
theorem mem_blk0 (t : Fin cfg0.N) (i : S4096x3072.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- The blocks tile the array: index (r, q) is in the block of the point whose block index is (r / 1024, q / 512). -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The first call's output array after the call: the joint projection of the arrays it is entered with. -/
theorem final0 (c : Dev nD) : (dat0 (F := Ideal) V c).arrAt 3 cfg0.N = G0 (V c main_v2) (V c main_v0) (V c main_v3) :=
  (dat0 V c).arrAt_eq_of_cover 3 (G0 (V c main_v2) (V c main_v0) (V c main_v3)) (fun t _ => flushed0_eq V c t) cover0

end Cert.KernelIdeal.Hand
end
-- ==== Proof.Hand.Pay2.lean ====
/-
  The output projection's matmul-and-bias body read at an index, over the extended reals.

  The same product as the first body's — a `[1024, 1024]` block (here already bf16) against the transpose of the
  `[512, 1024]` weight block rounded to bf16, into a zero accumulator — plus the bias row, kept in f32. At `(r, c)`:
  `(Σ_d x[r,d] · w[c,d]) + b[0,c]`.
-/
import proofs.«144100_j59261958750606_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«144100_j59261958750606_2_alg».proof.Proof.Hand.Pay0

noncomputable section
namespace Cert.Hand.Pay
open Idealize.ShloMosaic Idealize.ShloMosaic.ValueIdx Cert.KernelIdeal

/-- The third body's stored value at `(r, c)`: row `r` of the block against row `c` of the weights, plus the bias. -/
theorem pay2_apply (v0 : Vec Ideal S1024x1024 .bf16) (v2 : Vec Ideal S512x1024 .f32) (v5 : Vec Ideal S1x512 .f32) (r : Fin 1024) (c : Fin 512) :
    Cert.KernelIdeal.Gen.k2_pay1 (F := Ideal) v0 v2 v5 (ix2 r c) = (∑ d : Fin 1024, v0 (ix2 r d) * v2 (ix2 c d)) + v5 (ix2 0 c) := by
  unfold Cert.KernelIdeal.Gen.k2_pay1
  simp only [shapeCast_self]
  rw [addf_apply, matmul_nt_1024_apply, broadcastTo_1b_ab_apply]
  rfl

end Cert.Hand.Pay
end
-- ==== Proof.Hand.Final2.lean ====
/-
  The third call, from blocks to the array.

  The call's grid is 4 × 2; at point (a, b) the output window's block is rows 1024·a … 1024·a + 1023 and columns
  512·b … 512·b + 511 of the [4096, 1024] output. The first input's block (the merged heads) follows the output's ROW
  block (all 1024 columns), the output weights' block and the output bias's block follow its COLUMN block. The body
  stores, at (r, q) of the block, row r of the input block against row q of the weight block plus the bias at q; so the
  value written at array index (R, Q) is row R of the input against row Q of the weights plus the bias at Q, whichever
  point writes it. The blocks tile the array, so the array ends holding that function.
-/
import proofs.«144100_j59261958750606_2_alg».proof.Proof.Hand.Region2
import proofs.«144100_j59261958750606_2_alg».proof.Proof.Hand.Pay2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The whole-buffer rectangles start at the origin. -/
theorem hz2 : (![0, 0] : Fin 2 → Nat) = fun _ => 0 := funext fun a => by fin_cases a <;> rfl

/-- The output projection as one function of the three arrays: index (R, Q) holds row R of `a` against row Q of `w`,
    plus `b` at Q. -/
def G2 (a : S4096x1024.Idx → EReal) (w : S1024x1024.Idx → EReal) (b : S1x1024.Idx → EReal) : S4096x1024.Idx → EReal :=
  fun i => (∑ d : Fin 1024, a (ix2 (i 0) d) * w (ix2 (i 1) d)) + b (ix2 0 (i 1))

theorem G2_apply (a : S4096x1024.Idx → EReal) (w : S1024x1024.Idx → EReal) (b : S1x1024.Idx → EReal) (i : S4096x1024.Idx) :
    G2 a w b i = (∑ d : Fin 1024, a (ix2 (i 0) d) * w (ix2 (i 1) d)) + b (ix2 0 (i 1)) := rfl

/-- What the body leaves at (r, q) of the output block, from the three input blocks: the one store covers the block,
    and its payload there is the row-by-row product plus the bias. -/
theorem out2_3_apply (x0 : Vec Ideal S1024x1024 .bf16) (x1 : Vec Ideal S512x1024 .f32) (x2 : Vec Ideal S1x512 .f32) (r : Fin 1024) (q : Fin 512) :
    out2_3 x0 x1 x2 (ix2 r q) = (∑ d : Fin 1024, x0 (ix2 r d) * x1 (ix2 q d)) + x2 (ix2 0 q) := by
  unfold out2_3
  rw [View.canon_unit_zero hz2]
  simp only [View.ld_unit_zero (S := S1024x1024) hz2, View.ld_unit_zero (S := S512x1024) hz2, View.ld_unit_zero (S := S1x512) hz2]
  exact Cert.Hand.Pay.pay2_apply x0 x1 x2 r q

/-- The printed index maps, decided over the 8 grid points: the first input's block index is the output's row block
    and column block 0; the weight's is the output's column block (as a row block) and 0; the bias's is row 0 and the
    output's column block; the output's block indices stay in 0…3 and 0…1. -/
theorem idx_facts2 : ∀ t : Fin cfg2.N, win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 3 ∧ win2_3.index t (1 : Fin 2) ≤ 1 :=
  (by decide +kernel : ∀ t : Fin grid2.N, _)

/-- Every block of the 4 × 2 tiling is some point's. -/
theorem idx_onto2 : ∀ (q0 : Fin 4) (q1 : Fin 2), ∃ t : Fin cfg2.N, win2_3.index t = ![q0.val, q1.val] :=
  (by decide +kernel : ∀ (q0 : Fin 4) (q1 : Fin 2), ∃ t : Fin grid2.N, win2_3.index t = ![q0.val, q1.val])

/-- A block of the first input read at an index of the block: the array at the block's offset plus that index. -/
theorem iblk2_0_apply (c : Dev nD) (t : Fin cfg2.N) (y : S1024x1024.Idx) (k : S4096x1024.Idx)
    (h0 : (k 0).val = win2_0.index t 0 * 1024 + (y 0).val) (h1 : (k 1).val = win2_0.index t 1 * 1024 + (y 1).val) :
    (iblk2 V c 0 t : Vec Ideal S1024x1024 .bf16) y = (V c main_v11 : S4096x1024.Idx → EReal) k := by
  unfold iblk2
  rw [View.read_apply]
  show V c main_v11 _ = V c main_v11 _
  congr 1
  funext a; apply Fin.ext
  match a with
  | ⟨0, _⟩ => show win2_0.index t 0 * 1024 + 1 * (y 0).val = (k 0).val; omega
  | ⟨1, _⟩ => show win2_0.index t 1 * 1024 + 1 * (y 1).val = (k 1).val; omega

/-- The same for the weight block, -/
theorem iblk2_1_apply (c : Dev nD) (t : Fin cfg2.N) (y : S512x1024.Idx) (k : S1024x1024.Idx)
    (h0 : (k 0).val = win2_1.index t 0 * 512 + (y 0).val) (h1 : (k 1).val = win2_1.index t 1 * 1024 + (y 1).val) :
    (iblk2 V c 1 t : Vec Ideal S512x1024 .f32) y = (V c main_arg4 : S1024x1024.Idx → EReal) k := by
  unfold iblk2
  rw [View.read_apply]
  show V c main_arg4 _ = V c main_arg4 _
  congr 1
  funext a; apply Fin.ext
  match a with
  | ⟨0, _⟩ => show win2_1.index t 0 * 512 + 1 * (y 0).val = (k 0).val; omega
  | ⟨1, _⟩ => show win2_1.index t 1 * 1024 + 1 * (y 1).val = (k 1).val; omega

/-- and for the bias block. -/
theorem iblk2_2_apply (c : Dev nD) (t : Fin cfg2.N) (y : S1x512.Idx) (k : S1x1024.Idx)
    (h0 : (k 0).val = win2_2.index t 0 * 1 + (y 0).val) (h1 : (k 1).val = win2_2.index t 1 * 512 + (y 1).val) :
    (iblk2 V c 2 t : Vec Ideal S1x512 .f32) y = (V c main_v10 : S1x1024.Idx → EReal) k := by
  unfold iblk2
  rw [View.read_apply]
  show V c main_v10 _ = V c main_v10 _
  congr 1
  funext a; apply Fin.ext
  match a with
  | ⟨0, _⟩ => show win2_2.index t 0 * 1 + 1 * (y 0).val = (k 0).val; omega
  | ⟨1, _⟩ => show win2_2.index t 1 * 512 + 1 * (y 1).val = (k 1).val; omega

/-- What the body leaves at index (r, q) of the output block at point t is the joint projection at the array index
    the block places (r, q) at. -/
theorem flushed2_at (c : Dev nD) (t : Fin cfg2.N) (r : Fin 1024) (q : Fin 512) :
    out2_3 (iblk2 V c 0 t) (iblk2 V c 1 t) (iblk2 V c 2 t) (ix2 r q)
      = G2 (V c main_v11) (V c main_arg4) (V c main_v10) (((cfg2.win 3).blk t).view.emb (ix2 r q)) := by
  obtain ⟨e0, e1, e2, e3, e4, e5, e6, e7⟩ := idx_facts2 t
  rw [out2_3_apply]
  unfold G2
  refine congrArg₂ (· + ·) (Finset.sum_congr rfl fun d _ => congrArg₂ (· * ·) ?_ ?_) ?_
  · refine iblk2_0_apply V c t _ _ ?_ ?_
    · show win2_3.index t 0 * 1024 + 1 * r.val = win2_0.index t 0 * 1024 + r.val; omega
    · show d.val = win2_0.index t 1 * 1024 + d.val; omega
  · refine iblk2_1_apply V c t _ _ ?_ ?_
    · show win2_3.index t 1 * 512 + 1 * q.val = win2_1.index t 0 * 512 + q.val; omega
    · show d.val = win2_1.index t 1 * 1024 + d.val; omega
  · refine iblk2_2_apply V c t _ _ ?_ ?_
    · show 0 = win2_2.index t 0 * 1 + 0; omega
    · show win2_3.index t 1 * 512 + 1 * q.val = win2_2.index t 1 * 512 + q.val; omega

/-- What point t writes back is block t of the output projection of the arrays as the call finds them. -/
theorem flushed2_eq (c : Dev nD) (t : Fin cfg2.N) :
    (dat2 V c).flushed 3 t = ((cfg2.win 3).blk t).view.read (Elt Ideal) (G2 (V c main_v11) (V c main_arg4) (V c main_v10)) := by
  show (cfg2.win 3).cut (grid2.coords t) ((dat2 V c).after 3 t) = _
  rw [after2_3]
  funext j
  have hj : j = (ix2 (j 0) (j 1) : S1024x512.Idx) := eq_ix2 (n0 := 1024) (n1 := 512) j
  rw [hj]
  exact flushed2_at V c t (j 0) (j 1)

/-- An index of the array is in point t's block iff each coordinate is in the block's range on its axis. -/
theorem mem_blk2 (t : Fin cfg2.N) (i : S4096x1024.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v12).slice (win2_3.rect t)).set ↔ _
  rw [View.set_slice_whole, Rect.mem_set_unit]
  exact Iff.rfl

/-- The blocks tile the array: index (r, q) is in the block of the point whose block index is (r / 1024, q / 512). -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The third call's output array after the call: the output projection of the arrays it is entered with. -/
theorem final2 (c : Dev nD) : (dat2 (F := Ideal) V c).arrAt 3 cfg2.N = G2 (V c main_v11) (V c main_arg4) (V c main_v10) :=
  (dat2 V c).arrAt_eq_of_cover 3 (G2 (V c main_v11) (V c main_arg4) (V c main_v10)) (fun t _ => flushed2_eq V c t) cover2

end Cert.KernelIdeal.Hand
end
-- ==== Proof.Hand.PayAttnDefs.lean ====
/-
  The attention of one grid block, as a function of the block's arrays, index by index over the extended reals.

  A block holds a pair of heads side by side along 128 lanes: head `hh` of the pair (0 or 1) owns lanes
  `64·hh … 64·hh + 63`. With `mk : [1, 128]` the mask row, `qb : [1, 512, 128]` the query tile and
  `kb, vb : [1, 2048, 128]` the keys and values, every operand entry is taken times the mask at its lane, and per head:
  the scaled score, the row maximum folded from `-∞`, the exponentials, their row sum, the weights, and the weighted
  sum of the value rows — the terms of the specification's `score … headOut`, in the same order of factors.
-/
import proofs.«144100_j59261958750606_2_alg».proof.Proof.Gen.KernelIdeal.Skeleton
import Idealize.ShloMosaic.Lib.ValueIdx
import Idealize.ShloMosaic.PureOps.Ideal

noncomputable section
namespace Cert.Hand.Pay
open Idealize.ShloMosaic Idealize.ShloMosaic.ValueIdx Cert.KernelIdeal

/-- Lane of the pair block that holds channel `d` of the pair's head `hh`. -/
def lane (hh : Fin 2) (d : Fin 64) : Fin 128 := ⟨64 * hh.val + d.val, by omega⟩

section Blocks
variable (mk : Vec Ideal S1x128 .f32) (qb : Vec Ideal S1x512x128 .bf16) (kb vb : Vec Ideal S1x2048x128 .bf16)

/-- The scaled score within the block: head `hh` of the pair, query row `q` against key row `k`. -/
def bScore (hh : Fin 2) (q : Fin 512) (k : Fin 2048) : EReal :=
  (∑ d : Fin 64, (qb (ix3 0 q (lane hh d)) * mk (ix2 0 (lane hh d))) * (kb (ix3 0 k (lane hh d)) * mk (ix2 0 (lane hh d))))
    * Ideal.ofBits .f32 0x3E000000#32
/-- The largest score of query row `q`, folded from `-∞`. -/
def bMax (hh : Fin 2) (q : Fin 512) : EReal :=
  (Finset.univ : Finset (Fin 2048)).fold max (Ideal.ofBits .f32 0xFF800000#32) (fun k => bScore mk qb kb hh q k)
/-- The exponential of a score less its row's maximum. -/
def bExp (hh : Fin 2) (q : Fin 512) (k : Fin 2048) : EReal := Ideal.exp (bScore mk qb kb hh q k - bMax mk qb kb hh q)
/-- The row's sum of exponentials. -/
def bDen (hh : Fin 2) (q : Fin 512) : EReal := ∑ k : Fin 2048, bExp mk qb kb hh q k
/-- The softmax weight. -/
def bWgt (hh : Fin 2) (q : Fin 512) (k : Fin 2048) : EReal := Ideal.div (bExp mk qb kb hh q k) (bDen mk qb kb hh q)
/-- The head's output within the block: the weighted sum of the masked value rows. -/
def bOut (hh : Fin 2) (q : Fin 512) (d : Fin 64) : EReal :=
  ∑ k : Fin 2048, bWgt mk qb kb hh q k * (vb (ix3 0 k (lane hh d)) * mk (ix2 0 (lane hh d)))

end Blocks

end Cert.Hand.Pay
end
-- ==== Proof.Hand.PayAttnLayout.lean ====
/-
  Layout and reduction steps of the attention body, each read at an index.

  * a vector kept as a unit column (`[a] → [a, 1]`) and the column spread back over a row (`[a, 1] → [a, b]`): how the
    body subtracts a row's maximum from the row and divides a row by its sum;
  * the exponential taken entry by entry;
  * the reduction of a `[512, 2048]` block along its columns, by `max` from `-∞` and by `+` from zero, at row `q`: the
    fold of `max`, and the sum, over the row's 2048 entries.
-/
import proofs.«144100_j59261958750606_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section
namespace Cert.Hand.Pay
open Idealize.ShloMosaic Idealize.ShloMosaic.ValueIdx Cert.KernelIdeal

variable {α : Type}

/-! ## Keeping a reduced axis as a unit column, and spreading the column back over the row -/

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The exponential and the scalar constant at an index -/

theorem exp_apply {s : Shape} {φ : FTy} (a : FVec Ideal s φ) (i : s.Idx) : exp a i = Ideal.exp (a i) := rfl

/-! ## A row's maximum and a row's sum of a `[512, 2048]` block -/

/-- The source index over row `q` with column `k` inserted is `(q, k)`. -/
theorem lift_row (h : S512x2048.Reduces [1] S512) (q : Fin 512) (k : Fin 2048) : h.lift (ix1 q) k = ix2 q k :=
  funext fun c => Fin.ext (by
    match c with
    | ⟨0, _⟩ => rfl
    | ⟨1, _⟩ => rfl)

/-- The reduction by `max` along the columns, from `-∞`: at row `q` the fold of `max` over the row's entries. -/
theorem rowMax_apply (X : FVec Ideal S512x2048 .f32) (h : S512x2048.Reduces [1] S512) (hφ : FKind.Formats .f32)
    (hacc : (0xFF800000#32 : BitVec 32) = 0xFF800000#32) (q : Fin 512) :
    multiReduction (F := Ideal) .maximumf [1] S512 X 0xFF800000#32 h hφ hacc (ix1 q)
      = (Finset.univ : Finset (Fin 2048)).fold max (Ideal.ofBits .f32 0xFF800000#32) (fun k => X (ix2 q k)) := by
  refine (Ideal.multiReduction_maximumf_single X _ h hφ hacc (ix1 q)).trans ?_
  show (Finset.univ : Finset (Fin 2048)).fold max (Ideal.ofBits .f32 0xFF800000#32) (X ∘ h.lift (ix1 q)) = _
  exact congrArg (fun f : Fin 2048 → EReal => (Finset.univ : Finset (Fin 2048)).fold max (Ideal.ofBits .f32 0xFF800000#32) f)
    (funext fun k => congrArg X (lift_row h q k))

/-- The reduction by `+` along the columns, from zero: at row `q` the sum of the row's entries. -/
theorem rowSum_apply (X : FVec Ideal S512x2048 .f32) (h : S512x2048.Reduces [1] S512) (hφ : FKind.Formats .f32)
    (hacc : (0x00000000#32 : BitVec 32) = 0x00000000#32) (q : Fin 512) :
    multiReduction (F := Ideal) .add [1] S512 X 0x00000000#32 h hφ hacc (ix1 q) = ∑ k : Fin 2048, X (ix2 q k) := by
  refine (Ideal.multiReduction_add_single X _ h hφ hacc (ix1 q)).trans ?_
  show ∑ k : Fin 2048, X (h.lift (ix1 q) k) = _
  exact Finset.sum_congr rfl fun k _ => congrArg X (lift_row h q k)

end Cert.Hand.Pay
end
-- ==== Proof.Hand.PayAttnMat.lean ====
/-
  The attention body's two products, each into a zero accumulator, read at an index over the extended reals:
  queries against keys, `(q, k) ↦ Σ_d Q[q,d] · K[k,d]`, and weights against values, `(q, d) ↦ Σ_k P[q,k] · V[k,d]`.
  Each is the product's sum over its contraction index, carried along the bijection between a one-axis contraction
  index and that axis's coordinate, with the operand indices read off the dimension numbers.
-/
import proofs.«144100_j59261958750606_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section
namespace Cert.Hand.Pay
open Idealize.ShloMosaic Idealize.ShloMosaic.ValueIdx Cert.KernelIdeal

/-! ## Queries against keys: `[512, 64] · [2048, 64]ᵀ`

The dimension numbers contract axis 1 of both operands: output `(q, k)` pairs query row `q` with key row `k`. -/

theorem dB_lhs0 (i : S512x2048.Idx) (p : dot_S512x64_S2048x64_S512x2048_1_1_0_0_n_n.contr.Idx) : (dot_S512x64_S2048x64_S512x2048_1_1_0_0_n_n.lhsIdx i p 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem dB_lhs1 (i : S512x2048.Idx) (p : dot_S512x64_S2048x64_S512x2048_1_1_0_0_n_n.contr.Idx) : (dot_S512x64_S2048x64_S512x2048_1_1_0_0_n_n.lhsIdx i p 1).val = (p ⟨0, by decide⟩).val :=
  dot_S512x64_S2048x64_S512x2048_1_1_0_0_n_n.lhsIdx_val_of_single rfl i p
theorem dB_rhs0 (i : S512x2048.Idx) (p : dot_S512x64_S2048x64_S512x2048_1_1_0_0_n_n.contr.Idx) : (dot_S512x64_S2048x64_S512x2048_1_1_0_0_n_n.rhsIdx i p 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem dB_rhs1 (i : S512x2048.Idx) (p : dot_S512x64_S2048x64_S512x2048_1_1_0_0_n_n.contr.Idx) : (dot_S512x64_S2048x64_S512x2048_1_1_0_0_n_n.rhsIdx i p 1).val = (p ⟨0, by decide⟩).val :=
  dot_S512x64_S2048x64_S512x2048_1_1_0_0_n_n.rhsIdx_val_of_single rfl i p

/-- Into a zero accumulator, read at `(q, k)`: the sum over the 64 channels of query row `q` times key row `k`. -/
theorem matmul_qk_apply {φ₁ φ₂ : FTy} (a : FVec Ideal S512x64 φ₁) (b : FVec Ideal S2048x64 φ₂) (q : Fin 512) (k : Fin 2048) :
    matmul (F := Ideal) dot_S512x64_S2048x64_S512x2048_1_1_0_0_n_n none a b (constant (F := Ideal) S512x2048 .f32 0x00000000#32) (ix2 q k)
      = ∑ d : Fin 64, a (ix2 q d) * b (ix2 k d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 q k) ((contrEquiv1 dot_S512x64_S2048x64_S512x2048_1_1_0_0_n_n 64 rfl rfl).symm d) = ix2 q d := funext fun ax => Fin.ext (by
    match ax with
    | ⟨0, _⟩ => exact dB_lhs0 _ _
    | ⟨1, _⟩ => exact (dB_lhs1 _ _).trans hd)
  have er : dot_S512x64_S2048x64_S512x2048_1_1_0_0_n_n.rhsIdx (ix2 q k) ((contrEquiv1 dot_S512x64_S2048x64_S512x2048_1_1_0_0_n_n 64 rfl rfl).symm d) = ix2 k d := funext fun ax => Fin.ext (by
    match ax with
    | ⟨0, _⟩ => exact dB_rhs0 _ _
    | ⟨1, _⟩ => exact (dB_rhs1 _ _).trans hd)
  rw [el, er]

/-! ## Weights against values: `[512, 2048] · [2048, 64]`

The dimension numbers contract axis 1 of the left operand with axis 0 of the right one: the plain matrix product. -/

theorem dC_lhs0 (i : S512x64.Idx) (p : dot_S512x2048_S2048x64_S512x64_1_0_0_1_n_n.contr.Idx) : (dot_S512x2048_S2048x64_S512x64_1_0_0_1_n_n.lhsIdx i p 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dC_lhs1 (i : S512x64.Idx) (p : dot_S512x2048_S2048x64_S512x64_1_0_0_1_n_n.contr.Idx) : (dot_S512x2048_S2048x64_S512x64_1_0_0_1_n_n.lhsIdx i p 1).val = (p ⟨0, by decide⟩).val :=
  dot_S512x2048_S2048x64_S512x64_1_0_0_1_n_n.lhsIdx_val_of_single rfl i p
theorem dC_rhs0 (i : S512x64.Idx) (p : dot_S512x2048_S2048x64_S512x64_1_0_0_1_n_n.contr.Idx) : (dot_S512x2048_S2048x64_S512x64_1_0_0_1_n_n.rhsIdx i p 0).val = (p ⟨0, by decide⟩).val :=
  dot_S512x2048_S2048x64_S512x64_1_0_0_1_n_n.rhsIdx_val_of_single rfl i p
theorem dC_rhs1 (i : S512x64.Idx) (p : dot_S512x2048_S2048x64_S512x64_1_0_0_1_n_n.contr.Idx) : (dot_S512x2048_S2048x64_S512x64_1_0_0_1_n_n.rhsIdx i p 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Into a zero accumulator, read at `(q, d)`: the sum over the 2048 key rows of weight `(q, k)` times value `(k, d)`. -/
theorem matmul_pv_apply {φ₁ φ₂ : FTy} (a : FVec Ideal S512x2048 φ₁) (b : FVec Ideal S2048x64 φ₂) (q : Fin 512) (d : Fin 64) :
    matmul (F := Ideal) dot_S512x2048_S2048x64_S512x64_1_0_0_1_n_n none a b (constant (F := Ideal) S512x64 .f32 0x00000000#32) (ix2 q d)
      = ∑ k : Fin 2048, a (ix2 q k) * b (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 q d) ((contrEquiv1 dot_S512x2048_S2048x64_S512x64_1_0_0_1_n_n 2048 rfl rfl).symm k) = ix2 q k := funext fun ax => Fin.ext (by
    match ax with
    | ⟨0, _⟩ => exact dC_lhs0 _ _
    | ⟨1, _⟩ => exact (dC_lhs1 _ _).trans hk)
  have er : dot_S512x2048_S2048x64_S512x64_1_0_0_1_n_n.rhsIdx (ix2 q d) ((contrEquiv1 dot_S512x2048_S2048x64_S512x64_1_0_0_1_n_n 2048 rfl rfl).symm k) = ix2 k d := funext fun ax => Fin.ext (by
    match ax with
    | ⟨0, _⟩ => exact (dC_rhs0 _ _).trans hk
    | ⟨1, _⟩ => exact dC_rhs1 _ _)
  rw [el, er]

end Cert.Hand.Pay
end
-- ==== Proof.Hand.PayAttnHead.lean ====
/-
  One head of the attention body, read at an index over the extended reals.

  The body runs the same chain for each head of the pair on the head's three operands `Q : [512, 64]`,
  `K, V : [2048, 64]`: the scores `Q · Kᵀ` into a zero block, times `1/8`; each row less its maximum, exponentiated;
  each row divided by its sum; the weights against `V` into a zero accumulator. Block by block the chain is read at an
  index — the products as sums over the contracted axis, the two row reductions as a fold of `max` and a sum, the
  kept-then-spread column as the row's own value — and what comes out at `(q, d)` is
  `Σ_k softmax_k(score q ·) · V[k,d]`, a function of the operands' entries alone.
-/
import proofs.«144100_j59261958750606_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«144100_j59261958750606_2_alg».proof.Proof.Hand.PayAttnLayout
import proofs.«144100_j59261958750606_2_alg».proof.Proof.Hand.PayAttnMat

noncomputable section
namespace Cert.Hand.Pay
open Idealize.ShloMosaic Idealize.ShloMosaic.ValueIdx Cert.KernelIdeal
open Cert.KernelIdeal.Facts₀ Cert.KernelIdeal.Facts

/-! ## One head's softmax attention as a function of its three operands' entries -/

section Head
variable (Qf : Fin 512 → Fin 64 → EReal) (Kf Vf : Fin 2048 → Fin 64 → EReal)

/-- The scaled score of query row `q` against key row `k`: the channels' products summed, times `1/8`. -/
def hScore (q : Fin 512) (k : Fin 2048) : EReal :=
  (∑ d : Fin 64, Qf q d * Kf k d) * Ideal.ofBits .f32 0x3E000000#32
/-- The largest score of query row `q`, folded from `-∞`. -/
def hMax (q : Fin 512) : EReal :=
  (Finset.univ : Finset (Fin 2048)).fold max (Ideal.ofBits .f32 0xFF800000#32) (fun k => hScore Qf Kf q k)
def hExp (q : Fin 512) (k : Fin 2048) : EReal := Ideal.exp (hScore Qf Kf q k - hMax Qf Kf q)
def hDen (q : Fin 512) : EReal := ∑ k : Fin 2048, hExp Qf Kf q k
def hWgt (q : Fin 512) (k : Fin 2048) : EReal := Ideal.div (hExp Qf Kf q k) (hDen Qf Kf q)
/-- The head's output: the softmax weights of row `q` against the value rows, at channel `d`. -/
def hOut (q : Fin 512) (d : Fin 64) : EReal := ∑ k : Fin 2048, hWgt Qf Kf q k * Vf k d

end Head

/-! ## The chain of operations the body runs for one head, in four blocks -/

section Chain
variable {F : FTy → Type} [FloatOps F]

/-- The scores: queries against keys into the block `z`, times the scale `1/8`. -/
def scoreBlock (v37 : FVec F S512x64 .bf16) (v38 : FVec F S2048x64 .bf16) (cst_14 : FVec F S512x2048 .f32) : FVec F S512x2048 .f32 :=
  mulf (matmul dot_S512x64_S2048x64_S512x2048_1_1_0_0_n_n none v37 v38 cst_14) (broadcast S512x2048 (Scalar.ofBits .f32 0x3E000000#32))

/-- Each row less its maximum, exponentiated. -/
def expBlock (v42 : FVec F S512x2048 .f32) : FVec F S512x2048 .f32 :=
  exp (subf v42 (broadcastTo S512x2048 (shapeCast S512x1 (multiReduction .maximumf [1] S512 v42 0xFF800000#32 reduces_S512x2048_S512 (.inl rfl) rfl)
    shapeCasts_S512_S512x1) broadcasts_S512x1_S512x2048))

/-- Each row divided by its sum, rounded. -/
def wgtBlock (v47 : FVec F S512x2048 .f32) : FVec F S512x2048 .bf16 :=
  truncf .bf16 (divf v47 (broadcastTo S512x2048 (shapeCast S512x1 (multiReduction .add [1] S512 v47 0x00000000#32 reduces_S512x2048_S512 (.inl rfl) rfl)
    shapeCasts_S512_S512x1) broadcasts_S512x1_S512x2048)) bitsLt_bf16_f32

/-- The whole chain: the weights against the values, into a zero accumulator. -/
def headChain (v37 : FVec F S512x64 .bf16) (v38 : FVec F S2048x64 .bf16) (v39 : FVec F S2048x64 .bf16) (cst_14 : FVec F S512x2048 .f32) : FVec F S512x64 .f32 :=
  matmul dot_S512x2048_S2048x64_S512x64_1_0_0_1_n_n none (wgtBlock (expBlock (scoreBlock v37 v38 cst_14))) v39 (constant S512x64 .f32 0x00000000#32)

end Chain

theorem scoreBlock_apply (Q : FVec Ideal S512x64 .bf16) (K : FVec Ideal S2048x64 .bf16) (q : Fin 512) (k : Fin 2048) :
    scoreBlock (F := Ideal) Q K (constant (F := Ideal) S512x2048 .f32 0x00000000#32) (ix2 q k)
      = hScore (fun q d => Q (ix2 q d)) (fun k d => K (ix2 k d)) q k := by
  unfold scoreBlock
  rw [mulf_apply, matmul_qk_apply]
  rfl

theorem expBlock_apply (S : FVec Ideal S512x2048 .f32) (q : Fin 512) (k : Fin 2048) :
    expBlock (F := Ideal) S (ix2 q k)
      = Ideal.exp (S (ix2 q k) - (Finset.univ : Finset (Fin 2048)).fold max (Ideal.ofBits .f32 0xFF800000#32) (fun k => S (ix2 q k))) := by
  unfold expBlock
  rw [exp_apply, subf_apply, broadcastTo_a1_ab_apply, shapeCast_a_a1_apply, rowMax_apply]

theorem wgtBlock_apply (E : FVec Ideal S512x2048 .f32) (q : Fin 512) (k : Fin 2048) :
    wgtBlock (F := Ideal) E (ix2 q k) = Ideal.div (E (ix2 q k)) (∑ k : Fin 2048, E (ix2 q k)) := by
  unfold wgtBlock
  rw [truncf_apply, divf_apply, broadcastTo_a1_ab_apply, shapeCast_a_a1_apply, rowSum_apply]

/-- The chain into the zero block, read at `(q, d)`, is the head's softmax attention of its operands' entries. -/
theorem headChain_apply (Q : FVec Ideal S512x64 .bf16) (K V : FVec Ideal S2048x64 .bf16) (q : Fin 512) (d : Fin 64) :
    headChain (F := Ideal) Q K V (constant (F := Ideal) S512x2048 .f32 0x00000000#32) (ix2 q d)
      = hOut (fun q d => Q (ix2 q d)) (fun k d => K (ix2 k d)) (fun k d => V (ix2 k d)) q d := by
  have hS : (fun k => scoreBlock (F := Ideal) Q K (constant (F := Ideal) S512x2048 .f32 0x00000000#32) (ix2 q k))
      = fun k => hScore (fun q d => Q (ix2 q d)) (fun k d => K (ix2 k d)) q k := funext fun k => scoreBlock_apply Q K q k
  have hE : (fun k => expBlock (F := Ideal) (scoreBlock (F := Ideal) Q K (constant (F := Ideal) S512x2048 .f32 0x00000000#32)) (ix2 q k))
      = fun k => hExp (fun q d => Q (ix2 q d)) (fun k d => K (ix2 k d)) q k := funext fun k => by
    rw [expBlock_apply, scoreBlock_apply, hS]
    rfl
  unfold headChain
  rw [matmul_pv_apply]
  refine Finset.sum_congr rfl fun k _ => ?_
  rw [wgtBlock_apply, hE]
  exact congrArg (fun e => Ideal.div e _ * V (ix2 k d)) (congrFun hE k)

end Cert.Hand.Pay
end
-- ==== Proof.Hand.PayAttn.lean ====
/-
  The attention body's stored value read at an index, over the extended reals.

  The body drops the blocks' leading unit axis, multiplies queries, keys and values by the mask row spread over the
  rows, cuts each into the two heads' halves of the lanes (lanes 0–63 and 64–127), runs one head's chain on each
  half, lays the two `[512, 64]` outputs side by side along the lanes, rounds, and restores the unit axis. Read at
  `(0, q, j)`: lane `j` falls in the first or the second piece, which is channel `j % 64` of head `j / 64` of the
  pair; that piece is the head's chain on its slices, and the slices' entries are the masked lanes `64·(j / 64) + d`
  of the blocks — the block-level attention `bOut`.
-/
import proofs.«144100_j59261958750606_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«144100_j59261958750606_2_alg».proof.Proof.Hand.PayAttnHead
import proofs.«144100_j59261958750606_2_alg».proof.Proof.Hand.PayAttnDefs

noncomputable section
namespace Cert.Hand.Pay
open Idealize.ShloMosaic Idealize.ShloMosaic.ValueIdx Cert.KernelIdeal

open Cert.KernelIdeal.Gen

/-! ## The masked operands -/

section Blocks
variable (mk : Vec Ideal S1x128 .f32) (qb : Vec Ideal S1x512x128 .bf16) (kb vb : Vec Ideal S1x2048x128 .bf16)

/-- The query block with its leading unit axis dropped, times the mask row spread over the rows. -/
theorem pay3_apply (q : Fin 512) (l : Fin 128) : k1_pay3 (F := Ideal) mk qb (ix2 q l) = qb (ix3 0 q l) * mk (ix2 0 l) := by
  unfold k1_pay3 k1_pay2
  simp only [shapeCast_self]
  rw [truncf_apply, mulf_apply, extf_apply, shapeCast_1ab_ab_apply, broadcastTo_1b_ab_apply]

/-- The key block likewise. -/
theorem pay4_apply (k : Fin 2048) (l : Fin 128) : k1_pay4 (F := Ideal) mk kb (ix2 k l) = kb (ix3 0 k l) * mk (ix2 0 l) := by
  unfold k1_pay4 k1_pay2
  simp only [shapeCast_self]
  rw [truncf_apply, mulf_apply, extf_apply, shapeCast_1ab_ab_apply, broadcastTo_1b_ab_apply]

/-- The value block likewise. -/
theorem pay5_apply (k : Fin 2048) (l : Fin 128) : k1_pay5 (F := Ideal) mk vb (ix2 k l) = vb (ix3 0 k l) * mk (ix2 0 l) := by
  unfold k1_pay5 k1_pay2
  simp only [shapeCast_self]
  rw [truncf_apply, mulf_apply, extf_apply, shapeCast_1ab_ab_apply, broadcastTo_1b_ab_apply]

/-! ## The block-level attention as one head's attention -/

/-- The block-level attention is one head's softmax attention of the masked lanes of that head. -/
theorem bOut_eq_hOut (hh : Fin 2) (q : Fin 512) (d : Fin 64) :
    bOut mk qb kb vb hh q d
      = hOut (fun q d => qb (ix3 0 q (lane hh d)) * mk (ix2 0 (lane hh d))) (fun k d => kb (ix3 0 k (lane hh d)) * mk (ix2 0 (lane hh d)))
          (fun k d => vb (ix3 0 k (lane hh d)) * mk (ix2 0 (lane hh d))) q d := rfl

/-! ## A head's half of the lanes cut out of the masked operands -/

theorem sliceQ_apply (o : ℕ) (h : S512x128.Slices ![0, o] S512x64) (hh : Fin 2) (ho : o = 64 * hh.val) (q : Fin 512) (d : Fin 64) :
    extractStridedSlice S512x64 ![0, o] (k1_pay3 (F := Ideal) mk qb) h (ix2 q d) = qb (ix3 0 q (lane hh d)) * mk (ix2 0 (lane hh d)) := by
  rw [slice2_axis1_apply o _ h q d (lane hh d) (by show 64 * hh.val + d.val = o + d.val; omega), pay3_apply]

theorem sliceK_apply (o : ℕ) (h : S2048x128.Slices ![0, o] S2048x64) (hh : Fin 2) (ho : o = 64 * hh.val) (k : Fin 2048) (d : Fin 64) :
    extractStridedSlice S2048x64 ![0, o] (k1_pay4 (F := Ideal) mk kb) h (ix2 k d) = kb (ix3 0 k (lane hh d)) * mk (ix2 0 (lane hh d)) := by
  rw [slice2_axis1_apply o _ h k d (lane hh d) (by show 64 * hh.val + d.val = o + d.val; omega), pay4_apply]

theorem sliceV_apply (o : ℕ) (h : S2048x128.Slices ![0, o] S2048x64) (hh : Fin 2) (ho : o = 64 * hh.val) (k : Fin 2048) (d : Fin 64) :
    extractStridedSlice S2048x64 ![0, o] (k1_pay5 (F := Ideal) mk vb) h (ix2 k d) = vb (ix3 0 k (lane hh d)) * mk (ix2 0 (lane hh d)) := by
  rw [slice2_axis1_apply o _ h k d (lane hh d) (by show 64 * hh.val + d.val = o + d.val; omega), pay5_apply]

/-- The chain run on a head's three slices is the block-level attention of that head. -/
theorem headChain_slices (o : ℕ) (hq : S512x128.Slices ![0, o] S512x64) (hk : S2048x128.Slices ![0, o] S2048x64)
    (hh : Fin 2) (ho : o = 64 * hh.val) (q : Fin 512) (d : Fin 64) :
    headChain (F := Ideal) (extractStridedSlice S512x64 ![0, o] (k1_pay3 (F := Ideal) mk qb) hq)
        (extractStridedSlice S2048x64 ![0, o] (k1_pay4 (F := Ideal) mk kb) hk)
        (extractStridedSlice S2048x64 ![0, o] (k1_pay5 (F := Ideal) mk vb) hk)
        (constant (F := Ideal) S512x2048 .f32 0x00000000#32) (ix2 q d)
      = bOut mk qb kb vb hh q d := by
  rw [headChain_apply, bOut_eq_hOut]
  have eq : (fun q d => extractStridedSlice S512x64 ![0, o] (k1_pay3 (F := Ideal) mk qb) hq (ix2 q d))
      = fun q d => qb (ix3 0 q (lane hh d)) * mk (ix2 0 (lane hh d)) :=
    funext fun q => funext fun d => sliceQ_apply mk qb o hq hh ho q d
  have ek : (fun k d => extractStridedSlice S2048x64 ![0, o] (k1_pay4 (F := Ideal) mk kb) hk (ix2 k d))
      = fun k d => kb (ix3 0 k (lane hh d)) * mk (ix2 0 (lane hh d)) :=
    funext fun k => funext fun d => sliceK_apply mk kb o hk hh ho k d
  have ev : (fun k d => extractStridedSlice S2048x64 ![0, o] (k1_pay5 (F := Ideal) mk vb) hk (ix2 k d))
      = fun k d => vb (ix3 0 k (lane hh d)) * mk (ix2 0 (lane hh d)) :=
    funext fun k => funext fun d => sliceV_apply mk vb o hk hh ho k d
  rw [eq, ek, ev]

/-! ## The body's stored value -/

/-- The first head of the pair, which the body computes ahead of the second, is the chain on the lanes from 0. -/
theorem pay6_eq : k1_pay6 (F := Ideal) mk qb kb vb
    = headChain (F := Ideal) (extractStridedSlice S512x64 ![0, 0] (k1_pay3 (F := Ideal) mk qb) slices_S512x128_o0_0_S512x64)
        (extractStridedSlice S2048x64 ![0, 0] (k1_pay4 (F := Ideal) mk kb) slices_S2048x128_o0_0_S2048x64)
        (extractStridedSlice S2048x64 ![0, 0] (k1_pay5 (F := Ideal) mk vb) slices_S2048x128_o0_0_S2048x64)
        (constant (F := Ideal) S512x2048 .f32 0x00000000#32) := rfl

/-- The stored value: the two heads' outputs side by side along the lanes, rounded, under a leading unit axis. -/
theorem pay1_eq (v36 : FVec Ideal S512x64 .f32) (v37 : FVec Ideal S512x64 .bf16) (v38 v39 : FVec Ideal S2048x64 .bf16) (z : FVec Ideal S512x2048 .f32) :
    k1_pay1 (F := Ideal) v36 v37 v38 v39 z
      = shapeCast S1x512x128 (truncf .bf16 (concatenate S512x128 1 [⟨S512x64, v36⟩, ⟨S512x64, headChain (F := Ideal) v37 v38 v39 z⟩]
          concatenates_S512x64_S512x64_S512x128_d1) bitsLt_bf16_f32) shapeCasts_S512x128_S1x512x128 := rfl

/-- The attention body's stored value at row `q`, lane `j`: channel `j % 64` of head `j / 64` of the pair. -/
theorem attn_apply (q : Fin 512) (j : Fin 128) :
    k1_pay1 (F := Ideal) (k1_pay6 (F := Ideal) mk qb kb vb) (k1_pay7 (F := Ideal) mk qb) (k1_pay8 (F := Ideal) mk kb) (k1_pay9 (F := Ideal) mk vb)
        (constant (F := Ideal) S512x2048 .f32 0x00000000#32) (ix3 0 q j)
      = bOut mk qb kb vb ⟨j.val / 64, by omega⟩ q ⟨j.val % 64, by omega⟩ := by
  rw [pay1_eq, shapeCast_ab_1ab_apply, truncf_apply]
  by_cases hj : j.val < 64
  · have e1 : (⟨j.val / 64, by omega⟩ : Fin 2) = 0 := Fin.ext (by show j.val / 64 = 0; omega)
    have e2 : (⟨j.val % 64, by omega⟩ : Fin 64) = ⟨j.val, hj⟩ := Fin.ext (by show j.val % 64 = j.val; omega)
    rw [e1, e2]
    refine (concatenate_pair_apply_left (t := S512x128) (s₁ := S512x64) (s₂ := S512x64) 1 _ _ _ (ix2 q j) rfl (ix2 q ⟨j.val, hj⟩ : S512x64.Idx) (fun b => by
      match b with
      | ⟨0, _⟩ => rfl
      | ⟨1, _⟩ => rfl)).trans ?_
    rw [pay6_eq]
    exact headChain_slices mk qb kb vb 0 _ _ 0 rfl q _
  · have e1 : (⟨j.val / 64, by omega⟩ : Fin 2) = 1 := Fin.ext (by show j.val / 64 = 1; omega)
    have e2 : (⟨j.val % 64, by omega⟩ : Fin 64) = ⟨j.val - 64, by omega⟩ := Fin.ext (by show j.val % 64 = j.val - 64; omega)
    rw [e1, e2]
    refine (concatenate_pair_apply_right (t := S512x128) (s₁ := S512x64) (s₂ := S512x64) 1 _ _ _ (ix2 q j) rfl rfl (ix2 q ⟨j.val - 64, by omega⟩ : S512x64.Idx) (fun b hb => by
      match b with
      | ⟨0, _⟩ => rfl
      | ⟨1, _⟩ => exact absurd rfl hb) (by show (j.val - 64) + 64 = j.val; omega)).trans ?_
    unfold k1_pay7 k1_pay8 k1_pay9
    exact headChain_slices mk qb kb vb 64 _ _ 1 rfl q _

end Blocks

end Cert.Hand.Pay
end
-- ==== Proof.Hand.Spec.lean ====
/-
  The mathematics both programs compute, as one function of the six argument arrays, index by index over the
  extended reals. Nothing here mentions a program.

  x : [2, 2048, 1024], hm : [16], W : [3072, 1024], b : [3072], Wf : [1024, 1024], bf : [1024].
  * the joint projection      proj n s e      = (Σ_d x[n,s,d] · W[e,d]) + b[e]
  * its column for part t (0 = query, 1 = key, 2 = value) of head h, channel d:  col t h d = 192·h + 64·t + d
  * the masked part           part t n h s d  = proj n s (col t h d) · hm[h]
  * the scaled score          score n h q k   = (Σ_d part 0 n h q d · part 1 n h k d) · (1/8, as the f32 word 0x3E000000)
  * the row maximum           rowMax n h q    = the fold of max from -∞ (the f32 word 0xFF800000) over k
  * the softmax weights       expo = exp (score - rowMax),  denom = Σ_k expo,  weight = expo / denom
  * the head's output         headOut n h q d = Σ_k weight n h q k · part 2 n h k d
  * the output projection     result n s e    = (Σ_j headOut n (j / 64) s (j % 64) · Wf[e,j]) + bf[e]
-/
import Idealize.ShloMosaic.PureOps.Ideal
import Idealize.ShloMosaic.Lib.ValueIdx

noncomputable section

namespace Cert.Hand.Spec

open Idealize.ShloMosaic Idealize.ShloMosaic.ValueIdx

abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

variable (x : Arr3 2 2048 1024) (hm : Arr1 16) (W : Arr2 3072 1024) (b : Arr1 3072) (Wf : Arr2 1024 1024) (bf : Arr1 1024)

/-- Column of the joint projection holding part `t` of head `h`, channel `d`: heads outermost, then the part. -/
def col (t : Fin 3) (h : Fin 16) (d : Fin 64) : Fin 3072 := ⟨192 * h.val + 64 * t.val + d.val, by omega⟩

/-- The joint projection `x · Wᵀ + b`. -/
def proj (n : Fin 2) (s : Fin 2048) (e : Fin 3072) : EReal :=
  (∑ d : Fin 1024, x (ix3 n s d) * W (ix2 e d)) + b (ix1 e)

/-- Part `t` of head `h` at position `s`, channel `d`, times the head's mask. -/
def part (t : Fin 3) (n : Fin 2) (h : Fin 16) (s : Fin 2048) (d : Fin 64) : EReal :=
  proj x W b n s (col t h d) * hm (ix1 h)

/-- The scaled score of query position `q` against key position `k`. -/
def score (n : Fin 2) (h : Fin 16) (q k : Fin 2048) : EReal :=
  (∑ d : Fin 64, part x hm W b 0 n h q d * part x hm W b 1 n h k d) * Ideal.ofBits .f32 0x3E000000#32

/-- The largest score of a query row. -/
def rowMax (n : Fin 2) (h : Fin 16) (q : Fin 2048) : EReal :=
  (Finset.univ : Finset (Fin 2048)).fold max (Ideal.ofBits .f32 0xFF800000#32) (fun k => score x hm W b n h q k)

def expo (n : Fin 2) (h : Fin 16) (q k : Fin 2048) : EReal :=
  Ideal.exp (score x hm W b n h q k - rowMax x hm W b n h q)

def denom (n : Fin 2) (h : Fin 16) (q : Fin 2048) : EReal := ∑ k : Fin 2048, expo x hm W b n h q k

def weight (n : Fin 2) (h : Fin 16) (q k : Fin 2048) : EReal :=
  Ideal.div (expo x hm W b n h q k) (denom x hm W b n h q)

/-- The head's output: the weighted sum of the value rows. -/
def headOut (n : Fin 2) (h : Fin 16) (q : Fin 2048) (d : Fin 64) : EReal :=
  ∑ k : Fin 2048, weight x hm W b n h q k * part x hm W b 2 n h k d

/-- The heads side by side, head-major: column `j` is channel `j % 64` of head `j / 64`. -/
def merged (n : Fin 2) (s : Fin 2048) (j : Fin 1024) : EReal :=
  headOut x hm W b n ⟨j.val / 64, by omega⟩ s ⟨j.val % 64, by omega⟩

/-- The whole function: the output projection of the merged heads. -/
def result : Arr3 2 2048 1024 := fun i =>
  (∑ j : Fin 1024, merged x hm W b (i 0) (i 1) j * Wf (ix2 (i 2) j)) + bf (ix1 (i 2))

end Cert.Hand.Spec

end
-- ==== Proof.Hand.BridgeGlue.lean ====
/-
  The kernel side's host glue and its two matrix products, against the specification. Pure mathematics over
  functions of indices.

  The first call multiplies the 4096 flattened rows (row 2048·n + s is position s of batch n) by the weight rows in
  PART-MAJOR order: row 1024·t + 64·h + d of the gathered weight is row 192·h + 64·t + d of the given one (part t of
  head h, channel d). So column 1024·t + 64·h + d of its result is the joint projection at the specification's column for
  (t, h, d). The last call is the output projection of the flattened attention rows.
-/
import proofs.«144100_j59261958750606_2_alg».proof.Proof.Hand.Spec

noncomputable section

namespace Cert.Hand.Bridge

open Idealize.ShloMosaic Idealize.ShloMosaic.ValueIdx
open Cert.Hand

/-- The part-major order of the gathered weight rows: row e holds part e / 1024 of head (e % 1024) / 64, channel e % 64. -/
abbrev σ (e : Fin 3072) : Fin 3072 :=
  Spec.col ⟨e.val / 1024, by omega⟩ ⟨(e.val % 1024) / 64, by omega⟩ ⟨e.val % 64, by omega⟩

/-- Batch of a flattened row. -/
abbrev rowN (r : Fin 4096) : Fin 2 := ⟨r.val / 2048, by omega⟩
/-- Position of a flattened row. -/
abbrev rowS (r : Fin 4096) : Fin 2048 := ⟨r.val % 2048, by omega⟩
/-- The flattened row of position s of batch n. -/
abbrev row (n : Fin 2) (s : Fin 2048) : Fin 4096 := ⟨2048 * n.val + s.val, by omega⟩
/-- The part-major column of part t, head h, channel d. -/
abbrev pcol (t : Fin 3) (h : Fin 16) (d : Fin 64) : Fin 3072 := ⟨1024 * t.val + 64 * h.val + d.val, by omega⟩

theorem rowN_row (n : Fin 2) (s : Fin 2048) : rowN (row n s) = n := Fin.ext (by show (2048 * n.val + s.val) / 2048 = n.val; omega)
theorem rowS_row (n : Fin 2) (s : Fin 2048) : rowS (row n s) = s := Fin.ext (by show (2048 * n.val + s.val) % 2048 = s.val; omega)

/-- The gathered row for (t, h, d) is the specification's column for (t, h, d). -/
theorem sigma_pcol (t : Fin 3) (h : Fin 16) (d : Fin 64) : σ (pcol t h d) = Spec.col t h d :=
  Fin.ext (by
    show 192 * ((1024 * t.val + 64 * h.val + d.val) % 1024 / 64) + 64 * ((1024 * t.val + 64 * h.val + d.val) / 1024)
        + (1024 * t.val + 64 * h.val + d.val) % 64 = 192 * h.val + 64 * t.val + d.val
    omega)

section
variable (x : Spec.Arr3 2 2048 1024) (hm : Spec.Arr1 16) (W : Spec.Arr2 3072 1024) (b : Spec.Arr1 3072)
  (Wf : Spec.Arr2 1024 1024) (bf : Spec.Arr1 1024)

/-- The first call and the reshape after it: the joint projection with its columns in part-major order. -/
theorem qkv3_eq
    (a0 : Spec.Arr2 4096 1024) (h_a0 : ∀ (r : Fin 4096) (d : Fin 1024), a0 (ix2 r d) = x (ix3 (rowN r) (rowS r) d))
    (w0 : Spec.Arr2 3072 1024) (h_w0 : ∀ (e : Fin 3072) (k : Fin 1024), w0 (ix2 e k) = W (ix2 (σ e) k))
    (b0 : Spec.Arr2 1 3072) (h_b0 : ∀ e : Fin 3072, b0 (ix2 0 e) = b (ix1 (σ e)))
    (qkv2 : Spec.Arr2 4096 3072)
    (h_qkv2 : qkv2 = fun i => (∑ d : Fin 1024, a0 (ix2 (i 0) d) * w0 (ix2 (i 1) d)) + b0 (ix2 0 (i 1)))
    (qkv3 : Spec.Arr3 2 2048 3072) (h_qkv3 : ∀ (n : Fin 2) (s : Fin 2048) (e : Fin 3072), qkv3 (ix3 n s e) = qkv2 (ix2 (row n s) e))
    (n : Fin 2) (s : Fin 2048) (e : Fin 3072) :
    qkv3 (ix3 n s e) = Spec.proj x W b n s (σ e) := by
  rw [h_qkv3, h_qkv2]
  show (∑ d : Fin 1024, a0 (ix2 (row n s) d) * w0 (ix2 e d)) + b0 (ix2 0 e) = _
  simp only [h_a0, h_w0, h_b0, rowN_row, rowS_row]
  rfl

/-- Part t of head h at position s, channel d, from the first call's result and the mask. -/
theorem part_of_qkv3 (qkv3 : Spec.Arr3 2 2048 3072)
    (hq : ∀ (n : Fin 2) (s : Fin 2048) (e : Fin 3072), qkv3 (ix3 n s e) = Spec.proj x W b n s (σ e))
    (t : Fin 3) (n : Fin 2) (h : Fin 16) (s : Fin 2048) (d : Fin 64) :
    qkv3 (ix3 n s (pcol t h d)) * hm (ix1 h) = Spec.part x hm W b t n h s d := by
  rw [hq, sigma_pcol]
  rfl

/-- The last call and the reshape after it, given that the attention array is the merged heads. -/
theorem out3_eq
    (att : Spec.Arr3 2 2048 1024) (h_att : ∀ (n : Fin 2) (s : Fin 2048) (j : Fin 1024), att (ix3 n s j) = Spec.merged x hm W b n s j)
    (att2 : Spec.Arr2 4096 1024) (h_att2 : ∀ (r : Fin 4096) (j : Fin 1024), att2 (ix2 r j) = att (ix3 (rowN r) (rowS r) j))
    (bf2 : Spec.Arr2 1 1024) (h_bf2 : ∀ e : Fin 1024, bf2 (ix2 0 e) = bf (ix1 e))
    (out2 : Spec.Arr2 4096 1024)
    (h_out2 : out2 = fun i => (∑ j : Fin 1024, att2 (ix2 (i 0) j) * Wf (ix2 (i 1) j)) + bf2 (ix2 0 (i 1)))
    (out3 : Spec.Arr3 2 2048 1024) (h_out3 : ∀ (n : Fin 2) (s : Fin 2048) (e : Fin 1024), out3 (ix3 n s e) = out2 (ix2 (row n s) e)) :
    out3 = Spec.result x hm W b Wf bf := by
  funext i
  rw [eq_ix3 i]
  have key : ∀ (n : Fin 2) (s : Fin 2048) (e : Fin 1024), out3 (ix3 n s e) = Spec.result x hm W b Wf bf (ix3 n s e) := by
    intro n s e
    rw [h_out3, h_out2]
    show (∑ j : Fin 1024, att2 (ix2 (row n s) j) * Wf (ix2 e j)) + bf2 (ix2 0 e) = _
    simp only [h_att2, h_bf2, rowN_row, rowS_row, h_att]
    rfl
  exact key (i 0) (i 1) (i 2)

end

end Cert.Hand.Bridge

end
-- ==== Proof.Hand.BridgeBlock.lean ====
/-
  One grid block of the attention call against the specification, and the whole kernel side assembled.

  A block is a pair p of heads (lanes 128·p … 128·p + 127 of each part), a tile qt of 512 query positions, and all
  2048 key positions of batch n. Head hh of the pair is head 2·p + hh; its channel d sits at lane 64·hh + d of the block,
  which is part-major column 1024·t + 64·(2·p + hh) + d of the first call's result. Every operand entry times the mask
  at its lane is therefore the specification's masked part, and the block's score, row maximum, exponentials, row sum,
  weights and output are the specification's, term by term. Column j of the attention array belongs to pair j / 128,
  head j / 64, channel j % 64: the head-major merging.
-/
import proofs.«144100_j59261958750606_2_alg».proof.Proof.Hand.BridgeGlue
import proofs.«144100_j59261958750606_2_alg».proof.Proof.Hand.PayAttnDefs

noncomputable section

namespace Cert.Hand.Bridge

open Idealize.ShloMosaic Idealize.ShloMosaic.ValueIdx
open Cert.Hand

variable (x : Spec.Arr3 2 2048 1024) (hm : Spec.Arr1 16) (W : Spec.Arr2 3072 1024) (b : Spec.Arr1 3072)
  (Wf : Spec.Arr2 1024 1024) (bf : Spec.Arr1 1024)

/-! ### A block whose masked entries are the specification's parts computes the specification's head output -/

section Block
variable (mk : Spec.Arr2 1 128) (qb : Spec.Arr3 1 512 128) (kb vb : Spec.Arr3 1 2048 128)
  (n : Fin 2) (h : Fin 16) (hh : Fin 2) (qpos : Fin 512 → Fin 2048)

theorem bScore_eq
    (hQ : ∀ (q : Fin 512) (d : Fin 64), qb (ix3 0 q (Pay.lane hh d)) * mk (ix2 0 (Pay.lane hh d)) = Spec.part x hm W b 0 n h (qpos q) d)
    (hK : ∀ (k : Fin 2048) (d : Fin 64), kb (ix3 0 k (Pay.lane hh d)) * mk (ix2 0 (Pay.lane hh d)) = Spec.part x hm W b 1 n h k d)
    (q : Fin 512) (k : Fin 2048) :
    Pay.bScore mk qb kb hh q k = Spec.score x hm W b n h (qpos q) k := by
  unfold Pay.bScore Spec.score
  simp only [hQ, hK]

theorem bMax_eq
    (hQ : ∀ (q : Fin 512) (d : Fin 64), qb (ix3 0 q (Pay.lane hh d)) * mk (ix2 0 (Pay.lane hh d)) = Spec.part x hm W b 0 n h (qpos q) d)
    (hK : ∀ (k : Fin 2048) (d : Fin 64), kb (ix3 0 k (Pay.lane hh d)) * mk (ix2 0 (Pay.lane hh d)) = Spec.part x hm W b 1 n h k d)
    (q : Fin 512) :
    Pay.bMax mk qb kb hh q = Spec.rowMax x hm W b n h (qpos q) := by
  unfold Pay.bMax Spec.rowMax
  simp only [bScore_eq x hm W b mk qb kb n h hh qpos hQ hK]

theorem bExp_eq
    (hQ : ∀ (q : Fin 512) (d : Fin 64), qb (ix3 0 q (Pay.lane hh d)) * mk (ix2 0 (Pay.lane hh d)) = Spec.part x hm W b 0 n h (qpos q) d)
    (hK : ∀ (k : Fin 2048) (d : Fin 64), kb (ix3 0 k (Pay.lane hh d)) * mk (ix2 0 (Pay.lane hh d)) = Spec.part x hm W b 1 n h k d)
    (q : Fin 512) (k : Fin 2048) :
    Pay.bExp mk qb kb hh q k = Spec.expo x hm W b n h (qpos q) k := by
  unfold Pay.bExp Spec.expo
  rw [bScore_eq x hm W b mk qb kb n h hh qpos hQ hK, bMax_eq x hm W b mk qb kb n h hh qpos hQ hK]

theorem bDen_eq
    (hQ : ∀ (q : Fin 512) (d : Fin 64), qb (ix3 0 q (Pay.lane hh d)) * mk (ix2 0 (Pay.lane hh d)) = Spec.part x hm W b 0 n h (qpos q) d)
    (hK : ∀ (k : Fin 2048) (d : Fin 64), kb (ix3 0 k (Pay.lane hh d)) * mk (ix2 0 (Pay.lane hh d)) = Spec.part x hm W b 1 n h k d)
    (q : Fin 512) :
    Pay.bDen mk qb kb hh q = Spec.denom x hm W b n h (qpos q) := by
  unfold Pay.bDen Spec.denom
  simp only [bExp_eq x hm W b mk qb kb n h hh qpos hQ hK]

theorem bWgt_eq
    (hQ : ∀ (q : Fin 512) (d : Fin 64), qb (ix3 0 q (Pay.lane hh d)) * mk (ix2 0 (Pay.lane hh d)) = Spec.part x hm W b 0 n h (qpos q) d)
    (hK : ∀ (k : Fin 2048) (d : Fin 64), kb (ix3 0 k (Pay.lane hh d)) * mk (ix2 0 (Pay.lane hh d)) = Spec.part x hm W b 1 n h k d)
    (q : Fin 512) (k : Fin 2048) :
    Pay.bWgt mk qb kb hh q k = Spec.weight x hm W b n h (qpos q) k := by
  unfold Pay.bWgt Spec.weight
  rw [bExp_eq x hm W b mk qb kb n h hh qpos hQ hK, bDen_eq x hm W b mk qb kb n h hh qpos hQ hK]

/-- The block's output for head hh of the pair is the specification's head output. -/
theorem bOut_eq
    (hQ : ∀ (q : Fin 512) (d : Fin 64), qb (ix3 0 q (Pay.lane hh d)) * mk (ix2 0 (Pay.lane hh d)) = Spec.part x hm W b 0 n h (qpos q) d)
    (hK : ∀ (k : Fin 2048) (d : Fin 64), kb (ix3 0 k (Pay.lane hh d)) * mk (ix2 0 (Pay.lane hh d)) = Spec.part x hm W b 1 n h k d)
    (hV : ∀ (k : Fin 2048) (d : Fin 64), vb (ix3 0 k (Pay.lane hh d)) * mk (ix2 0 (Pay.lane hh d)) = Spec.part x hm W b 2 n h k d)
    (q : Fin 512) (d : Fin 64) :
    Pay.bOut mk qb kb vb hh q d = Spec.headOut x hm W b n h (qpos q) d := by
  unfold Pay.bOut Spec.headOut
  simp only [bWgt_eq x hm W b mk qb kb n h hh qpos hQ hK, hV]

end Block

/-! ### The blocks cut out of the mask row and of the first call's result -/

/-- Lanes 128·p … 128·p + 127 of the mask row. -/
abbrev mkBlock (mk : Spec.Arr2 1 1024) (p : Fin 8) : Spec.Arr2 1 128 :=
  fun y => mk (ix2 0 ⟨128 * p.val + (y 1).val, by have h1 : (y 1).val < 128 := (y 1).isLt; omega⟩)

/-- Query tile qt of pair p: positions 512·qt … 512·qt + 511, columns 128·p … 128·p + 127. -/
abbrev qBlock (qkv3 : Spec.Arr3 2 2048 3072) (n : Fin 2) (qt : Fin 4) (p : Fin 8) : Spec.Arr3 1 512 128 :=
  fun y => qkv3 (ix3 n ⟨512 * qt.val + (y 1).val, by have h1 : (y 1).val < 512 := (y 1).isLt; omega⟩
    ⟨128 * p.val + (y 2).val, by have h2 : (y 2).val < 128 := (y 2).isLt; omega⟩)

/-- All positions of part t (1 = keys, 2 = values) of pair p: columns 1024·t + 128·p … 1024·t + 128·p + 127. -/
abbrev kvBlock (qkv3 : Spec.Arr3 2 2048 3072) (t : Fin 3) (n : Fin 2) (p : Fin 8) : Spec.Arr3 1 2048 128 :=
  fun y => qkv3 (ix3 n ⟨(y 1).val, (y 1).isLt⟩
    ⟨1024 * t.val + 128 * p.val + (y 2).val, by have h2 : (y 2).val < 128 := (y 2).isLt; omega⟩)

/-- Head hh of pair p. -/
abbrev head (p : Fin 8) (hh : Fin 2) : Fin 16 := ⟨2 * p.val + hh.val, by omega⟩
/-- Position q of query tile qt. -/
abbrev qrow (qt : Fin 4) (q : Fin 512) : Fin 2048 := ⟨512 * qt.val + q.val, by omega⟩

section Tile
variable (mk : Spec.Arr2 1 1024) (qkv3 : Spec.Arr3 2 2048 3072)

/-- The mask at lane 64·hh + d of pair p is the mask of head 2·p + hh. -/
theorem mkBlock_lane (h_mk : ∀ j : Fin 1024, mk (ix2 0 j) = hm (ix1 ⟨j.val / 64, by omega⟩))
    (p : Fin 8) (hh : Fin 2) (d : Fin 64) :
    mkBlock mk p (ix2 0 (Pay.lane hh d)) = hm (ix1 (head p hh)) := by
  show mk (ix2 0 ⟨128 * p.val + (64 * hh.val + d.val), _⟩) = _
  rw [h_mk]
  exact congrArg (fun a => hm (ix1 a)) (Fin.ext (by show (128 * p.val + (64 * hh.val + d.val)) / 64 = 2 * p.val + hh.val; omega))

/-- A query tile's entry at lane 64·hh + d. -/
theorem qBlock_lane (n : Fin 2) (qt : Fin 4) (p : Fin 8) (hh : Fin 2) (q : Fin 512) (d : Fin 64) :
    qBlock qkv3 n qt p (ix3 0 q (Pay.lane hh d)) = qkv3 (ix3 n (qrow qt q) (pcol 0 (head p hh) d)) := by
  show qkv3 (ix3 n ⟨512 * qt.val + q.val, _⟩ ⟨128 * p.val + (64 * hh.val + d.val), _⟩) = _
  exact congrArg (fun a => qkv3 (ix3 n (qrow qt q) a))
    (Fin.ext (by show 128 * p.val + (64 * hh.val + d.val) = 1024 * 0 + 64 * (2 * p.val + hh.val) + d.val; omega))

/-- A key or value block's entry at lane 64·hh + d. -/
theorem kvBlock_lane (t : Fin 3) (n : Fin 2) (p : Fin 8) (hh : Fin 2) (k : Fin 2048) (d : Fin 64) :
    kvBlock qkv3 t n p (ix3 0 k (Pay.lane hh d)) = qkv3 (ix3 n k (pcol t (head p hh) d)) := by
  show qkv3 (ix3 n ⟨k.val, _⟩ ⟨1024 * t.val + 128 * p.val + (64 * hh.val + d.val), _⟩) = _
  exact congrArg (fun a => qkv3 (ix3 n k a))
    (Fin.ext (by show 1024 * t.val + 128 * p.val + (64 * hh.val + d.val) = 1024 * t.val + 64 * (2 * p.val + hh.val) + d.val; omega))

/-- One grid block: pair p, query tile qt, batch n. -/
theorem block_eq (h_mk : ∀ j : Fin 1024, mk (ix2 0 j) = hm (ix1 ⟨j.val / 64, by omega⟩))
    (hq : ∀ (n : Fin 2) (s : Fin 2048) (e : Fin 3072), qkv3 (ix3 n s e) = Spec.proj x W b n s (σ e))
    (n : Fin 2) (qt : Fin 4) (p : Fin 8) (hh : Fin 2) (q : Fin 512) (d : Fin 64) :
    Pay.bOut (mkBlock mk p) (qBlock qkv3 n qt p) (kvBlock qkv3 1 n p) (kvBlock qkv3 2 n p) hh q d
      = Spec.headOut x hm W b n (head p hh) (qrow qt q) d := by
  refine bOut_eq x hm W b (mkBlock mk p) (qBlock qkv3 n qt p) (kvBlock qkv3 1 n p) (kvBlock qkv3 2 n p) n (head p hh) hh
    (qrow qt) ?_ ?_ ?_ q d
  · intro q d
    rw [qBlock_lane, mkBlock_lane hm mk h_mk]
    exact part_of_qkv3 x hm W b qkv3 hq 0 n (head p hh) (qrow qt q) d
  · intro k d
    rw [kvBlock_lane, mkBlock_lane hm mk h_mk]
    exact part_of_qkv3 x hm W b qkv3 hq 1 n (head p hh) k d
  · intro k d
    rw [kvBlock_lane, mkBlock_lane hm mk h_mk]
    exact part_of_qkv3 x hm W b qkv3 hq 2 n (head p hh) k d

end Tile

/-! ### The attention array is the merged heads; the kernel side is the specification -/

/-- Pair, tile and in-block coordinates of an entry (n, s, j) of the attention array. -/
abbrev jp (j : Fin 1024) : Fin 8 := ⟨j.val / 128, by omega⟩
abbrev jhh (j : Fin 1024) : Fin 2 := ⟨j.val % 128 / 64, by omega⟩
abbrev jd (j : Fin 1024) : Fin 64 := ⟨j.val % 64, by omega⟩
abbrev sq (s : Fin 2048) : Fin 4 := ⟨s.val / 512, by omega⟩
abbrev sr (s : Fin 2048) : Fin 512 := ⟨s.val % 512, by omega⟩

/-- The attention call, tile by tile, writes the merged heads. The ONE place the attention call's description is used. -/
theorem att_eq_merged
    (mk : Spec.Arr2 1 1024) (h_mk : ∀ j : Fin 1024, mk (ix2 0 j) = hm (ix1 ⟨j.val / 64, by omega⟩))
    (qkv3 : Spec.Arr3 2 2048 3072)
    (hq : ∀ (n : Fin 2) (s : Fin 2048) (e : Fin 3072), qkv3 (ix3 n s e) = Spec.proj x W b n s (σ e))
    (att : Spec.Arr3 2 2048 1024)
    (h_att : ∀ (n : Fin 2) (s : Fin 2048) (j : Fin 1024), att (ix3 n s j)
      = Pay.bOut (mkBlock mk (jp j)) (qBlock qkv3 n (sq s) (jp j)) (kvBlock qkv3 1 n (jp j)) (kvBlock qkv3 2 n (jp j))
          (jhh j) (sr s) (jd j))
    (n : Fin 2) (s : Fin 2048) (j : Fin 1024) :
    att (ix3 n s j) = Spec.merged x hm W b n s j := by
  rw [h_att, block_eq x hm W b mk qkv3 h_mk hq]
  have e1 : head (jp j) (jhh j) = (⟨j.val / 64, by omega⟩ : Fin 16) :=
    Fin.ext (by show 2 * (j.val / 128) + j.val % 128 / 64 = j.val / 64; omega)
  have e2 : qrow (sq s) (sr s) = s := Fin.ext (by show 512 * (s.val / 512) + s.val % 512 = s.val; omega)
  rw [e1, e2]
  rfl

/-- The kernel side — the gathers, the first call, the attention call tile by tile, the last call, the reshapes between
    them — computes the specification's function of the six argument arrays. -/
theorem bridge
    (a0 : Spec.Arr2 4096 1024) (h_a0 : ∀ (r : Fin 4096) (d : Fin 1024), a0 (ix2 r d) = x (ix3 (rowN r) (rowS r) d))
    (w0 : Spec.Arr2 3072 1024) (h_w0 : ∀ (e : Fin 3072) (k : Fin 1024), w0 (ix2 e k) = W (ix2 (σ e) k))
    (b0 : Spec.Arr2 1 3072) (h_b0 : ∀ e : Fin 3072, b0 (ix2 0 e) = b (ix1 (σ e)))
    (qkv2 : Spec.Arr2 4096 3072)
    (h_qkv2 : qkv2 = fun i => (∑ d : Fin 1024, a0 (ix2 (i 0) d) * w0 (ix2 (i 1) d)) + b0 (ix2 0 (i 1)))
    (qkv3 : Spec.Arr3 2 2048 3072) (h_qkv3 : ∀ (n : Fin 2) (s : Fin 2048) (e : Fin 3072), qkv3 (ix3 n s e) = qkv2 (ix2 (row n s) e))
    (mk : Spec.Arr2 1 1024) (h_mk : ∀ j : Fin 1024, mk (ix2 0 j) = hm (ix1 ⟨j.val / 64, by omega⟩))
    (att : Spec.Arr3 2 2048 1024)
    (h_att : ∀ (n : Fin 2) (s : Fin 2048) (j : Fin 1024), att (ix3 n s j)
      = Pay.bOut (mkBlock mk (jp j)) (qBlock qkv3 n (sq s) (jp j)) (kvBlock qkv3 1 n (jp j)) (kvBlock qkv3 2 n (jp j))
          (jhh j) (sr s) (jd j))
    (att2 : Spec.Arr2 4096 1024) (h_att2 : ∀ (r : Fin 4096) (j : Fin 1024), att2 (ix2 r j) = att (ix3 (rowN r) (rowS r) j))
    (bf2 : Spec.Arr2 1 1024) (h_bf2 : ∀ e : Fin 1024, bf2 (ix2 0 e) = bf (ix1 e))
    (out2 : Spec.Arr2 4096 1024)
    (h_out2 : out2 = fun i => (∑ j : Fin 1024, att2 (ix2 (i 0) j) * Wf (ix2 (i 1) j)) + bf2 (ix2 0 (i 1)))
    (out3 : Spec.Arr3 2 2048 1024) (h_out3 : ∀ (n : Fin 2) (s : Fin 2048) (e : Fin 1024), out3 (ix3 n s e) = out2 (ix2 (row n s) e)) :
    out3 = Spec.result x hm W b Wf bf :=
  out3_eq x hm W b Wf bf att
    (att_eq_merged x hm W b mk h_mk qkv3 (qkv3_eq x W b a0 h_a0 w0 h_w0 b0 h_b0 qkv2 h_qkv2 qkv3 h_qkv3) att h_att)
    att2 h_att2 bf2 h_bf2 out2 h_out2 out3 h_out3

end Cert.Hand.Bridge

end
-- ==== Proof.Hand.Final1.lean ====
/-
  From blocks to the array, for the attention call. The grid is (batch entry, pair of heads, query tile); at a point the
  output window's block is 512 positions × 128 columns of the output array, and the body's one store there is the
  block attention of the point's query tile, key and value blocks and mask block. The output blocks tile the array, so
  the array ends holding, index by index, the block attention of the blocks that index selects.
-/
import proofs.«144100_j59261958750606_2_alg».proof.Proof.Hand.Region1
import proofs.«144100_j59261958750606_2_alg».proof.Proof.Hand.PayAttnDefs
import proofs.«144100_j59261958750606_2_alg».proof.Proof.Hand.PayAttn
import proofs.«144100_j59261958750606_2_alg».proof.Proof.Hand.BridgeBlock
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Cert.Hand Cert.Hand.Pay

variable (V : (c : Dev nD) → (b : Ref sig .tc) → Buf (Elt Ideal) ((c : Thread nD τ).loc b))
variable (qs : Fin cfg1.W → PosShare TreeShare)

/-- The head mask repeated along the channels, and the joint projection, as the attention call finds them. -/
abbrev mkArr (c : Dev nD) : Spec.Arr2 1 1024 := V c main_v8
abbrev qkvArr (c : Dev nD) : Spec.Arr3 2 2048 3072 := V c main_v5

/-- The mask block of the pair of heads `p`: lanes `128·p … 128·p + 127` of the mask row. -/
def mkOf (c : Dev nD) (p : Fin 8) : Vec Ideal S1x128 .f32 := Bridge.mkBlock (mkArr V c) p
/-- The query block of batch entry `n`, query tile `qi`, pair `p`. -/
def qbOf (c : Dev nD) (n : Fin 2) (qi : Fin 4) (p : Fin 8) : Vec Ideal S1x512x128 .bf16 := Bridge.qBlock (qkvArr V c) n qi p
/-- The key block of batch entry `n`, pair `p`: all positions, columns `1024 + 128·p …`. -/
def kbOf (c : Dev nD) (n : Fin 2) (p : Fin 8) : Vec Ideal S1x2048x128 .bf16 := Bridge.kvBlock (qkvArr V c) 1 n p
/-- The value block of batch entry `n`, pair `p`: all positions, columns `2048 + 128·p …`. -/
def vbOf (c : Dev nD) (n : Fin 2) (p : Fin 8) : Vec Ideal S1x2048x128 .bf16 := Bridge.kvBlock (qkvArr V c) 2 n p

/-- The attention of one grid block at row `q`, head `hh` of the pair, channel `d`, over the blocks of batch entry `n`,
    query tile `qi`, pair `p`. -/
def gOut (c : Dev nD) (n : Fin 2) (qi : Fin 4) (q : Fin 512) (p : Fin 8) (hh : Fin 2) (d : Fin 64) : EReal :=
  bOut (mkOf V c p) (qbOf V c n qi p) (kbOf V c n p) (vbOf V c n p) hh q d

theorem gOut_congr (c : Dev nD) {n n' : Fin 2} {qi qi' : Fin 4} {q q' : Fin 512} {p p' : Fin 8} {hh hh' : Fin 2} {d d' : Fin 64}
    (h1 : n.val = n'.val) (h2 : qi.val = qi'.val) (h3 : q.val = q'.val) (h4 : p.val = p'.val) (h5 : hh.val = hh'.val) (h6 : d.val = d'.val) :
    gOut V c n qi q p hh d = gOut V c n' qi' q' p' hh' d' := by
  obtain rfl := Fin.ext h1; obtain rfl := Fin.ext h2; obtain rfl := Fin.ext h3
  obtain rfl := Fin.ext h4; obtain rfl := Fin.ext h5; obtain rfl := Fin.ext h6; rfl

/-- What the attention call leaves in its output array, index by index: position `s` of batch `n`, column `j` is row
    `s % 512` of tile `s / 512`, head `j % 128 / 64` of pair `j / 128`, channel `j % 64`. -/
def G1 (c : Dev nD) : S2x2048x1024.Idx → EReal := fun i =>
  gOut V c ⟨(i 0).val, (i 0).isLt⟩ ⟨(i 1).val / 512, by have h : (i 1).val < 2048 := (i 1).isLt; omega⟩
    ⟨(i 1).val % 512, by omega⟩ ⟨(i 2).val / 128, by have h : (i 2).val < 1024 := (i 2).isLt; omega⟩
    ⟨(i 2).val % 128 / 64, by omega⟩ ⟨(i 2).val % 64, by omega⟩

/-- The printed index maps, decided over the 64 grid points: the query block moves with the output block, the key and
    value blocks are the whole positions at column blocks 8 and 16 further, the mask block is the pair's. -/
theorem idx_facts1 : ∀ t : Fin cfg1.N,
    win1_0.index t (0 : Fin 3) = win1_4.index t (0 : Fin 3) ∧ win1_0.index t (1 : Fin 3) = win1_4.index t (1 : Fin 3)
    ∧ win1_0.index t (2 : Fin 3) = win1_4.index t (2 : Fin 3)
    ∧ win1_1.index t (0 : Fin 3) = win1_4.index t (0 : Fin 3) ∧ win1_1.index t (1 : Fin 3) = 0
    ∧ win1_1.index t (2 : Fin 3) = 8 + win1_4.index t (2 : Fin 3)
    ∧ win1_2.index t (0 : Fin 3) = win1_4.index t (0 : Fin 3) ∧ win1_2.index t (1 : Fin 3) = 0
    ∧ win1_2.index t (2 : Fin 3) = 16 + win1_4.index t (2 : Fin 3)
    ∧ win1_3.index t (0 : Fin 2) = 0 ∧ win1_3.index t (1 : Fin 2) = win1_4.index t (2 : Fin 3)
    ∧ win1_4.index t (0 : Fin 3) ≤ 1 ∧ win1_4.index t (1 : Fin 3) ≤ 3 ∧ win1_4.index t (2 : Fin 3) ≤ 7 :=
  (by decide +kernel : ∀ t : Fin grid1.N, _)

/-- Every block of the output array is some point's. -/
theorem idx_onto1 : ∀ (q0 : Fin 2) (q1 : Fin 4) (q2 : Fin 8), ∃ t : Fin cfg1.N, win1_4.index t = ![q0.val, q1.val, q2.val] :=
  (by decide +kernel : ∀ (q0 : Fin 2) (q1 : Fin 4) (q2 : Fin 8), ∃ t : Fin grid1.N, win1_4.index t = ![q0.val, q1.val, q2.val])

/-- An index of the array is in point `t`'s block iff each coordinate is in the block's range on its axis. -/
theorem mem_blk1 (t : Fin cfg1.N) (i : S2x2048x1024.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v9).slice (win1_4.rect t)).set ↔ _
  rw [View.set_slice_whole, Rect.mem_set_unit]
  exact Iff.rfl

/-- The output blocks tile the array: index `(n, s, j)` is in the block of the point with block index `(n, s / 512, j / 128)`. -/
theorem cover1 (i : S2x2048x1024.Idx) : ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 1024 := (i 2).isLt
  obtain ⟨t, ht⟩ := idx_onto1 ⟨(i 0).val, hi0⟩ ⟨(i 1).val / 512, by omega⟩ ⟨(i 2).val / 128, by omega⟩
  have q0 : win1_4.index t (0 : Fin 3) = (i 0).val := congrFun ht 0
  have q1 : win1_4.index t (1 : Fin 3) = (i 1).val / 512 := congrFun ht 1
  have q2 : win1_4.index t (2 : Fin 3) = (i 2).val / 128 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

theorem hz1_3 : (![0, 0, 0] : Fin 3 → Nat) = fun _ => 0 := funext fun a => by fin_cases a <;> rfl
theorem hz1_2 : (![0, 0] : Fin 2 → Nat) = fun _ => 0 := funext fun a => by fin_cases a <;> rfl

theorem idx4_0_le (t : Fin cfg1.N) : win1_4.index t (0 : Fin 3) ≤ 1 := (idx_facts1 t).2.2.2.2.2.2.2.2.2.2.2.1
theorem idx4_1_le (t : Fin cfg1.N) : win1_4.index t (1 : Fin 3) ≤ 3 := (idx_facts1 t).2.2.2.2.2.2.2.2.2.2.2.2.1
theorem idx4_2_le (t : Fin cfg1.N) : win1_4.index t (2 : Fin 3) ≤ 7 := (idx_facts1 t).2.2.2.2.2.2.2.2.2.2.2.2.2

/-- The grid point's batch entry, query tile and pair of heads, read off the output window's block index. -/
def ptN (t : Fin cfg1.N) : Fin 2 := ⟨win1_4.index t (0 : Fin 3), by have := idx4_0_le t; omega⟩
def ptQ (t : Fin cfg1.N) : Fin 4 := ⟨win1_4.index t (1 : Fin 3), by have := idx4_1_le t; omega⟩
def ptP (t : Fin cfg1.N) : Fin 8 := ⟨win1_4.index t (2 : Fin 3), by have := idx4_2_le t; omega⟩

/-- The body's one store, entry by entry: the block attention of the four loaded blocks. -/
theorem out1_4_apply
    (x0 : Vec Ideal S1x512x128 .bf16) (x1 x2 : Vec Ideal S1x2048x128 .bf16) (x3 : Vec Ideal S1x128 .f32) (q : Fin 512) (j : Fin 128) :
    out1_4 (F := Ideal) x0 x1 x2 x3 (ix3 0 q j) = bOut x3 x0 x1 x2 ⟨j.val / 64, by omega⟩ q ⟨j.val % 64, by omega⟩ := by
  unfold out1_4
  rw [View.canon_unit_zero hz1_3]
  simp only [View.ld_unit_zero (S := S1x512x128) hz1_3, View.ld_unit_zero (S := S1x2048x128) hz1_3, View.ld_unit_zero (S := S1x128) hz1_2]
  exact attn_apply x3 x0 x1 x2 q j

/-- Each input window's block at point `t` is the block of its array at the point's batch entry, tile and pair: a block's
    coordinate is the block index times the block size plus the coordinate inside the block. -/
theorem iblk1_3_eq (c : Dev nD) (t : Fin cfg1.N) : iblk1 V c 3 t = mkOf V c (ptP t) := by
  obtain ⟨e00, e01, e02, e10, e11, e12, e20, e21, e22, e30, e31, b0, b1, b2⟩ := idx_facts1 t
  funext y
  show (V c main_v8 : S1x1024.Idx → EReal) (((cfg1.win 3).blk t).view.emb y)
    = (V c main_v8 : S1x1024.Idx → EReal) (ix2 0 ⟨128 * win1_4.index t (2 : Fin 3) + (y 1).val, _⟩)
  refine congrArg _ ?_
  funext a; apply Fin.ext
  match a with
  | ⟨0, _⟩ => show win1_3.index t (0 : Fin 2) * 1 + 1 * (y 0).val = 0; have hy : (y 0).val < 1 := (y 0).isLt; omega
  | ⟨1, _⟩ => show win1_3.index t (1 : Fin 2) * 128 + 1 * (y 1).val = 128 * win1_4.index t (2 : Fin 3) + (y 1).val; omega

theorem iblk1_0_eq (c : Dev nD) (t : Fin cfg1.N) : iblk1 V c 0 t = qbOf V c (ptN t) (ptQ t) (ptP t) := by
  obtain ⟨e00, e01, e02, e10, e11, e12, e20, e21, e22, e30, e31, b0, b1, b2⟩ := idx_facts1 t
  funext y
  show (V c main_v5 : S2x2048x3072.Idx → EReal) (((cfg1.win 0).blk t).view.emb y)
    = (V c main_v5 : S2x2048x3072.Idx → EReal) (ix3 (ptN t) ⟨512 * win1_4.index t (1 : Fin 3) + (y 1).val, _⟩ ⟨128 * win1_4.index t (2 : Fin 3) + (y 2).val, _⟩)
  refine congrArg _ ?_
  funext a; apply Fin.ext
  match a with
  | ⟨0, _⟩ => show win1_0.index t (0 : Fin 3) * 1 + 1 * (y 0).val = win1_4.index t (0 : Fin 3); have hy : (y 0).val < 1 := (y 0).isLt; omega
  | ⟨1, _⟩ => show win1_0.index t (1 : Fin 3) * 512 + 1 * (y 1).val = 512 * win1_4.index t (1 : Fin 3) + (y 1).val; omega
  | ⟨2, _⟩ => show win1_0.index t (2 : Fin 3) * 128 + 1 * (y 2).val = 128 * win1_4.index t (2 : Fin 3) + (y 2).val; omega

theorem iblk1_1_eq (c : Dev nD) (t : Fin cfg1.N) : iblk1 V c 1 t = kbOf V c (ptN t) (ptP t) := by
  obtain ⟨e00, e01, e02, e10, e11, e12, e20, e21, e22, e30, e31, b0, b1, b2⟩ := idx_facts1 t
  funext y
  show (V c main_v5 : S2x2048x3072.Idx → EReal) (((cfg1.win 1).blk t).view.emb y)
    = (V c main_v5 : S2x2048x3072.Idx → EReal) (ix3 (ptN t) ⟨(y 1).val, _⟩ ⟨1024 * 1 + 128 * win1_4.index t (2 : Fin 3) + (y 2).val, _⟩)
  refine congrArg _ ?_
  funext a; apply Fin.ext
  match a with
  | ⟨0, _⟩ => show win1_1.index t (0 : Fin 3) * 1 + 1 * (y 0).val = win1_4.index t (0 : Fin 3); have hy : (y 0).val < 1 := (y 0).isLt; omega
  | ⟨1, _⟩ => show win1_1.index t (1 : Fin 3) * 2048 + 1 * (y 1).val = (y 1).val; omega
  | ⟨2, _⟩ => show win1_1.index t (2 : Fin 3) * 128 + 1 * (y 2).val = 1024 * 1 + 128 * win1_4.index t (2 : Fin 3) + (y 2).val; omega

theorem iblk1_2_eq (c : Dev nD) (t : Fin cfg1.N) : iblk1 V c 2 t = vbOf V c (ptN t) (ptP t) := by
  obtain ⟨e00, e01, e02, e10, e11, e12, e20, e21, e22, e30, e31, b0, b1, b2⟩ := idx_facts1 t
  funext y
  show (V c main_v5 : S2x2048x3072.Idx → EReal) (((cfg1.win 2).blk t).view.emb y)
    = (V c main_v5 : S2x2048x3072.Idx → EReal) (ix3 (ptN t) ⟨(y 1).val, _⟩ ⟨1024 * 2 + 128 * win1_4.index t (2 : Fin 3) + (y 2).val, _⟩)
  refine congrArg _ ?_
  funext a; apply Fin.ext
  match a with
  | ⟨0, _⟩ => show win1_2.index t (0 : Fin 3) * 1 + 1 * (y 0).val = win1_4.index t (0 : Fin 3); have hy : (y 0).val < 1 := (y 0).isLt; omega
  | ⟨1, _⟩ => show win1_2.index t (1 : Fin 3) * 2048 + 1 * (y 1).val = (y 1).val; omega
  | ⟨2, _⟩ => show win1_2.index t (2 : Fin 3) * 128 + 1 * (y 2).val = 1024 * 2 + 128 * win1_4.index t (2 : Fin 3) + (y 2).val; omega

/-- What point `t` writes back is block `t` of `G1`. -/
theorem flushed1_4_eq
    (c : Dev nD) (t : Fin cfg1.N) :
    (dat1 (F := Ideal) V qs c).flushed 4 t = ((cfg1.win 4).blk t).view.read (Elt Ideal) (G1 V c) := by
  show (cfg1.win 4).cut (grid1.coords t) ((dat1 V qs c).after 4 t) = _
  rw [after1_4, iblk1_0_eq V c t, iblk1_1_eq V c t, iblk1_2_eq V c t, iblk1_3_eq V c t]
  funext y
  have hy0 : (y 0).val < 1 := (y 0).isLt
  have hy1 : (y 1).val < 512 := (y 1).isLt
  have hy2 : (y 2).val < 128 := (y 2).isLt
  have hy : y = ix3 (0 : Fin 1) ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  show out1_4 (qbOf V c (ptN t) (ptQ t) (ptP t)) (kbOf V c (ptN t) (ptP t)) (vbOf V c (ptN t) (ptP t)) (mkOf V c (ptP t)) y
    = G1 V c (((cfg1.win 4).blk t).view.emb y)
  refine (congrArg (out1_4 (qbOf V c (ptN t) (ptQ t) (ptP t)) (kbOf V c (ptN t) (ptP t)) (vbOf V c (ptN t) (ptP t)) (mkOf V c (ptP t))) hy).trans ?_
  refine (out1_4_apply _ _ _ _ _ _).trans ?_
  show gOut V c (ptN t) (ptQ t) ⟨(y 1).val, hy1⟩ (ptP t) ⟨(y 2).val / 64, _⟩ ⟨(y 2).val % 64, _⟩ = _
  unfold G1
  refine gOut_congr V c ?_ ?_ ?_ ?_ ?_ ?_
  · show win1_4.index t (0 : Fin 3) = win1_4.index t (0 : Fin 3) * 1 + 1 * (y 0).val; omega
  · show win1_4.index t (1 : Fin 3) = (win1_4.index t (1 : Fin 3) * 512 + 1 * (y 1).val) / 512; omega
  · show (y 1).val = (win1_4.index t (1 : Fin 3) * 512 + 1 * (y 1).val) % 512; omega
  · show win1_4.index t (2 : Fin 3) = (win1_4.index t (2 : Fin 3) * 128 + 1 * (y 2).val) / 128; omega
  · show (y 2).val / 64 = (win1_4.index t (2 : Fin 3) * 128 + 1 * (y 2).val) % 128 / 64; omega
  · show (y 2).val % 64 = (win1_4.index t (2 : Fin 3) * 128 + 1 * (y 2).val) % 64; omega

/-- The output array after the call is `G1`: the blocks cover it. -/
theorem arrAt1_4_eq
    (c : Dev nD) : (dat1 (F := Ideal) V qs c).arrAt 4 cfg1.N = G1 V c :=
  (dat1 (F := Ideal) V qs c).arrAt_eq_of_cover 4 (G1 V c) (fun t _ => flushed1_4_eq V qs c t) (cover1)

/-- The output array after the call, entry by entry, as the block attention of the blocks of the mask row and of the
    joint projection. -/
theorem final1
    (c : Dev nD) (n : Fin 2) (s : Fin 2048) (j : Fin 1024) :
    ((dat1 (F := Ideal) V qs c).arrAt 4 cfg1.N : Spec.Arr3 2 2048 1024) (ix3 n s j)
      = Pay.bOut (Bridge.mkBlock (V c main_v8) (Bridge.jp j)) (Bridge.qBlock (V c main_v5) n (Bridge.sq s) (Bridge.jp j))
          (Bridge.kvBlock (V c main_v5) 1 n (Bridge.jp j)) (Bridge.kvBlock (V c main_v5) 2 n (Bridge.jp j))
          (Bridge.jhh j) (Bridge.sr s) (Bridge.jd j) := by
  rw [arrAt1_4_eq V qs c]
  rfl

end Cert.KernelIdeal.Hand

end
-- ==== Proof.Hand.HostReshape.lean ====
/-
  What the three later host stretches of the program leave in the buffers the regions and the result read, index by
  index, as functions of an arbitrary valuation `V` of the buffers before the stretch.

  Every operation here moves data without arithmetic. A reshape keeps the row-major position: `[4096, C]` read as
  `[2, 2048, C]` puts row `2048·n + s` at `(n, s)`, and back; a vector read as one row `[1, C]` keeps its entries.
  The head mask `[16]` is broadcast along a new trailing axis to `[16, 64]` and flattened to `[1024]`: position
  `j` holds the mask of head `j / 64`, each head's mask repeated over its 64 channels.
-/
import proofs.«144100_j59261958750606_2_alg».proof.Proof.Gen.KernelIdeal.Regions
import Idealize.ShloMosaic.Lib.ValueIdx
import Idealize.ShloMosaic.Lib.Pipeline.Value

noncomputable section

namespace Cert.KernelIdeal.Hand.Host

open Cert.KernelIdeal Cert.KernelIdeal.Gen Idealize.ShloMosaic Idealize.ShloMosaic.TcCoe Idealize.ShloMosaic.ValueIdx

variable (V : Valuation τ sig (Elt Ideal))

/-! ## After the first region: the joint projection seen per batch, and the head mask per channel -/

/-- The joint projection `[4096, 3072]` reshaped to `[2, 2048, 3072]`: `(n, s)` is row `2048·n + s`. -/
theorem host1_v5 (n : Fin 2) (s : Fin 2048) (e : Fin 3072) :
    (StableHlo.after (hostOps1 (F := Ideal)) V main_v5 : S2x2048x3072.Idx → EReal) (ix3 n s e)
      = (V main_v4 : S4096x3072.Idx → EReal) (ix2 ⟨2048 * n.val + s.val, by omega⟩ e) := by
  have h : (StableHlo.after (hostOps1 (F := Ideal)) V main_v5 : S2x2048x3072.Idx → EReal)
      = shapeCast S2x2048x3072 (V main_v4 : S4096x3072.Idx → EReal) shapeCasts_S4096x3072_S2x2048x3072 := by
    after_results; rfl
  rw [h]
  refine shapeCast_apply _ _ _ _ ?_
  show (S4096x3072.rowMajor _).val = (S2x2048x3072.rowMajor _).val
  rw [Shape.rowMajor_val_two, Shape.rowMajor_val_three]
  show (2048 * n.val + s.val) * 3072 + e.val = (n.val * 2048 + s.val) * 3072 + e.val
  omega

/-- The head mask broadcast over each head's 64 channels and flattened to one row: column `j` is head `j / 64`'s. -/
theorem host1_v8 (j : Fin 1024) :
    (StableHlo.after (hostOps1 (F := Ideal)) V main_v8 : S1x1024.Idx → EReal) (ix2 0 j)
      = (V main_arg1 : S16.Idx → EReal) (ix1 ⟨j.val / 64, by omega⟩) := by
  have h : (StableHlo.after (hostOps1 (F := Ideal)) V main_v8 : S1x1024.Idx → EReal)
      = shapeCast S1x1024 (shapeCast S1024 (broadcastInDim S16x64 ![0] bcast_S16_S16x64_0 (V main_arg1 : S16.Idx → EReal))
          shapeCasts_S16x64_S1024) shapeCasts_S1024_S1x1024 := by
    after_results; rfl
  rw [h]
  rw [shapeCast_apply (s := S1024) (t := S1x1024) _ _ (ix2 0 j) (ix1 j) (by
    show (S1024.rowMajor _).val = (S1x1024.rowMajor _).val
    rw [Shape.rowMajor_val_one, Shape.rowMajor_val_two]
    show j.val = 0 * 1024 + j.val
    omega)]
  rw [shapeCast_apply (s := S16x64) (t := S1024) _ _ (ix1 j) (ix2 ⟨j.val / 64, by omega⟩ ⟨j.val % 64, by omega⟩) (by
    show (S16x64.rowMajor _).val = (S1024.rowMajor _).val
    rw [Shape.rowMajor_val_one, Shape.rowMajor_val_two]
    show j.val / 64 * 64 + j.val % 64 = j.val
    omega)]
  exact broadcastInDim_apply _ _ _ _ (ix1 ⟨j.val / 64, by omega⟩) (fun a => match a with | ⟨0, _⟩ => rfl)

/-! ## After the attention region: the output projection's bias as a row, the merged heads as `[4096, 1024]` -/

/-- The output bias `[1024]` as one row `[1, 1024]`. -/
theorem host2_v10 (e : Fin 1024) :
    (StableHlo.after (hostOps2 (F := Ideal)) V main_v10 : S1x1024.Idx → EReal) (ix2 0 e)
      = (V main_arg5 : S1024.Idx → EReal) (ix1 e) := by
  have h : (StableHlo.after (hostOps2 (F := Ideal)) V main_v10 : S1x1024.Idx → EReal)
      = shapeCast S1x1024 (V main_arg5 : S1024.Idx → EReal) shapeCasts_S1024_S1x1024 := by
    after_results; rfl
  rw [h]
  refine shapeCast_apply _ _ _ _ ?_
  show (S1024.rowMajor _).val = (S1x1024.rowMajor _).val
  rw [Shape.rowMajor_val_one, Shape.rowMajor_val_two]
  show e.val = 0 * 1024 + e.val
  omega

/-- The attention output `[2, 2048, 1024]` flattened to `[4096, 1024]`: row `r` is `(r / 2048, r mod 2048)`. -/
theorem host2_v11 (r : Fin 4096) (j : Fin 1024) :
    (StableHlo.after (hostOps2 (F := Ideal)) V main_v11 : S4096x1024.Idx → EReal) (ix2 r j)
      = (V main_v9 : S2x2048x1024.Idx → EReal) (ix3 ⟨r.val / 2048, by omega⟩ ⟨r.val % 2048, by omega⟩ j) := by
  have h : (StableHlo.after (hostOps2 (F := Ideal)) V main_v11 : S4096x1024.Idx → EReal)
      = shapeCast S4096x1024 (V main_v9 : S2x2048x1024.Idx → EReal) shapeCasts_S2x2048x1024_S4096x1024 := by
    after_results; rfl
  rw [h]
  refine shapeCast_apply _ _ _ _ ?_
  show (S2x2048x1024.rowMajor _).val = (S4096x1024.rowMajor _).val
  rw [Shape.rowMajor_val_two, Shape.rowMajor_val_three]
  show (r.val / 2048 * 2048 + r.val % 2048) * 1024 + j.val = r.val * 1024 + j.val
  omega

/-! ## After the output projection: the result seen per batch -/

/-- The output projection `[4096, 1024]` reshaped to `[2, 2048, 1024]`: `(n, s)` is row `2048·n + s`. -/
theorem host3_v13 (n : Fin 2) (s : Fin 2048) (e : Fin 1024) :
    (StableHlo.after (hostOps3 (F := Ideal)) V main_v13 : S2x2048x1024.Idx → EReal) (ix3 n s e)
      = (V main_v12 : S4096x1024.Idx → EReal) (ix2 ⟨2048 * n.val + s.val, by omega⟩ e) := by
  have h : (StableHlo.after (hostOps3 (F := Ideal)) V main_v13 : S2x2048x1024.Idx → EReal)
      = shapeCast S2x2048x1024 (V main_v12 : S4096x1024.Idx → EReal) shapeCasts_S4096x1024_S2x2048x1024 := by
    after_results; rfl
  rw [h]
  refine shapeCast_apply _ _ _ _ ?_
  show (S4096x1024.rowMajor _).val = (S2x2048x1024.rowMajor _).val
  rw [Shape.rowMajor_val_two, Shape.rowMajor_val_three]
  show (2048 * n.val + s.val) * 1024 + e.val = (n.val * 2048 + s.val) * 1024 + e.val
  omega

end Cert.KernelIdeal.Hand.Host

end
-- ==== Proof.Hand.HostTable.lean ====
/-
  The literal permutation table of the program, as arithmetic.

  The program gathers the rows of the joint projection's weight (and the entries of its bias) by a table of 3072
  words. Entry `e` of the table is the row `192·((e mod 1024) / 64) + 64·(e / 1024) + e mod 64`: writing
  `e = 1024·t + 64·h + d` (part `t`, head `h`, channel `d`) it is `192·h + 64·t + d`, the column of the joint
  projection that holds part `t` of head `h`. So the gathered projection comes out part-major: all queries, then
  all keys, then all values, each head-major.

  Beside the table's entries, the facts about a word below 3072 that the gather's index arithmetic asks for: it is
  not negative, it lies in `[0, 3071]`, and read as a signed integer it is the number itself.
-/
import proofs.«144100_j59261958750606_2_alg».proof.KernelIdeal
import proofs.«144100_j59261958750606_2_alg».proof.Proof.Hand.Spec

namespace Cert.KernelIdeal.Hand.Host

open Cert.KernelIdeal Idealize.ShloMosaic

/-- The row the table's entry `e` names, as a natural number. -/
def perm (e : Nat) : Nat := 192 * ((e % 1024) / 64) + 64 * (e / 1024) + e % 64

theorem perm_lt (e : Nat) (he : e < 3072) : perm e < 3072 := by
  unfold perm; omega

/-- The permutation on `Fin 3072`: position `e = 1024·t + 64·h + d` goes to column `col t h d`. -/
def σ (e : Fin 3072) : Fin 3072 := ⟨perm e.val, perm_lt e.val e.isLt⟩

theorem σ_eq_col (e : Fin 3072) :
    σ e = Cert.Hand.Spec.col ⟨e.val / 1024, by omega⟩ ⟨(e.val % 1024) / 64, by omega⟩ ⟨e.val % 64, by omega⟩ := by
  refine Fin.ext ?_
  show perm e.val = 192 * ((e.val % 1024) / 64) + 64 * (e.val / 1024) + e.val % 64
  rfl

/-- Every entry of the table is the word of its row: checked entry by entry. -/
theorem lit0_eq : ∀ e : Fin 3072, lit0 e = BitVec.ofNat 32 (perm e.val) := by
  decide +kernel

/-- A word below 3072 is not negative, lies in `[0, 3071]`, and as a signed integer is the number it was made from. -/
theorem word_facts : ∀ n : Fin 3072,
    IntOp.cmpi .slt (BitVec.ofNat 32 n.val) 0#32 = 0#1 ∧ IntOp.cmpi .sge (BitVec.ofNat 32 n.val) 0#32 = 1#1 ∧
    IntOp.cmpi .sle (BitVec.ofNat 32 n.val) 3071#32 = 1#1 ∧ (BitVec.ofNat 32 n.val).toInt.toNat = n.val := by
  decide +kernel

end Cert.KernelIdeal.Hand.Host
-- ==== Proof.Hand.HostGather.lean ====
/-
  `stablehlo.gather` as `jnp.take` along the leading axis lowers it, read at an index.

  `jnp.take(x, idx, axis = 0)` of a matrix `x : [N, M]` at a vector of `R` positions prints as a gather with the
  positions as a column `[R, 1]` (the index vector's axis is axis 1, of size one), the operand's axis 0 collapsed and
  addressed by the start index, its axis 1 kept whole as the result's offset axis (slice sizes `[1, M]`). Result
  element `(e, k)` is therefore `x` at row `idx[e, 0]` — read as a signed integer and clamped into `[0, N − 1]`, as
  StableHLO clamps every start index — and column `k`. The same for a flat array `x : [N]`: result element `e` is
  `x` at `idx[e, 0]`, clamped.
-/
import Idealize.ShloMosaic.Lib.ValueIdx

noncomputable section

namespace Cert.KernelIdeal.Hand.Host

open Idealize.ShloMosaic Idealize.ShloMosaic.ValueIdx

variable {α : Type}

/-- The dimension numbers of a take of rows: operand `[N, M]`, start indices `[R, 1]`, result `[R, M]`. -/
abbrev rowsDims (N M R : Nat)
    (wf : GatherDims.WF ⟨2, ![N, M]⟩ ⟨2, ![R, 1]⟩ ⟨2, ![R, M]⟩ [1] [0] [] [0] [] 1 ![1, M]) :
    GatherDims ⟨2, ![N, M]⟩ ⟨2, ![R, 1]⟩ ⟨2, ![R, M]⟩ where
  offsetDims := [1]
  collapsedSliceDims := [0]
  operandBatchingDims := []
  startIndicesBatchingDims := []
  startIndexMap := [0]
  indexVectorDim := 1
  sliceSizes := ![1, M]
  wf := wf

/-- The take of rows read at `(e, k)`: row `idx[e, 0]` (signed, clamped into `[0, N − 1]`), column `k`. -/
theorem gather_rows_apply {N M R w : Nat} (hN : 0 < N)
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (e : Fin R) (k : Fin M) :
    Host.gather (rowsDims N M R wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowsDims N M R wf).start (ix2 e k) idx 0 + (rowsDims N M R wf).batchCoord (ix2 e k) 0
      + (rowsDims N M R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M R wf).startIndexMap from List.mem_singleton.mpr rfl)]
    have hsi : (rowsDims N M R wf).siIdx (ix2 e k) ⟨List.idxOf (0 : Fin 2) (rowsDims N M R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N M R wf).start (ix2 e k) idx 1 + (rowsDims N M R wf).batchCoord (ix2 e k) 1
      + (rowsDims N M R wf).offCoord (ix2 e k) 1 = k.val
    rw [GatherDims.batchCoord_eq_zero _ _ _ List.not_mem_nil]
    have hs : (rowsDims N M R wf).start (ix2 e k) idx 1 = 0 := by
      unfold GatherDims.start
      rw [dif_neg (show (1 : Fin 2) ∉ (rowsDims N M R wf).startIndexMap from (by decide : (1 : Fin 2) ∉ [(0 : Fin 2)]))]
    rw [hs]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- The dimension numbers of a take of entries: operand `[N]`, start indices `[R, 1]`, result `[R]`. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The take of entries read at `e`: entry `idx[e, 0]` (signed, clamped into `[0, N − 1]`). -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (entriesDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Cert.KernelIdeal.Hand.Host

end
-- ==== Proof.Hand.HostTake.lean ====
/-
  `jnp.take(x, table, axis = 0)` as the program computes it, read at an index.

  Each of the two takes normalises its positions — a negative position counts from the end: `p < 0 ? p + 3072 : p` —,
  lays them out as a column, builds a bounds mask (`0 ≤ p ≤ 3071`, and-reduced along the column's unit axis),
  gathers the rows, and keeps a gathered element where the mask holds, NaN elsewhere. For positions that are the
  words of numbers below 3072 nothing of this bites: no position is negative, the mask is all ones, no start index
  is clamped, and the take is the plain re-indexing `out[e] = x[σ e]`.
-/
import proofs.«144100_j59261958750606_2_alg».proof.Proof.Gen.KernelIdeal
import proofs.«144100_j59261958750606_2_alg».proof.Proof.Hand.HostTable
import proofs.«144100_j59261958750606_2_alg».proof.Proof.Hand.HostGather
import Idealize.ShloMosaic.Lib.Pipeline.Value
import Idealize.ShloMosaic.Lib.IdealHost
import Idealize.ShloMosaic.Lib.ValueLayout

noncomputable section

namespace Cert.KernelIdeal.Hand.Host

open Cert.KernelIdeal Cert.KernelIdeal.Gen Idealize.ShloMosaic Idealize.ShloMosaic.ValueIdx

/-- The positions normalised (a negative one counts from the end) and laid out as a column. -/
def idxCol (c : IVec S3072 32) : IVec S3072x1 32 :=
  broadcastInDim S3072x1 ![0] bcast_S3072_S3072x1_0
    (select (cmpi .slt c (broadcastInDim S3072 ![] bcast_S_S3072 (constantI S_ 32 0#32)))
      (addi c (broadcastInDim S3072 ![] bcast_S_S3072 (constantI S_ 32 3072#32))) c)

/-- The bounds mask of a column of positions: `0 ≤ p` and `p ≤ 3071`, and-reduced along the unit axis. -/
def maskOf (v5 : IVec S3072x1 32) : IVec S3072 1 :=
  Host.reduce IntOp.andi
    (andi (cmpi .sge v5 (broadcastInDim S3072x1 ![] bcast_S_S3072x1 (constantI S_ 32 0#32)))
      (cmpi .sle v5 (broadcastInDim S3072x1 ![0, 1] bcast_S1x1_S3072x1_0_1
        (broadcastInDim S1x1 ![1] bcast_S1_S1x1_1 (constantI S1 32 3071#32)))))
    (constantI S_ 1 1#1) reducesTo_S3072x1_S3072_d1 h_S_

/-- A position that is the word of a number below 3072 is not negative: normalising leaves it as it is. -/
theorem idxCol_apply (c : IVec S3072 32) (e : Fin 3072) (n : Nat) (hn : n < 3072)
    (hc : c (ix1 e) = BitVec.ofNat 32 n) : idxCol c (ix2 e 0) = BitVec.ofNat 32 n := by
  unfold idxCol
  rw [broadcastInDim_apply _ _ _ (ix2 e 0) (ix1 e) (fun a => match a with | ⟨0, _⟩ => rfl)]
  show Scalar.select (IntOp.cmpi .slt (c (ix1 e)) 0#32) (IntOp.addi (c (ix1 e)) 3072#32) (c (ix1 e)) = _
  rw [hc, (word_facts ⟨n, hn⟩).1, select_zero]

/-- An and-fold of ones from one is one. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    have h1 : IntOp.andi 1#1 1#1 = 1#1 := by decide
    rw [h1]; exact ih

/-- Over a column whose every position is the word of a number below 3072 the bounds mask is all ones. -/
theorem maskOf_apply (v5 : IVec S3072x1 32)
    (h5 : ∀ e : Fin 3072, ∃ n, n < 3072 ∧ v5 (ix2 e 0) = BitVec.ofNat 32 n) (e : Fin 3072) :
    maskOf v5 (ix1 e) = 1#1 := by
  unfold maskOf
  rw [Host.reduce_eq_foldl]
  refine foldl_andi_one _ (fun i => ?_) _
  have hi : i = ix2 (n0 := 3072) (n1 := 1) ⟨(i 0).val, idx2_lt0 i⟩ 0 := by
    funext a
    match a with
    | ⟨0, _⟩ => rfl
    | ⟨1, _⟩ => exact Fin.ext (by have := idx2_lt1 i; show (i 1).val = 0; omega)
  obtain ⟨n, hn, h⟩ := h5 ⟨(i 0).val, idx2_lt0 i⟩
  rw [hi]
  show IntOp.andi (IntOp.cmpi .sge (v5 (ix2 ⟨(i 0).val, idx2_lt0 i⟩ 0)) 0#32)
    (IntOp.cmpi .sle (v5 (ix2 ⟨(i 0).val, idx2_lt0 i⟩ 0)) 3071#32) = 1#1
  rw [h, (word_facts ⟨n, hn⟩).2.1, (word_facts ⟨n, hn⟩).2.2.1]
  decide

/-- THE TAKE OF ROWS at `(e, k)`: over the permutation table it is row `σ e`, column `k`. -/
theorem take_rows_apply (c : IVec S3072 32) (hc : ∀ e : Fin 3072, c (ix1 e) = BitVec.ofNat 32 (perm e.val))
    (x : S3072x1024.Idx → EReal) (e : Fin 3072) (k : Fin 1024) :
    select (broadcastInDim S3072x1024 ![0] bcast_S3072_S3072x1024_0 (maskOf (idxCol c)))
        (Host.gather gather_S3072x1024_S3072x1_S3072x1024_1_0_n_n_0_1_11024 x (idxCol c))
        (broadcastInDim S3072x1024 ![] bcast_S_S3072x1024 (constant (F := Ideal) S_ .f32 0x7FC00000#32)) (ix2 e k)
      = x (ix2 (σ e) k) := by
  have h5 : ∀ e : Fin 3072, idxCol c (ix2 e 0) = BitVec.ofNat 32 (perm e.val) :=
    fun e => idxCol_apply c e _ (perm_lt _ e.isLt) (hc e)
  rw [select_apply, broadcastInDim_apply _ _ _ (ix2 e k) (ix1 e) (fun a => match a with | ⟨0, _⟩ => rfl),
    maskOf_apply _ (fun e => ⟨_, perm_lt _ e.isLt, h5 e⟩) e, select_one]
  show Host.gather (rowsDims 3072 1024 3072 gather_S3072x1024_S3072x1_S3072x1024_1_0_n_n_0_1_11024_wf) x (idxCol c) (ix2 e k) = _
  rw [gather_rows_apply (by decide)]
  refine congrArg x (congrArg (fun r => ix2 r k) (Fin.ext ?_))
  show min (idxCol c (ix2 e 0)).toInt.toNat (3072 - 1) = perm e.val
  rw [h5 e, (word_facts ⟨perm e.val, perm_lt _ e.isLt⟩).2.2.2]
  show min (perm e.val) (3072 - 1) = perm e.val
  have := perm_lt e.val e.isLt
  omega

/-- THE TAKE OF ENTRIES at `e`: over the permutation table it is entry `σ e`. -/
theorem take_entries_apply (c : IVec S3072 32) (hc : ∀ e : Fin 3072, c (ix1 e) = BitVec.ofNat 32 (perm e.val))
    (x : S3072.Idx → EReal) (e : Fin 3072) :
    select (maskOf (idxCol c))
        (Host.gather gather_S3072_S3072x1_S3072_n_0_n_n_0_1_1 x (idxCol c))
        (broadcastInDim S3072 ![] bcast_S_S3072 (constant (F := Ideal) S_ .f32 0x7FC00000#32)) (ix1 e)
      = x (ix1 (σ e)) := by
  have h5 : ∀ e : Fin 3072, idxCol c (ix2 e 0) = BitVec.ofNat 32 (perm e.val) :=
    fun e => idxCol_apply c e _ (perm_lt _ e.isLt) (hc e)
  rw [select_apply, maskOf_apply _ (fun e => ⟨_, perm_lt _ e.isLt, h5 e⟩) e, select_one]
  show Host.gather (entriesDims 3072 3072 gather_S3072_S3072x1_S3072_n_0_n_n_0_1_1_wf) x (idxCol c) (ix1 e) = _
  rw [gather_entries_apply (by decide)]
  refine congrArg x (congrArg (fun r => ix1 r) (Fin.ext ?_))
  show min (idxCol c (ix2 e 0)).toInt.toNat (3072 - 1) = perm e.val
  rw [h5 e, (word_facts ⟨perm e.val, perm_lt _ e.isLt⟩).2.2.2]
  show min (perm e.val) (3072 - 1) = perm e.val
  have := perm_lt e.val e.isLt
  omega

end Cert.KernelIdeal.Hand.Host

end
-- ==== Proof.Hand.HostProj.lean ====
/-
  What the opening host stretches of the program leave in the buffers the first region reads, index by index, as
  functions of an arbitrary valuation `V` of the buffers at launch.

  The program first writes its literal permutation table, then takes the rows of the joint projection's weight and
  the entries of its bias through the table (`jnp.take` twice), and flattens the input `[2, 2048, 1024]` to
  `[4096, 1024]` and the gathered bias to one row. Read at an index: the gathered weight's row `e` is the weight's
  row `σ e`, the gathered bias's entry `e` is the bias's entry `σ e`, and row `r` of the flattened input is
  position `r mod 2048` of batch `r / 2048`. No stretch writes an argument.
-/
import proofs.«144100_j59261958750606_2_alg».proof.Proof.Gen.KernelIdeal.Regions
import proofs.«144100_j59261958750606_2_alg».proof.Proof.Hand.HostTake

noncomputable section

namespace Cert.KernelIdeal.Hand.Host

open Cert.KernelIdeal Cert.KernelIdeal.Gen Idealize.ShloMosaic Idealize.ShloMosaic.TcCoe Idealize.ShloMosaic.ValueIdx

variable (V : Valuation τ sig (Elt Ideal))

/-! ## The stretches one by one, from an arbitrary valuation -/

/-- After the first stretch the table's buffer holds, at `e`, the word of `perm e`. -/
theorem host0_c (e : Fin 3072) :
    (StableHlo.after (hostOps0 (F := Ideal)) V main_c : IVec S3072 32) (ix1 e) = BitVec.ofNat 32 (perm e.val) := by
  have h : (StableHlo.after (hostOps0 (F := Ideal)) V main_c : IVec S3072 32) = fun i => lit0 (S3072.rowMajor i) := by
    after_results; rfl
  rw [h]
  show lit0 (S3072.rowMajor (ix1 e)) = _
  have hr : S3072.rowMajor (ix1 e) = e := Fin.ext (by rw [Shape.rowMajor_val_one])
  rw [hr]
  exact lit0_eq e

set_option maxHeartbeats 2000000 in
/-- The take of the weight's rows: over a table buffer holding the permutation, row `e` is the weight's row `σ e`. -/
theorem host01_v0 (hc : ∀ e : Fin 3072, (V main_c : IVec S3072 32) (ix1 e) = BitVec.ofNat 32 (perm e.val))
    (e : Fin 3072) (k : Fin 1024) :
    (StableHlo.after (hostOps0_1 (F := Ideal)) V main_v0 : S3072x1024.Idx → EReal) (ix2 e k)
      = (V main_arg2 : S3072x1024.Idx → EReal) (ix2 (σ e) k) := by
  have h : (StableHlo.after (hostOps0_1 (F := Ideal)) V main_v0 : S3072x1024.Idx → EReal)
      = select (broadcastInDim S3072x1024 ![0] bcast_S3072_S3072x1024_0 (maskOf (idxCol (V main_c : IVec S3072 32))))
          (Host.gather gather_S3072x1024_S3072x1_S3072x1024_1_0_n_n_0_1_11024 (V main_arg2 : S3072x1024.Idx → EReal)
            (idxCol (V main_c : IVec S3072 32)))
          (broadcastInDim S3072x1024 ![] bcast_S_S3072x1024 (constant (F := Ideal) S_ .f32 0x7FC00000#32)) := by
    after_results_simp; rfl
  rw [h]
  exact take_rows_apply _ hc _ e k

set_option maxHeartbeats 2000000 in
/-- The take of the bias's entries: over a table buffer holding the permutation, entry `e` is the bias's entry `σ e`. -/
theorem host02_v1 (hc : ∀ e : Fin 3072, (V main_c : IVec S3072 32) (ix1 e) = BitVec.ofNat 32 (perm e.val))
    (e : Fin 3072) :
    (StableHlo.after (hostOps0_2 (F := Ideal)) V main_v1 : S3072.Idx → EReal) (ix1 e)
      = (V main_arg3 : S3072.Idx → EReal) (ix1 (σ e)) := by
  have h : (StableHlo.after (hostOps0_2 (F := Ideal)) V main_v1 : S3072.Idx → EReal)
      = select (maskOf (idxCol (V main_c : IVec S3072 32)))
          (Host.gather gather_S3072_S3072x1_S3072_n_0_n_n_0_1_1 (V main_arg3 : S3072.Idx → EReal)
            (idxCol (V main_c : IVec S3072 32)))
          (broadcastInDim S3072 ![] bcast_S_S3072 (constant (F := Ideal) S_ .f32 0x7FC00000#32)) := by
    after_results_simp; rfl
  rw [h]
  exact take_entries_apply _ hc _ e

/-- The input flattened: row `r` of `[4096, 1024]` is position `r mod 2048` of batch `r / 2048`. -/
theorem host03_v2 (r : Fin 4096) (d : Fin 1024) :
    (StableHlo.after (hostOps0_3 (F := Ideal)) V main_v2 : S4096x1024.Idx → EReal) (ix2 r d)
      = (V main_arg0 : S2x2048x1024.Idx → EReal) (ix3 ⟨r.val / 2048, by omega⟩ ⟨r.val % 2048, by omega⟩ d) := by
  have h : (StableHlo.after (hostOps0_3 (F := Ideal)) V main_v2 : S4096x1024.Idx → EReal)
      = shapeCast S4096x1024 (V main_arg0 : S2x2048x1024.Idx → EReal) shapeCasts_S2x2048x1024_S4096x1024 := by
    after_results; rfl
  rw [h]
  refine shapeCast_apply _ _ _ _ ?_
  show (S2x2048x1024.rowMajor _).val = (S4096x1024.rowMajor _).val
  rw [Shape.rowMajor_val_two, Shape.rowMajor_val_three]
  show (r.val / 2048 * 2048 + r.val % 2048) * 1024 + d.val = r.val * 1024 + d.val
  omega

/-- The gathered bias as one row `[1, 3072]`. -/
theorem host03_v3 (e : Fin 3072) :
    (StableHlo.after (hostOps0_3 (F := Ideal)) V main_v3 : S1x3072.Idx → EReal) (ix2 0 e)
      = (V main_v1 : S3072.Idx → EReal) (ix1 e) := by
  have h : (StableHlo.after (hostOps0_3 (F := Ideal)) V main_v3 : S1x3072.Idx → EReal)
      = shapeCast S1x3072 (V main_v1 : S3072.Idx → EReal) shapeCasts_S3072_S1x3072 := by
    after_results; rfl
  rw [h]
  refine shapeCast_apply _ _ _ _ ?_
  show (S3072.rowMajor _).val = (S1x3072.rowMajor _).val
  rw [Shape.rowMajor_val_one, Shape.rowMajor_val_two]
  show e.val = 0 * 3072 + e.val
  omega

/-! ## The four stretches in a row -/

/-- The buffers after the four opening stretches. -/
abbrev W0 : Valuation τ sig (Elt Ideal) :=
  StableHlo.after (hostOps0_3 (F := Ideal)) (StableHlo.after (hostOps0_2 (F := Ideal))
    (StableHlo.after (hostOps0_1 (F := Ideal)) (StableHlo.after (hostOps0 (F := Ideal)) V)))

/-- A buffer none of the four stretches writes — every argument among them — keeps its contents. -/
theorem W0_of (r : Ref sig .tc) (h0 : r ∉ hostOps0_W) (h1 : r ∉ hostOps0_1_W) (h2 : r ∉ hostOps0_2_W)
    (h3 : r ∉ hostOps0_3_W) : W0 V r = V r :=
  (StableHlo.after_of_writes_sub (hostOps0_3 (F := Ideal)) _ hostOps0_3_writes h3).trans <|
  (StableHlo.after_of_writes_sub (hostOps0_2 (F := Ideal)) _ hostOps0_2_writes h2).trans <|
  (StableHlo.after_of_writes_sub (hostOps0_1 (F := Ideal)) _ hostOps0_1_writes h1).trans <|
  StableHlo.after_of_writes_sub (hostOps0 (F := Ideal)) _ hostOps0_writes h0

theorem W0_arg0 : W0 V main_arg0 = V main_arg0 := W0_of V main_arg0 (by decide) (by decide) (by decide) (by decide)
theorem W0_arg1 : W0 V main_arg1 = V main_arg1 := W0_of V main_arg1 (by decide) (by decide) (by decide) (by decide)
theorem W0_arg2 : W0 V main_arg2 = V main_arg2 := W0_of V main_arg2 (by decide) (by decide) (by decide) (by decide)
theorem W0_arg3 : W0 V main_arg3 = V main_arg3 := W0_of V main_arg3 (by decide) (by decide) (by decide) (by decide)
theorem W0_arg4 : W0 V main_arg4 = V main_arg4 := W0_of V main_arg4 (by decide) (by decide) (by decide) (by decide)
theorem W0_arg5 : W0 V main_arg5 = V main_arg5 := W0_of V main_arg5 (by decide) (by decide) (by decide) (by decide)

/-- The first region's weight operand: row `e` is the weight's row `σ e`. -/
theorem W0_v0 (e : Fin 3072) (k : Fin 1024) :
    (W0 V main_v0 : S3072x1024.Idx → EReal) (ix2 e k) = (V main_arg2 : S3072x1024.Idx → EReal) (ix2 (σ e) k) := by
  show (StableHlo.after (hostOps0_3 (F := Ideal)) _ main_v0 : S3072x1024.Idx → EReal) (ix2 e k) = _
  rw [StableHlo.after_of_writes_sub (hostOps0_3 (F := Ideal)) _ hostOps0_3_writes (by decide : main_v0 ∉ hostOps0_3_W),
    StableHlo.after_of_writes_sub (hostOps0_2 (F := Ideal)) _ hostOps0_2_writes (by decide : main_v0 ∉ hostOps0_2_W),
    host01_v0 _ (host0_c V) e k,
    StableHlo.after_of_writes_sub (hostOps0 (F := Ideal)) _ hostOps0_writes (by decide : main_arg2 ∉ hostOps0_W)]

/-- The first region's bias operand, one row: entry `e` is the bias's entry `σ e`. -/
theorem W0_v3 (e : Fin 3072) :
    (W0 V main_v3 : S1x3072.Idx → EReal) (ix2 0 e) = (V main_arg3 : S3072.Idx → EReal) (ix1 (σ e)) := by
  show (StableHlo.after (hostOps0_3 (F := Ideal)) _ main_v3 : S1x3072.Idx → EReal) (ix2 0 e) = _
  rw [host03_v3,
    host02_v1 _ (fun e => by
      rw [StableHlo.after_of_writes_sub (hostOps0_1 (F := Ideal)) _ hostOps0_1_writes (by decide : main_c ∉ hostOps0_1_W)]
      exact host0_c V e) e,
    StableHlo.after_of_writes_sub (hostOps0_1 (F := Ideal)) _ hostOps0_1_writes (by decide : main_arg3 ∉ hostOps0_1_W),
    StableHlo.after_of_writes_sub (hostOps0 (F := Ideal)) _ hostOps0_writes (by decide : main_arg3 ∉ hostOps0_W)]

/-- The first region's input operand: row `r` is position `r mod 2048` of batch `r / 2048` of the input. -/
theorem W0_v2 (r : Fin 4096) (d : Fin 1024) :
    (W0 V main_v2 : S4096x1024.Idx → EReal) (ix2 r d)
      = (V main_arg0 : S2x2048x1024.Idx → EReal) (ix3 ⟨r.val / 2048, by omega⟩ ⟨r.val % 2048, by omega⟩ d) := by
  show (StableHlo.after (hostOps0_3 (F := Ideal)) _ main_v2 : S4096x1024.Idx → EReal) (ix2 r d) = _
  rw [host03_v2,
    StableHlo.after_of_writes_sub (hostOps0_2 (F := Ideal)) _ hostOps0_2_writes (by decide : main_arg0 ∉ hostOps0_2_W),
    StableHlo.after_of_writes_sub (hostOps0_1 (F := Ideal)) _ hostOps0_1_writes (by decide : main_arg0 ∉ hostOps0_1_W),
    StableHlo.after_of_writes_sub (hostOps0 (F := Ideal)) _ hostOps0_writes (by decide : main_arg0 ∉ hostOps0_W)]

end Cert.KernelIdeal.Hand.Host

end
-- ==== Proof.Hand.KHost.lean ====
/-
  The host stretches between the calls, read where the calls and the result read them.

  Between two items a core's buffers hold the launch contents folded through the items so far. Each buffer a call is
  entered with, and the result buffer, is written by exactly one host operation, and that operation only moves data:
  * the first call's input is the argument x flattened (row r is position r mod 2048 of batch r / 2048), its weight the
    joint weight's rows taken through the permutation table (row e is row σ e), its bias the joint bias's entries taken
    the same way, as one row;
  * the attention call's input is the first call's output seen per batch (row 2048·n + s is (n, s)), its mask row the
    head mask repeated over each head's 64 channels;
  * the last call's input is the attention call's output flattened, its bias the output bias as one row, its weight
    the argument Wf itself;
  * the result is the last call's output seen per batch.
  Everything is stated over arbitrary contents left by the calls, so nothing here depends on what a call computes.
-/
import proofs.«144100_j59261958750606_2_alg».proof.Proof.Gen.KernelIdeal.Regions
import proofs.«144100_j59261958750606_2_alg».proof.Proof.Hand.HostReshape
import proofs.«144100_j59261958750606_2_alg».proof.Proof.Hand.HostProj
import proofs.«144100_j59261958750606_2_alg».proof.Proof.Hand.BridgeGlue

noncomputable section

namespace Cert.KernelIdeal.Hand

open Cert.KernelIdeal Cert.KernelIdeal.Gen
open Idealize.ShloMosaic Idealize.ShloMosaic.TcCoe Idealize.ShloMosaic.ValueIdx
open Cert.Hand

variable (m : (ℓ : Loc nD τ sig) → Buf (Elt Ideal) ℓ) (outs : Gen.Outs (F := Ideal)) (c : Dev nD)

/-! ## The six arguments and the stages, each at its array type -/

/-- The arguments as core c is launched with them. -/
def argX : Spec.Arr3 2 2048 1024 := m ((c : Thread nD τ).loc main_arg0)
def argHm : Spec.Arr1 16 := m ((c : Thread nD τ).loc main_arg1)
def argW : Spec.Arr2 3072 1024 := m ((c : Thread nD τ).loc main_arg2)
def argB : Spec.Arr1 3072 := m ((c : Thread nD τ).loc main_arg3)
def argWf : Spec.Arr2 1024 1024 := m ((c : Thread nD τ).loc main_arg4)
def argBf : Spec.Arr1 1024 := m ((c : Thread nD τ).loc main_arg5)

/-- What the first call is entered with: the flattened input, the gathered weight, the gathered bias row. -/
def stA0 : Spec.Arr2 4096 1024 := Gen.V4 m c main_v2
def stW0 : Spec.Arr2 3072 1024 := Gen.V4 m c main_v0
def stB0 : Spec.Arr2 1 3072 := Gen.V4 m c main_v3
/-- What the first call leaves. -/
def stQkv2 : Spec.Arr2 4096 3072 := Gen.V5 m outs c main_v4
/-- What the attention call is entered with: the first call's output per batch, the mask row. -/
def stQkv3 : Spec.Arr3 2 2048 3072 := Gen.V6 m outs c main_v5
def stMk : Spec.Arr2 1 1024 := Gen.V6 m outs c main_v8
/-- What the attention call leaves. -/
def stAtt : Spec.Arr3 2 2048 1024 := Gen.V7 m outs c main_v9
/-- What the last call is entered with: the attention output flattened, the output weight, the output bias row. -/
def stAtt2 : Spec.Arr2 4096 1024 := Gen.V8 m outs c main_v11
def stWf2 : Spec.Arr2 1024 1024 := Gen.V8 m outs c main_arg4
def stBf2 : Spec.Arr2 1 1024 := Gen.V8 m outs c main_v10
/-- What the last call leaves, and the result. -/
def stOut2 : Spec.Arr2 4096 1024 := Gen.V9 m outs c main_v12
def stOut3 : Spec.Arr3 2 2048 1024 := Gen.V10 m outs c main_v13

/-! ## Before the first call -/

/-- The permutation the table holds is the part-major order of the specification's columns. -/
theorem sigma_eq (e : Fin 3072) : Host.σ e = Bridge.σ e := Host.σ_eq_col e

/-- The first call's input: row r is position r mod 2048 of batch r / 2048 of x. -/
theorem h_a0 (r : Fin 4096) (d : Fin 1024) : stA0 m c (ix2 r d) = argX m c (ix3 (Bridge.rowN r) (Bridge.rowS r) d) :=
  Host.W0_v2 (Gen.V0 m c) r d

/-- The first call's weight: row e is row σ e of W. -/
theorem h_w0 (e : Fin 3072) (k : Fin 1024) : stW0 m c (ix2 e k) = argW m c (ix2 (Bridge.σ e) k) :=
  (Host.W0_v0 (Gen.V0 m c) e k).trans (congrArg (fun a => argW m c (ix2 a k)) (sigma_eq e))

/-- The first call's bias row: entry e is entry σ e of b. -/
theorem h_b0 (e : Fin 3072) : stB0 m c (ix2 0 e) = argB m c (ix1 (Bridge.σ e)) :=
  (Host.W0_v3 (Gen.V0 m c) e).trans (congrArg (fun a => argB m c (ix1 a)) (sigma_eq e))

/-! ## Between the first call and the attention call -/

/-- The attention call's input: (n, s) is row 2048·n + s of the first call's output. -/
theorem h_qkv3 (n : Fin 2) (s : Fin 2048) (e : Fin 3072) :
    stQkv3 m outs c (ix3 n s e) = stQkv2 m outs c (ix2 (Bridge.row n s) e) :=
  Host.host1_v5 (Gen.V5 m outs c) n s e

/-- No item before the attention call writes the head mask. -/
theorem V5_arg1 : Gen.V5 m outs c main_arg1 = m ((c : Thread nD τ).loc main_arg1) :=
  (Gen.V5_of m outs c main_arg1 (by decide)).trans (Host.W0_arg1 (Gen.V0 m c))

/-- The attention call's mask row: lane j holds the mask of head j / 64. -/
theorem h_mk (j : Fin 1024) : stMk m outs c (ix2 0 j) = argHm m c (ix1 ⟨j.val / 64, by omega⟩) :=
  (Host.host1_v8 (Gen.V5 m outs c) j).trans (congrFun (V5_arg1 m outs c) _)

/-! ## Between the attention call and the last call -/

/-- The last call's input: row r is position r mod 2048 of batch r / 2048 of the attention call's output. -/
theorem h_att2 (r : Fin 4096) (j : Fin 1024) :
    stAtt2 m outs c (ix2 r j) = stAtt m outs c (ix3 (Bridge.rowN r) (Bridge.rowS r) j) :=
  Host.host2_v11 (Gen.V7 m outs c) r j

/-- No item before the last call writes the output bias or the output weight. -/
theorem V7_arg5 : Gen.V7 m outs c main_arg5 = m ((c : Thread nD τ).loc main_arg5) :=
  (Gen.V7_of m outs c main_arg5 (by decide)).trans <| (Gen.V6_of m outs c main_arg5 (by decide)).trans <|
    (Gen.V5_of m outs c main_arg5 (by decide)).trans (Host.W0_arg5 (Gen.V0 m c))
theorem V8_arg4 : Gen.V8 m outs c main_arg4 = m ((c : Thread nD τ).loc main_arg4) :=
  (Gen.V8_of m outs c main_arg4 (by decide)).trans <| (Gen.V7_of m outs c main_arg4 (by decide)).trans <|
    (Gen.V6_of m outs c main_arg4 (by decide)).trans <| (Gen.V5_of m outs c main_arg4 (by decide)).trans (Host.W0_arg4 (Gen.V0 m c))

/-- The last call's bias row is the output bias. -/
theorem h_bf2 (e : Fin 1024) : stBf2 m outs c (ix2 0 e) = argBf m c (ix1 e) :=
  (Host.host2_v10 (Gen.V7 m outs c) e).trans (congrFun (V7_arg5 m outs c) _)

/-- The last call's weight is the argument Wf. -/
theorem h_wf2 : stWf2 m outs c = argWf m c := V8_arg4 m outs c

/-! ## After the last call -/

/-- The result: (n, s) is row 2048·n + s of the last call's output. -/
theorem h_out3 (n : Fin 2) (s : Fin 2048) (e : Fin 1024) :
    stOut3 m outs c (ix3 n s e) = stOut2 m outs c (ix2 (Bridge.row n s) e) :=
  Host.host3_v13 (Gen.V9 m outs c) n s e

end Cert.KernelIdeal.Hand
end
-- ==== Proof.Hand.KValue.lean ====
/-
  The kernel program's result as the specification's function of its six arguments.

  The run leaves every buffer at the last of the contents between items. Read backwards from the result buffer: it is
  the last call's output array seen per batch; that array is the output projection of the arrays the last call is
  entered with; those are the attention call's output flattened, the argument Wf and the output bias as a row; the
  attention call's output is, tile by tile, the attention of the blocks of the arrays it is entered with; those are the
  first call's output seen per batch and the head mask spread over the channels; the first call's output is the joint
  projection of the arrays it is entered with; and those are the flattened input and the gathered weight and bias.
  Each sentence is one equation below; the chain of them is the hypothesis list of the one theorem of mathematics that
  concludes the specification's result.
-/
import proofs.«144100_j59261958750606_2_alg».proof.Proof.Hand.Run
import proofs.«144100_j59261958750606_2_alg».proof.Proof.Hand.Final0
import proofs.«144100_j59261958750606_2_alg».proof.Proof.Hand.Final2
import proofs.«144100_j59261958750606_2_alg».proof.Proof.Hand.Final1
import proofs.«144100_j59261958750606_2_alg».proof.Proof.Hand.KHost
import proofs.«144100_j59261958750606_2_alg».proof.Proof.Hand.BridgeBlock

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Hand

variable (m : (ℓ : Loc nD τ sig) → Buf (Elt Ideal) ℓ) (ρ : Dev nD → PrngReg) (c : Dev nD)

/-! ## The contents a call is entered with, in the two spellings -/

theorem stQkv3_eq : stQkv3 m (outs m) c = Vr6 m c main_v5 := congrFun (V6_outs m c) _
theorem stMk_eq : stMk m (outs m) c = Vr6 m c main_v8 := congrFun (V6_outs m c) _
theorem stAtt2_eq : stAtt2 m (outs m) c = Vr8 m c main_v11 := congrFun (V8_outs m c) _
theorem stWf2_eq : stWf2 m (outs m) c = Vr8 m c main_arg4 := congrFun (V8_outs m c) _
theorem stBf2_eq : stBf2 m (outs m) c = Vr8 m c main_v10 := congrFun (V8_outs m c) _

/-! ## The first and the last call -/

/-- The first call's output is the joint projection of what it is entered with. -/
theorem h_qkv2 : stQkv2 m (outs m) c
    = fun i => (∑ d : Fin 1024, stA0 m c (ix2 (i 0) d) * stW0 m c (ix2 (i 1) d)) + stB0 m c (ix2 0 (i 1)) :=
  (o5_out m c).trans (final0 (Vr4 m) c)

/-- The last call's output is the output projection of what it is entered with, the weight being the argument Wf. -/
theorem h_out2 : stOut2 m (outs m) c
    = fun i => (∑ j : Fin 1024, stAtt2 m (outs m) c (ix2 (i 0) j) * argWf m c (ix2 (i 1) j)) + stBf2 m (outs m) c (ix2 0 (i 1)) := by
  rw [← h_wf2 m (outs m) c, stAtt2_eq, stWf2_eq, stBf2_eq]
  exact (o9_out m c).trans (final2 (Vr8 m) c)

/-! ## The chain -/

/-- The attention call's output array, entry by entry: the attention of the blocks of the arrays the call is entered
    with, for the pair of heads, the query tile and the position in the tile that the entry belongs to. -/
def AttEq : Prop := ∀ (n : Fin 2) (s : Fin 2048) (j : Fin 1024), stAtt m (outs m) c (ix3 n s j)
    = Pay.bOut (Bridge.mkBlock (stMk m (outs m) c) (Bridge.jp j)) (Bridge.qBlock (stQkv3 m (outs m) c) n (Bridge.sq s) (Bridge.jp j))
        (Bridge.kvBlock (stQkv3 m (outs m) c) 1 n (Bridge.jp j)) (Bridge.kvBlock (stQkv3 m (outs m) c) 2 n (Bridge.jp j))
        (Bridge.jhh j) (Bridge.sr s) (Bridge.jd j)

/-- The attention call's output is that, at the contents the call is entered with. -/
theorem h_att : AttEq m c := by
  intro n s j
  rw [stMk_eq, stQkv3_eq]
  exact (congrFun (o7_out m c) (ix3 n s j)).trans (final1 (Vr6 m) qs1 c n s j)

/-- Given the attention call's output, the result buffer ends holding the specification's function of the arguments:
    every stage is what the stage before it and the arguments make it. -/
theorem stOut3_of (h_att : AttEq m c) : stOut3 m (outs m) c
    = Spec.result (argX m c) (argHm m c) (argW m c) (argB m c) (argWf m c) (argBf m c) :=
  Bridge.bridge (argX m c) (argHm m c) (argW m c) (argB m c) (argWf m c) (argBf m c)
    (stA0 m c) (h_a0 m c) (stW0 m c) (h_w0 m c) (stB0 m c) (h_b0 m c)
    (stQkv2 m (outs m) c) (h_qkv2 m c) (stQkv3 m (outs m) c) (h_qkv3 m (outs m) c)
    (stMk m (outs m) c) (h_mk m (outs m) c) (stAtt m (outs m) c) h_att
    (stAtt2 m (outs m) c) (h_att2 m (outs m) c) (stBf2 m (outs m) c) (h_bf2 m (outs m) c)
    (stOut2 m (outs m) c) (h_out2 m c) (stOut3 m (outs m) c) (h_out3 m (outs m) c)

/-- The same with the buffers spelled out. -/
theorem kernel_result_of (h_att : AttEq m c) : Gen.V10 m (outs m) c main_v13
    = Spec.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  stOut3_of m c h_att

/-- The run, read: the result buffer at the specification's function of the arguments, the arguments unchanged. -/
theorem run_value_of (h_att : ∀ c : Dev nD, AttEq m c) :
    θ_run defs (onTc (τ := τ) (main (F := Ideal))) ⟨m, fun _ => 0, ρ⟩ (fun r => ∀ c : Dev nD,
      r.2.mem ((c.tc : Thread nD τ).loc main_v13)
        = Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v13 (by decide))).trans (kernel_result_of m c (h_att c)),
        (h c _ (mem_uc main_arg0 (by decide))).trans (Gen.V10_main_arg0 m (outs m) c),
        (h c _ (mem_uc main_arg1 (by decide))).trans (Gen.V10_main_arg1 m (outs m) c),
        (h c _ (mem_uc main_arg2 (by decide))).trans (Gen.V10_main_arg2 m (outs m) c),
        (h c _ (mem_uc main_arg3 (by decide))).trans (Gen.V10_main_arg3 m (outs m) c),
        (h c _ (mem_uc main_arg4 (by decide))).trans (Gen.V10_main_arg4 m (outs m) c),
        (h c _ (mem_uc main_arg5 (by decide))).trans (Gen.V10_main_arg5 m (outs m) c)⟩)
    (run_all m ρ)

/-- The kernel program's result buffer after the run is the specification's function of the six arguments. -/
theorem kernel_result : Gen.V10 m (outs m) c main_v13
    = Spec.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  kernel_result_of m c (h_att m c)

/-- The run of the kernel program: it terminates without fault, the result buffer ends at the specification's function
    of the arguments, and the arguments end as launched. -/
theorem run_value :
    θ_run defs (onTc (τ := τ) (main (F := Ideal))) ⟨m, fun _ => 0, ρ⟩ (fun r => ∀ c : Dev nD,
      r.2.mem ((c.tc : Thread nD τ).loc main_v13)
        = Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value_of m ρ (h_att m)

end Cert.KernelIdeal.Hand
end
-- ==== Proof.Hand.RefConsts.lean ====
/-
  The float constants the reference program spells, as the extended reals their bit patterns denote at the
  idealized instance. They are unfolded here once so that the value modules read them by name.

  * the word 0x42800000 is 64.0 = 2^6, and its square root is 8;
  * the word 0x3E000000 is 0.125 = 2^(-3) = 1/8;
  so dividing by the square root of the first is multiplying by the second.
-/
import Idealize.ShloMosaic.PureOps.Ideal

noncomputable section

namespace Cert.Hand.Ref

open Idealize.ShloMosaic

/-- The word 0x42800000 denotes the real 64. -/
theorem ofBits_64 : Ideal.ofBits .f32 0x42800000#32 = ((64 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt (Ideal.ofBits .f32 0x42800000#32) = ((8 : ℝ) : EReal) := by
  rw [ofBits_64, Ideal.sqrt_coe, if_neg (by norm_num)]
  refine congrArg _ ?_
  rw [show (64 : ℝ) = 8 ^ 2 by norm_num]
  exact Real.sqrt_sq (by norm_num)

/-- Dividing by the square root of 64 is multiplying by the word 0x3E000000. -/
theorem div_sqrt_64 (x : EReal) :
    Ideal.div x (Ideal.sqrt (Ideal.ofBits .f32 0x42800000#32)) = x * Ideal.ofBits .f32 0x3E000000#32 := by
  rw [sqrt_64, ofBits_eighth]
  exact Ideal.div_coe (by norm_num) x

end Cert.Hand.Ref

end
-- ==== Proof.Hand.RefIndex.lean ====
/-
  Where the reference's layout operations read. Each generated index function, applied to an index given by its
  coordinates, is again an index given by coordinates:

  * the reshape [2,2048,3072] → [2,2048,16,3,64] sends (n, s, h, t, d) to column (h·3 + t)·64 + d = 192·h + 64·t + d
    of row (n, s): heads outermost, then the part (query, key, value), then the channel;
  * the transpose (3,0,2,1,4) sends (t, n, h, s, d) to (n, s, h, t, d);
  * the three slices take part t = 0, 1, 2 and the reshape after them drops the axis of size one;
  * the last transpose (0,2,1,3) and reshape [2,2048,16,64] → [2,2048,1024] read column j of row (n, s) at head j / 64,
    channel j % 64 (head-major merging).
-/
import proofs.«144100_j59261958750606_2_alg».proof.Proof.Gen.ReferenceIdeal.Read
import proofs.«144100_j59261958750606_2_alg».proof.Proof.Hand.Spec

noncomputable section

namespace Cert.Hand.Ref

open Cert.ReferenceIdeal Cert.ReferenceIdeal.Gen Cert.ReferenceIdeal.Read Idealize.ShloMosaic Idealize.ShloMosaic.ValueIdx
open Cert.Hand

/-! ### The joint projection's operands -/

theorem lidx_v0 (n : Fin 2) (s : Fin 2048) (e : Fin 3072) (k : Fin 1024) :
    lidx_main_v0 (ix3 n s e) k = ix3 n s k :=
  funext fun a => match a with | ⟨0, _⟩ => rfl | ⟨1, _⟩ => rfl | ⟨2, _⟩ => rfl

theorem ridx_v0 (n : Fin 2) (s : Fin 2048) (e : Fin 3072) (k : Fin 1024) :
    ridx_main_v0 (ix3 n s e) k = ix2 e k :=
  funext fun a => match a with | ⟨0, _⟩ => rfl | ⟨1, _⟩ => rfl

theorem idx_v2_v1 (n : Fin 2) (s : Fin 2048) (e : Fin 3072) :
    idx_main_v1 (idx_main_v2 (ix3 n s e)) = ix1 e :=
  funext fun a => match a with | ⟨0, _⟩ => rfl

/-! ### Splitting the joint projection into heads and parts -/

/-- Dropping the leading axis of size one. -/
theorem idx_v7 (n : Fin 2) (h : Fin 16) (s : Fin 2048) (d : Fin 64) :
    idx_main_v7 (ix4 n h s d) = ix5 (0 : Fin 1) n h s d :=
  funext fun a => Fin.ext (by
    have := n.isLt; have := h.isLt; have := s.isLt; have := d.isLt
    match a with
    | ⟨0, _⟩ => rfl
    | ⟨1, _⟩ => show (((n.val * 16 + h.val) * 2048 + s.val) * 64 + d.val) / 2097152 % 2 = n.val; omega
    | ⟨2, _⟩ => show (((n.val * 16 + h.val) * 2048 + s.val) * 64 + d.val) / 131072 % 16 = h.val; omega
    | ⟨3, _⟩ => show (((n.val * 16 + h.val) * 2048 + s.val) * 64 + d.val) / 64 % 2048 = s.val; omega
    | ⟨4, _⟩ => show (((n.val * 16 + h.val) * 2048 + s.val) * 64 + d.val) % 64 = d.val; omega)

/-- The same reshape on the key path. -/
theorem idx_v9 (n : Fin 2) (h : Fin 16) (s : Fin 2048) (d : Fin 64) :
    idx_main_v9 (ix4 n h s d) = ix5 (0 : Fin 1) n h s d := idx_v7 n h s d

/-- The same reshape on the value path. -/
theorem idx_v11 (n : Fin 2) (h : Fin 16) (s : Fin 2048) (d : Fin 64) :
    idx_main_v11 (ix4 n h s d) = ix5 (0 : Fin 1) n h s d := idx_v7 n h s d

/-- The slice of part 0. -/
theorem idx_v6 (n : Fin 2) (h : Fin 16) (s : Fin 2048) (d : Fin 64) :
    idx_main_v6 (ix5 (0 : Fin 1) n h s d) = ix5 (0 : Fin 3) n h s d :=
  funext fun a => match a with | ⟨0, _⟩ => rfl | ⟨1, _⟩ => rfl | ⟨2, _⟩ => rfl | ⟨3, _⟩ => rfl | ⟨4, _⟩ => rfl

/-- The slice of part 1. -/
theorem idx_v8 (n : Fin 2) (h : Fin 16) (s : Fin 2048) (d : Fin 64) :
    idx_main_v8 (ix5 (0 : Fin 1) n h s d) = ix5 (1 : Fin 3) n h s d :=
  funext fun a => match a with | ⟨0, _⟩ => rfl | ⟨1, _⟩ => rfl | ⟨2, _⟩ => rfl | ⟨3, _⟩ => rfl | ⟨4, _⟩ => rfl

/-- The slice of part 2. -/
theorem idx_v10 (n : Fin 2) (h : Fin 16) (s : Fin 2048) (d : Fin 64) :
    idx_main_v10 (ix5 (0 : Fin 1) n h s d) = ix5 (2 : Fin 3) n h s d :=
  funext fun a => match a with | ⟨0, _⟩ => rfl | ⟨1, _⟩ => rfl | ⟨2, _⟩ => rfl | ⟨3, _⟩ => rfl | ⟨4, _⟩ => rfl

/-- The transpose (3,0,2,1,4). -/
theorem idx_v5 (t : Fin 3) (n : Fin 2) (h : Fin 16) (s : Fin 2048) (d : Fin 64) :
    idx_main_v5 (ix5 t n h s d) = ix5 n s h t d :=
  funext fun a => match a with | ⟨0, _⟩ => rfl | ⟨1, _⟩ => rfl | ⟨2, _⟩ => rfl | ⟨3, _⟩ => rfl | ⟨4, _⟩ => rfl

/-- The reshape: part t of head h, channel d, is column 192·h + 64·t + d. -/
theorem idx_v4 (t : Fin 3) (n : Fin 2) (h : Fin 16) (s : Fin 2048) (d : Fin 64) :
    idx_main_v4 (ix5 n s h t d) = ix3 n s (Spec.col t h d) :=
  funext fun a => Fin.ext (by
    have := n.isLt; have := h.isLt; have := s.isLt; have := d.isLt; have := t.isLt
    match a with
    | ⟨0, _⟩ => show ((((n.val * 2048 + s.val) * 16 + h.val) * 3 + t.val) * 64 + d.val) / 6291456 = n.val; omega
    | ⟨1, _⟩ => show ((((n.val * 2048 + s.val) * 16 + h.val) * 3 + t.val) * 64 + d.val) / 3072 % 2048 = s.val; omega
    | ⟨2, _⟩ => show ((((n.val * 2048 + s.val) * 16 + h.val) * 3 + t.val) * 64 + d.val) % 3072 = 192 * h.val + 64 * t.val + d.val; omega)

/-! ### The head mask, broadcast over a head's block -/

theorem idx_v13_v12 (n : Fin 2) (h : Fin 16) (s : Fin 2048) (d : Fin 64) :
    idx_main_v12 (idx_main_v13 (ix4 n h s d)) = ix1 h :=
  funext fun a => Fin.ext (by
    have := h.isLt
    match a with
    | ⟨0, _⟩ => show ((0 * 16 + h.val) * 1 + 0) * 1 + 0 = h.val; omega)

theorem idx_v15_v12 (n : Fin 2) (h : Fin 16) (s : Fin 2048) (d : Fin 64) :
    idx_main_v12 (idx_main_v15 (ix4 n h s d)) = ix1 h := idx_v13_v12 n h s d

theorem idx_v17_v12 (n : Fin 2) (h : Fin 16) (s : Fin 2048) (d : Fin 64) :
    idx_main_v12 (idx_main_v17 (ix4 n h s d)) = ix1 h := idx_v13_v12 n h s d

/-! ### The two contractions inside a head -/

theorem lidx_v19 (n : Fin 2) (h : Fin 16) (q k : Fin 2048) (d : Fin 64) :
    lidx_main_v19 (ix4 n h q k) d = ix4 n h q d :=
  funext fun a => match a with | ⟨0, _⟩ => rfl | ⟨1, _⟩ => rfl | ⟨2, _⟩ => rfl | ⟨3, _⟩ => rfl

theorem ridx_v19 (n : Fin 2) (h : Fin 16) (q k : Fin 2048) (d : Fin 64) :
    ridx_main_v19 (ix4 n h q k) d = ix4 n h k d :=
  funext fun a => match a with | ⟨0, _⟩ => rfl | ⟨1, _⟩ => rfl | ⟨2, _⟩ => rfl | ⟨3, _⟩ => rfl

theorem lidx_v34 (n : Fin 2) (h : Fin 16) (q : Fin 2048) (d : Fin 64) (k : Fin 2048) :
    lidx_main_v34 (ix4 n h q d) k = ix4 n h q k :=
  funext fun a => match a with | ⟨0, _⟩ => rfl | ⟨1, _⟩ => rfl | ⟨2, _⟩ => rfl | ⟨3, _⟩ => rfl

theorem ridx_v34 (n : Fin 2) (h : Fin 16) (q : Fin 2048) (d : Fin 64) (k : Fin 2048) :
    ridx_main_v34 (ix4 n h q d) k = ix4 n h k d :=
  funext fun a => match a with | ⟨0, _⟩ => rfl | ⟨1, _⟩ => rfl | ⟨2, _⟩ => rfl | ⟨3, _⟩ => rfl

/-! ### A query row's statistics, broadcast back over the row -/

theorem idx_v30 (n : Fin 2) (h : Fin 16) (q k : Fin 2048) :
    idx_main_v30 (ix3 n h q) k = ix4 n h q k :=
  funext fun a => match a with | ⟨0, _⟩ => rfl | ⟨1, _⟩ => rfl | ⟨2, _⟩ => rfl | ⟨3, _⟩ => rfl

theorem idx_v27_v26 (n : Fin 2) (h : Fin 16) (q k : Fin 2048) :
    idx_main_v26 (idx_main_v27 (ix4 n h q k)) = ix3 n h q :=
  funext fun a => match a with | ⟨0, _⟩ => rfl | ⟨1, _⟩ => rfl | ⟨2, _⟩ => rfl

theorem idx_v32_v31 (n : Fin 2) (h : Fin 16) (q k : Fin 2048) :
    idx_main_v31 (idx_main_v32 (ix4 n h q k)) = ix3 n h q :=
  funext fun a => match a with | ⟨0, _⟩ => rfl | ⟨1, _⟩ => rfl | ⟨2, _⟩ => rfl

/-! ### Merging the heads and the output projection -/

/-- Column j of the merged array is channel j % 64 of head j / 64. -/
theorem idx_v36_v35 (n : Fin 2) (s : Fin 2048) (j : Fin 1024) :
    idx_main_v35 (idx_main_v36 (ix3 n s j)) = ix4 n (⟨j.val / 64, by omega⟩ : Fin 16) s (⟨j.val % 64, by omega⟩ : Fin 64) :=
  funext fun a => Fin.ext (by
    have := n.isLt; have := s.isLt; have := j.isLt
    match a with
    | ⟨0, _⟩ => show ((n.val * 2048 + s.val) * 1024 + j.val) / 2097152 = n.val; omega
    | ⟨1, _⟩ => show ((n.val * 2048 + s.val) * 1024 + j.val) / 64 % 16 = j.val / 64; omega
    | ⟨2, _⟩ => show ((n.val * 2048 + s.val) * 1024 + j.val) / 1024 % 2048 = s.val; omega
    | ⟨3, _⟩ => show ((n.val * 2048 + s.val) * 1024 + j.val) % 64 = j.val % 64; omega)

theorem lidx_v37 (n : Fin 2) (s : Fin 2048) (e : Fin 1024) (k : Fin 1024) :
    lidx_main_v37 (ix3 n s e) k = ix3 n s k :=
  funext fun a => match a with | ⟨0, _⟩ => rfl | ⟨1, _⟩ => rfl | ⟨2, _⟩ => rfl

theorem ridx_v37 (n : Fin 2) (s : Fin 2048) (e : Fin 1024) (k : Fin 1024) :
    ridx_main_v37 (ix3 n s e) k = ix2 e k :=
  funext fun a => match a with | ⟨0, _⟩ => rfl | ⟨1, _⟩ => rfl

theorem idx_v39_v38 (n : Fin 2) (s : Fin 2048) (e : Fin 1024) :
    idx_main_v38 (idx_main_v39 (ix3 n s e)) = ix1 e :=
  funext fun a => match a with | ⟨0, _⟩ => rfl

end Cert.Hand.Ref

end
-- ==== Proof.Hand.RefValue.lean ====
/-
  The reference program's result, read index by index, is the specification's function of the six argument arrays.
  Each stage of the program is read at an index given by its coordinates and identified with the specification's
  name for it:

  * the joint projection  x · Wᵀ + b                                     (a contraction over the 1024 input channels),
  * the three masked parts of a head (query, key, value),               (layout operations and the head mask),
  * the scaled score: the quotient by √64 = 8 is the product with 1/8,
  * the row maximum: a fold of max from -∞, and max of -∞ with it again changes nothing,
  * the exponentials, their sum (from the initial value 0), the softmax weights,
  * the head's output (a contraction over the 2048 key positions),
  * the merged heads and the output projection (a contraction over the 1024 merged channels) plus its bias.
-/
import proofs.«144100_j59261958750606_2_alg».proof.Proof.Hand.RefConsts
import proofs.«144100_j59261958750606_2_alg».proof.Proof.Hand.RefIndex

noncomputable section

namespace Cert.Hand.Ref

open Cert.ReferenceIdeal Cert.ReferenceIdeal.Gen Cert.ReferenceIdeal.Read Idealize.ShloMosaic Idealize.ShloMosaic.ValueIdx
open Cert.Hand

variable (x : Spec.Arr3 2 2048 1024) (hm : Spec.Arr1 16) (W : Spec.Arr2 3072 1024) (b : Spec.Arr1 3072)
  (Wf : Spec.Arr2 1024 1024) (bf : Spec.Arr1 1024)

/-- The joint projection. -/
theorem proj_eq (n : Fin 2) (s : Fin 2048) (e : Fin 3072) :
    val_main_v3 (F := Ideal) x W b (ix3 n s e) = Spec.proj x W b n s e := by
  rw [val_main_v3_apply, val_main_v0_apply, val_main_v2_apply, val_main_v1_apply, idx_v2_v1]
  simp only [lidx_v0, ridx_v0]
  rfl

/-- The head mask over a head's block (the program broadcasts it three times, once per part). -/
theorem mask_eq (n : Fin 2) (h : Fin 16) (s : Fin 2048) (d : Fin 64) :
    val_main_v13 (F := Ideal) hm (ix4 n h s d) = hm (ix1 h) := by
  rw [val_main_v13_apply, val_main_v12_apply, idx_v13_v12]

theorem mask1_eq (n : Fin 2) (h : Fin 16) (s : Fin 2048) (d : Fin 64) :
    val_main_v15 (F := Ideal) hm (ix4 n h s d) = hm (ix1 h) := by
  rw [val_main_v15_apply, val_main_v12_apply, idx_v15_v12]

theorem mask2_eq (n : Fin 2) (h : Fin 16) (s : Fin 2048) (d : Fin 64) :
    val_main_v17 (F := Ideal) hm (ix4 n h s d) = hm (ix1 h) := by
  rw [val_main_v17_apply, val_main_v12_apply, idx_v17_v12]

/-- The query part of a head. -/
theorem part0_eq (n : Fin 2) (h : Fin 16) (s : Fin 2048) (d : Fin 64) :
    val_main_v14 (F := Ideal) x hm W b (ix4 n h s d) = Spec.part x hm W b 0 n h s d := by
  rw [val_main_v14_apply, val_main_v7_apply, idx_v7, val_main_v6_apply, idx_v6, val_main_v5_apply, idx_v5,
    val_main_v4_apply, idx_v4, proj_eq, mask_eq]
  rfl

/-- The key part of a head. -/
theorem part1_eq (n : Fin 2) (h : Fin 16) (s : Fin 2048) (d : Fin 64) :
    val_main_v16 (F := Ideal) x hm W b (ix4 n h s d) = Spec.part x hm W b 1 n h s d := by
  rw [val_main_v16_apply, val_main_v9_apply, idx_v9, val_main_v8_apply, idx_v8, val_main_v5_apply, idx_v5,
    val_main_v4_apply, idx_v4, proj_eq, mask1_eq]
  rfl

/-- The value part of a head. -/
theorem part2_eq (n : Fin 2) (h : Fin 16) (s : Fin 2048) (d : Fin 64) :
    val_main_v18 (F := Ideal) x hm W b (ix4 n h s d) = Spec.part x hm W b 2 n h s d := by
  rw [val_main_v18_apply, val_main_v11_apply, idx_v11, val_main_v10_apply, idx_v10, val_main_v5_apply, idx_v5,
    val_main_v4_apply, idx_v4, proj_eq, mask2_eq]
  rfl

/-- The scaled score: the quotient by the square root of 64 is the product with 1/8. -/
theorem score_eq (n : Fin 2) (h : Fin 16) (q k : Fin 2048) :
    val_main_v22 (F := Ideal) x hm W b (ix4 n h q k) = Spec.score x hm W b n h q k := by
  rw [val_main_v22_apply, val_main_v19_apply, val_main_v21_apply, val_main_v20_apply, val_main_cst_apply]
  simp only [lidx_v19, ridx_v19, part0_eq, part1_eq]
  rw [Ideal.hostDivf_def, Ideal.hostUnary_sqrt_def, Ideal.ofBits_def, div_sqrt_64]
  rfl

/-- The reduced axis is the last of four. -/
theorem reduces_d3 : S2x16x2048x2048.Reduces [3] S2x16x2048 := by decide

/-- The source index over (n, h, q) with k on the reduced axis. -/
theorem lift_d3 (n : Fin 2) (h : Fin 16) (q k : Fin 2048) :
    reduces_d3.lift (ix3 n h q) k = ix4 n h q k :=
  funext fun a => Fin.ext (by match a with | ⟨0, _⟩ => rfl | ⟨1, _⟩ => rfl | ⟨2, _⟩ => rfl | ⟨3, _⟩ => rfl)

/-- The maximum reduction from -∞ over the key positions. -/
theorem reduceMax_eq (n : Fin 2) (h : Fin 16) (q : Fin 2048) :
    val_main_v23 (F := Ideal) x hm W b (ix3 n h q) = Spec.rowMax x hm W b n h q := by
  have hf : (val_main_v22 (F := Ideal) x hm W b ∘ reduces_d3.lift (ix3 n h q))
      = fun k : Fin 2048 => Spec.score x hm W b n h q k := by
    funext k
    exact (congrArg (val_main_v22 (F := Ideal) x hm W b) (lift_d3 n h q k)).trans (score_eq x hm W b n h q k)
  unfold val_main_v23
  refine (Host.reduce_eq_fold_single FloatOps.maximumf _ _ _ reduces_d3 _ _).trans ?_
  exact congrArg (fun f => Finset.fold max (Ideal.ofBits .f32 0xFF800000#32) f (Finset.univ : Finset (Fin 2048))) hf

/-- The row maximum: the maximum of -∞ and a fold of max that started from -∞ is that fold. -/
theorem rowMax_eq (n : Fin 2) (h : Fin 16) (q : Fin 2048) :
    val_main_v25 (F := Ideal) x hm W b (ix3 n h q) = Spec.rowMax x hm W b n h q := by
  rw [val_main_v25_apply, val_main_v24_apply, val_main_cst_1_apply, reduceMax_eq]
  exact max_eq_right ((Finset.le_fold_max _).2 (Or.inl le_rfl))

/-- The exponential of the score less the row maximum. -/
theorem expo_eq (n : Fin 2) (h : Fin 16) (q k : Fin 2048) :
    val_main_v29 (F := Ideal) x hm W b (ix4 n h q k) = Spec.expo x hm W b n h q k := by
  rw [val_main_v29_apply, val_main_v28_apply, val_main_v27_apply, val_main_v26_apply, idx_v27_v26, rowMax_eq, score_eq]
  rfl

/-- The sum of a row's exponentials: the initial value is zero. -/
theorem denom_eq (n : Fin 2) (h : Fin 16) (q : Fin 2048) :
    val_main_v30 (F := Ideal) x hm W b (ix3 n h q) = Spec.denom x hm W b n h q := by
  rw [val_main_v30_apply, val_main_cst_2_apply]
  simp only [idx_v30, expo_eq]
  rw [Ideal.ofBits_def, Ideal.ofBits_zero_f32, zero_add]
  rfl

/-- The softmax weights. -/
theorem weight_eq (n : Fin 2) (h : Fin 16) (q k : Fin 2048) :
    val_main_v33 (F := Ideal) x hm W b (ix4 n h q k) = Spec.weight x hm W b n h q k := by
  rw [val_main_v33_apply, val_main_v32_apply, val_main_v31_apply, idx_v32_v31, denom_eq, expo_eq]
  rfl

/-- A head's output: the weighted sum of the value rows. -/
theorem headOut_eq (n : Fin 2) (h : Fin 16) (q : Fin 2048) (d : Fin 64) :
    val_main_v34 (F := Ideal) x hm W b (ix4 n h q d) = Spec.headOut x hm W b n h q d := by
  rw [val_main_v34_apply]
  simp only [lidx_v34, ridx_v34, weight_eq, part2_eq]
  rfl

/-- The heads merged head-major. -/
theorem merged_eq (n : Fin 2) (s : Fin 2048) (j : Fin 1024) :
    val_main_v36 (F := Ideal) x hm W b (ix3 n s j) = Spec.merged x hm W b n s j := by
  rw [val_main_v36_apply, val_main_v35_apply, idx_v36_v35, headOut_eq]
  rfl

/-- The output projection at an index given by its coordinates. -/
theorem result_ix (n : Fin 2) (s : Fin 2048) (e : Fin 1024) :
    val_main_v40 (F := Ideal) x hm W b Wf bf (ix3 n s e) = Spec.result x hm W b Wf bf (ix3 n s e) := by
  rw [val_main_v40_apply, val_main_v37_apply, val_main_v39_apply, val_main_v38_apply, idx_v39_v38]
  simp only [lidx_v37, ridx_v37, merged_eq]
  rfl

/-- The reference's result is the specification's function of the six argument arrays. -/
theorem result_eq : val_main_v40 (F := Ideal) x hm W b Wf bf = Spec.result x hm W b Wf bf := by
  funext i
  rw [eq_ix3 i]
  exact result_ix x hm W b Wf bf (i 0) (i 1) (i 2)

end Cert.Hand.Ref

end
-- ==== Proof.Hand.RefRun.lean ====
/-
  The reference program's run, stated against the specification: every weakly fair execution terminates with the
  result buffer holding the specification's function of the six argument arrays as they were at launch, and the
  argument arrays unchanged. The generated run gives the result as the operations' composed term; that term is the
  composition of the stages read in the value module, which is the specification's function.
-/
import proofs.«144100_j59261958750606_2_alg».proof.Proof.Hand.RefValue

noncomputable section

namespace Cert.Hand.Ref

open Cert.ReferenceIdeal Cert.ReferenceIdeal.Gen Idealize.ShloMosaic Idealize.ShloMosaic.TcCoe Idealize.SL.Sem Idealize.ShloMosaic.StableHlo
open Cert.Hand

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40)
        = Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((Cert.ReferenceIdeal.Read.val_main_v40_eq m c).trans (result_eq _ _ _ _ _ _)), (h c).2⟩)
    (Cert.ReferenceIdeal.Value.run (F := Ideal) m ρ)

end Cert.Hand.Ref

end
-- ==== Proof.lean ====
/-
  Multi-head attention as three kernel calls — the joint query/key/value projection with its weight rows gathered
  part-major, attention per batch entry, pair of heads and tile of queries, and the output projection — against the
  plain formulation: one projection, heads split off by reshaping, masked, softmax of the scaled scores, heads merged,
  output projection. At the ideal instance both compute, index by index, the one function `Cert.Hand.Spec.result` of
  the six argument arrays: a change of float format is the identity there, a matrix product is a sum over the
  contracted index whatever its blocking, the kernel's factor 1/8 is the reference's division by the square root of
  64, and the gathered weight rows put column `1024·t + 64·h + d` of the kernel's projection where the reference's
  reshape puts column `192·h + 64·t + d`.

  The three frames: each kernel program's run is the chain of its host stretches and calls (`Hand.run_all`,
  `Hand.frame`), the reference's its generated run. The idealization rewrote nothing, so `preserves` is trivial.
-/
import proofs.«144100_j59261958750606_2_alg».proof.Defs
import proofs.«144100_j59261958750606_2_alg».proof.Proof.Gen.Kernel
import proofs.«144100_j59261958750606_2_alg».proof.Proof.Gen.KernelIdeal
import proofs.«144100_j59261958750606_2_alg».proof.Proof.Gen.ReferenceIdeal
import proofs.«144100_j59261958750606_2_alg».proof.Proof.Gen.ReferenceIdeal.Run
import proofs.«144100_j59261958750606_2_alg».proof.Proof.Gen.ReferenceIdeal.Read
import proofs.«144100_j59261958750606_2_alg».proof.Proof.Gen.Pre_finite_inputs
import proofs.«144100_j59261958750606_2_alg».proof.Proof.Hand.RunB
import proofs.«144100_j59261958750606_2_alg».proof.Proof.Hand.KValue
import proofs.«144100_j59261958750606_2_alg».proof.Proof.Hand.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.Hand.Ref.run_spec m ρ)

/-- Both idealized programs end with the result array at `Spec.result` of arguments that agree. -/
theorem algebraic : Cert.algebraic_KernelIdeal_ReferenceIdeal := by
  intro m ρ m' ρ' _ hagree
  refine ⟨fun c => Cert.Hand.Spec.result (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5)),
    Cert.KernelIdeal.Hand.run_value m ρ, ?_⟩
  refine (θ_run Cert.ReferenceIdeal.defs _ _).mono (fun _ h c => ⟨(h c).1.trans ?_, (h c).2⟩) (Cert.Hand.Ref.run_spec m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
